-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x128 : Shape := ⟨3, ![1024, 64, 128]⟩
abbrev S1024x64 : Shape := ⟨2, ![1024, 64]⟩
abbrev S100000x128 : Shape := ⟨2, ![100000, 128]⟩
abbrev S100000 : Shape := ⟨1, ![100000]⟩
abbrev S2048 : Shape := ⟨1, ![2048]⟩
abbrev S_ : Shape := ⟨0, ![]⟩
abbrev S65536 : Shape := ⟨1, ![65536]⟩
abbrev S65536x1 : Shape := ⟨2, ![65536, 1]⟩
abbrev S2048x1 : Shape := ⟨2, ![2048, 1]⟩

class Facts : Prop where
  bcast_S_S1024x64x128 : S_.BroadcastsInDim S1024x64x128 (![] : Fin 0 → Fin S1024x64x128.rank)
  reducesTo_S1024x64x128_S_d0_1_2 : S1024x64x128.ReducesTo [0, 1, 2] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_
  reducesTo_S_S_d : S_.ReducesTo [] S_
  shapeCasts_S1024x64_S65536 : S1024x64.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  reducesTo_S65536_S_d0 : S65536.ReducesTo [0] S_
  bcast_S_S2048 : S_.BroadcastsInDim S2048 (![] : Fin 0 → Fin S2048.rank)
  bcast_S2048_S2048x1_0 : S2048.BroadcastsInDim S2048x1 (![0] : Fin 1 → Fin S2048x1.rank)
  reducesTo_S2048_S_d0 : S2048.ReducesTo [0] S_
  gather_S100000_S65536x1_S65536_n_0_n_n_0_1_1_wf : GatherDims.WF S100000 S65536x1 S65536 [] [0] [] [0] [] 1 ![1]
  gather_S100000_S2048x1_S2048_n_0_n_n_0_1_1_wf : GatherDims.WF S100000 S2048x1 S2048 [] [0] [] [0] [] 1 ![1]

variable [Facts]

def gather_S100000_S65536x1_S65536_n_0_n_n_0_1_1 : GatherDims S100000 S65536x1 S65536 where
  offsetDims := []
  collapsedSliceDims := [0]
  operandBatchingDims := []
  startIndicesBatchingDims := []
  startIndexMap := [0]
  indexVectorDim := 1
  sliceSizes := ![1]
  wf := gather_S100000_S65536x1_S65536_n_0_n_n_0_1_1_wf
def gather_S100000_S2048x1_S2048_n_0_n_n_0_1_1 : GatherDims S100000 S2048x1 S2048 where
  offsetDims := []
  collapsedSliceDims := [0]
  operandBatchingDims := []
  startIndicesBatchingDims := []
  startIndexMap := [0]
  indexVectorDim := 1
  sliceSizes := ![1]
  wf := gather_S100000_S2048x1_S2048_n_0_n_n_0_1_1_wf
def fn_part2 {F : FTy → Type} [FloatOps F] (main_arg3 : FVec F S100000 .f32) (main_arg4 : IVec S2048 32) (main_v31 : IVec S_ 1) (main_v33 : IVec S2048 1) : IVec S_ 1 :=
  let main_c_12 : IVec S_ 32 := constantI S_ 32 100000#32
  let main_v34 : IVec S2048 32 := broadcastInDim S2048 ![] bcast_S_S2048 main_c_12
  let main_v35 : IVec S2048 32 := addi main_arg4 main_v34
  let main_v36 : IVec S2048 32 := select main_v33 main_v35 main_arg4
  let main_v37 : IVec S2048x1 32 := broadcastInDim S2048x1 ![0] bcast_S2048_S2048x1_0 main_v36
  let main_v38 : FVec F S2048 .f32 := (fun x i => Host.gather gather_S100000_S2048x1_S2048_n_0_n_n_0_1_1 x i) main_arg3 main_v37
  let main_cst_13 : FVec F S_ .f32 := constant S_ .f32 0x2EDBE6FF#32
  let main_v39 : FVec F S2048 .f32 := broadcastInDim S2048 ![] bcast_S_S2048 main_cst_13
  let main_v40 : FVec F S2048 .f32 := addf main_v38 main_v39
  let main_cst_14 : FVec F S_ .f32 := constant S_ .f32 0x00000000#32
  let main_v41 : FVec F S2048 .f32 := broadcastInDim S2048 ![] bcast_S_S2048 main_cst_14
  let main_v42 : IVec S2048 1 := cmpf .ogt main_v40 main_v41
  let main_c_15 : IVec S_ 1 := constantI S_ 1 1#1
  let main_v43 : IVec S_ 1 := (fun x v => Host.reduce IntOp.andi x v reducesTo_S2048_S_d0 h_S_) main_v42 main_c_15
  let main_v44 : IVec S_ 1 := andi main_v31 main_v43
  main_v44

def fn_part1 {F : FTy → Type} [FloatOps F] (main_arg1 : IVec S1024x64 32) (main_arg3 : FVec F S100000 .f32) (main_arg4 : IVec S2048 32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : IVec S65536 32 := shapeCast S65536 main_arg1 shapeCasts_S1024x64_S65536
  let main_c_6 : IVec S_ 32 := constantI S_ 32 0#32
  let main_v19 : IVec S65536 32 := broadcastInDim S65536 ![] bcast_S_S65536 main_c_6
  let main_v20 : IVec S65536 1 := cmpi .slt main_v18 main_v19
  let main_c_7 : IVec S_ 32 := constantI S_ 32 100000#32
  let main_v21 : IVec S65536 32 := broadcastInDim S65536 ![] bcast_S_S65536 main_c_7
  let main_v22 : IVec S65536 32 := addi main_v18 main_v21
  let main_v23 : IVec S65536 32 := select main_v20 main_v22 main_v18
  let main_v24 : IVec S65536x1 32 := broadcastInDim S65536x1 ![0] bcast_S65536_S65536x1_0 main_v23
  let main_v25 : FVec F S65536 .f32 := (fun x i => Host.gather gather_S100000_S65536x1_S65536_n_0_n_n_0_1_1 x i) main_arg3 main_v24
  let main_cst_8 : FVec F S_ .f32 := constant S_ .f32 0x2EDBE6FF#32
  let main_v26 : FVec F S65536 .f32 := broadcastInDim S65536 ![] bcast_S_S65536 main_cst_8
  let main_v27 : FVec F S65536 .f32 := addf main_v25 main_v26
  let main_cst_9 : FVec F S_ .f32 := constant S_ .f32 0x00000000#32
  let main_v28 : FVec F S65536 .f32 := broadcastInDim S65536 ![] bcast_S_S65536 main_cst_9
  let main_v29 : IVec S65536 1 := cmpf .ogt main_v27 main_v28
  let main_c_10 : IVec S_ 1 := constantI S_ 1 1#1
  let main_v30 : IVec S_ 1 := (fun x v => Host.reduce IntOp.andi x v reducesTo_S65536_S_d0 h_S_) main_v29 main_c_10
  let main_v31 : IVec S_ 1 := andi main_v17 main_v30
  let main_c_11 : IVec S_ 32 := constantI S_ 32 0#32
  let main_v32 : IVec S2048 32 := broadcastInDim S2048 ![] bcast_S_S2048 main_c_11
  let main_v33 : IVec S2048 1 := cmpi .slt main_arg4 main_v32
  fn_part2 (F := F) main_arg3 main_arg4 main_v31 main_v33

def fn {F : FTy → Type} [FloatOps F] (main_arg0 : FVec F S1024x64x128 .f32) (main_arg1 : IVec S1024x64 32) (main_arg2 : FVec F S100000x128 .f32) (main_arg3 : FVec F S100000 .f32) (main_arg4 : IVec S2048 32) (main_arg5 : FVec F S_ .f32) : IVec S_ 1 :=
  let main_v0 : FVec F S1024x64x128 .f32 := Host.absf main_arg0
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  let main_c : IVec S_ 1 := constantI S_ 1 1#1
  let main_v3 : IVec S_ 1 := (fun x v => Host.reduce IntOp.andi x v reducesTo_S1024x64x128_S_d0_1_2 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg1 main_arg3 main_arg4 main_v13 main_v15 main_c_5
-- ==== Kernel.lean ====
abbrev S1024x64x128 : Shape := ⟨3, ![1024, 64, 128]⟩
abbrev S1024x64 : Shape := ⟨2, ![1024, 64]⟩
abbrev S100000x128 : Shape := ⟨2, ![100000, 128]⟩
abbrev S100000 : Shape := ⟨1, ![100000]⟩
abbrev S2048 : Shape := ⟨1, ![2048]⟩
abbrev S_ : Shape := ⟨0, ![]⟩
abbrev S65536x128 : Shape := ⟨2, ![65536, 128]⟩
abbrev S65536 : Shape := ⟨1, ![65536]⟩
abbrev S65536x1 : Shape := ⟨2, ![65536, 1]⟩
abbrev S2048x1 : Shape := ⟨2, ![2048, 1]⟩
abbrev S2048x128 : Shape := ⟨2, ![2048, 128]⟩
abbrev S128x2048 : Shape := ⟨2, ![128, 2048]⟩
abbrev S1x65536 : Shape := ⟨2, ![1, 65536]⟩
abbrev S1x2048 : Shape := ⟨2, ![1, 2048]⟩
abbrev S1x1 : Shape := ⟨2, ![1, 1]⟩
abbrev S2x1x2 : Shape := ⟨3, ![2, 1, 2]⟩
abbrev S1024x128 : Shape := ⟨2, ![1024, 128]⟩
abbrev S1x1024 : Shape := ⟨2, ![1, 1024]⟩
abbrev S1x1x2 : Shape := ⟨3, ![1, 1, 2]⟩
abbrev S1024 : Shape := ⟨1, ![1024]⟩
abbrev S1024x1 : Shape := ⟨2, ![1024, 1]⟩
abbrev S1024x2048 : Shape := ⟨2, ![1024, 2048]⟩
abbrev S1 : Shape := ⟨1, ![1]⟩
abbrev S1x2 : Shape := ⟨2, ![1, 2]⟩
abbrev S1x1x1 : Shape := ⟨3, ![1, 1, 1]⟩

abbrev nBuf : Space → Nat
  | .hbm => 98
  | .vmem => 14
  | .smem => 0
  | _ => 0

abbrev bufTy : (tb : Table) → Fin (tcTables nBuf tb) → BufTy
  | .hbm, ⟨0, _⟩ => ⟨S1024x64x128, .f32⟩
  | .hbm, ⟨1, _⟩ => ⟨S1024x64, .i32⟩
  | .hbm, ⟨2, _⟩ => ⟨S100000x128, .f32⟩
  | .hbm, ⟨3, _⟩ => ⟨S100000, .f32⟩
  | .hbm, ⟨4, _⟩ => ⟨S2048, .i32⟩
  | .hbm, ⟨5, _⟩ => ⟨S_, .f32⟩
  | .hbm, ⟨6, _⟩ => ⟨S65536x128, .f32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x128, .f32⟩
  | .hbm, ⟨17, _⟩ => ⟨S65536x128, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x128, .f32⟩
  | .hbm, ⟨26, _⟩ => ⟨S65536x128, .f32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S65536, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x128, .f32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048x128, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S2048x128, .f32⟩
  | .hbm, ⟨69, _⟩ => ⟨S2048x128, .bf16⟩
  | .hbm, ⟨70, _⟩ => ⟨S128x2048, .bf16⟩
  | .hbm, ⟨71, _⟩ => ⟨S_, .f32⟩
  | .hbm, ⟨72, _⟩ => ⟨S65536, .f32⟩
  | .hbm, ⟨73, _⟩ => ⟨S65536, .f32⟩
  | .hbm, ⟨74, _⟩ => ⟨S65536, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S2048, .f32⟩
  | .hbm, ⟨79, _⟩ => ⟨S1x65536, .i32⟩
  | .hbm, ⟨80, _⟩ => ⟨S1x65536, .f32⟩
  | .hbm, ⟨81, _⟩ => ⟨S1x2048, .f32⟩
  | .hbm, ⟨82, _⟩ => ⟨S1x2048, .i32⟩
  | .hbm, ⟨83, _⟩ => ⟨S1x1, .f32⟩
  | .hbm, ⟨84, _⟩ => ⟨S2x1x2, .f32⟩
  | .hbm, ⟨85, _⟩ => ⟨S1x1x1, .f32⟩
  | .hbm, ⟨86, _⟩ => ⟨S_, .f32⟩
  | .hbm, ⟨87, _⟩ => ⟨S1x1x1, .f32⟩
  | .hbm, ⟨88, _⟩ => ⟨S_, .f32⟩
  | .hbm, ⟨89, _⟩ => ⟨S_, .f32⟩
  | .hbm, ⟨90, _⟩ => ⟨S1x1x1, .f32⟩
  | .hbm, ⟨91, _⟩ => ⟨S_, .f32⟩
  | .hbm, ⟨92, _⟩ => ⟨S1x1x1, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1024, .i32⟩
  | .local _ .vmem, ⟨5, _⟩ => ⟨S1x1024, .i32⟩
  | .local _ .vmem, ⟨6, _⟩ => ⟨S1x1024, .f32⟩
  | .local _ .vmem, ⟨7, _⟩ => ⟨S1x1024, .f32⟩
  | .local _ .vmem, ⟨8, _⟩ => ⟨S128x2048, .bf16⟩
  | .local _ .vmem, ⟨9, _⟩ => ⟨S1x2048, .f32⟩
  | .local _ .vmem, ⟨10, _⟩ => ⟨S1x2048, .i32⟩
  | .local _ .vmem, ⟨11, _⟩ => ⟨S1x1, .f32⟩
  | .local _ .vmem, ⟨12, _⟩ => ⟨S1x1x2, .f32⟩
  | .local _ .vmem, ⟨13, _⟩ => ⟨S1x1x2, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S1024x64x128_S65536x128 : S1024x64x128.ShapeCasts S65536x128
  shapeCasts_S1024x64_S65536 : S1024x64.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  reducesTo_S65536x128_S65536_d1 : S65536x128.ReducesTo [1] S65536
  h_S_ : 0 < S_.numel
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  bcast_S_S2048 : S_.BroadcastsInDim S2048 (![] : Fin 0 → Fin S2048.rank)
  bcast_S2048_S2048x1_0 : S2048.BroadcastsInDim S2048x1 (![0] : Fin 1 → Fin S2048x1.rank)
  reducesTo_S2048x128_S2048_d1 : S2048x128.ReducesTo [1] S2048
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S2048x128 : S_.BroadcastsInDim S2048x128 (![] : Fin 0 → Fin S2048x128.rank)
  bitsLt_bf16_f32 : FTy.bits .bf16 < FTy.bits .f32
  transposes_S2048x128_S128x2048_1_0 : S2048x128.Transposes [1, 0] S128x2048
  shapeCasts_S65536_S1x65536 : S65536.ShapeCasts S1x65536
  shapeCasts_S2048_S1x2048 : S2048.ShapeCasts S1x2048
  shapeCasts_S_S1x1 : S_.ShapeCasts S1x1
  inb_S1x1x2_S1x1x2_0_0_0 : ∀ a, (![0, 0, 0] : Fin 3 → Nat) a + S1x1x2.size a ≤ S1x1x2.size a
  h_S1x1x2 : 0 < S1x1x2.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  natLt_1_32 : 1 < 32
  reduces_S1024x1_S1 : S1024x1.Reduces [0] S1
  shapeCasts_S1_S1x1 : S1.ShapeCasts S1x1
  concatenates_S1x1_S1x1_S1x2_d1 : Shape.Concatenates [S1x1, S1x1] S1x2 1
  shapeCasts_S1x1x2_S1x1x2 : S1x1x2.ShapeCasts S1x1x2
  shapeCasts_S1x2_S1x1x2 : S1x2.ShapeCasts S1x1x2
  slices_S2x1x2_S1x1x1_0_0_0 : S2x1x2.Slices ![0, 0, 0] S1x1x1
  shapeCasts_S1x1x1_S_ : S1x1x1.ShapeCasts S_
  slices_S2x1x2_S1x1x1_1_0_0 : S2x1x2.Slices ![1, 0, 0] S1x1x1
  slices_S2x1x2_S1x1x1_0_0_1 : S2x1x2.Slices ![0, 0, 1] S1x1x1
  slices_S2x1x2_S1x1x1_1_0_1 : S2x1x2.Slices ![1, 0, 1] S1x1x1
  gather_S100000x128_S65536x1_S65536x128_1_0_n_n_0_1_1128_wf : GatherDims.WF S100000x128 S65536x1 S65536x128 [1] [0] [] [0] [] 1 ![1, 128]
  gather_S100000_S65536x1_S65536_n_0_n_n_0_1_1_wf : GatherDims.WF S100000 S65536x1 S65536 [] [0] [] [0] [] 1 ![1]
  gather_S100000x128_S2048x1_S2048x128_1_0_n_n_0_1_1128_wf : GatherDims.WF S100000x128 S2048x1 S2048x128 [1] [0] [] [0] [] 1 ![1, 128]
  gather_S100000_S2048x1_S2048_n_0_n_n_0_1_1_wf : GatherDims.WF S100000 S2048x1 S2048 [] [0] [] [0] [] 1 ![1]
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x65536.size a
  hwx0_2 : ∀ i : grid0.Coords, EltTy.bits .i32 = 32 ∨ (Rect.block (s := S1x65536) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x65536.size a
  hwx0_3 : ∀ i : grid0.Coords, EltTy.bits .f32 = 32 ∨ (Rect.block (s := S1x65536) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x2048.size a
  hwx0_4 : ∀ i : grid0.Coords, EltTy.bits .bf16 = 32 ∨ (Rect.block (s := S128x2048) S128x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .i32 = 32 ∨ (Rect.block (s := S1x2048) S1x2048.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2.size a ≤ S2x1x2.size a
  hwx0_8 : ∀ i : grid0.Coords, EltTy.bits .f32 = 32 ∨ (Rect.block (s := S2x1x2) S1x1x2.size (cc0_transform_8 i) (hinb0_8 i)).WholeWords (EltTy.packing .f32)

variable [Facts₀]

def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S100000_S65536x1_S65536_n_0_n_n_0_1_1 : GatherDims S100000 S65536x1 S65536 where
  offsetDims := []
  collapsedSliceDims := [0]
  operandBatchingDims := []
  startIndicesBatchingDims := []
  startIndexMap := [0]
  indexVectorDim := 1
  sliceSizes := ![1]
  wf := gather_S100000_S65536x1_S65536_n_0_n_n_0_1_1_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def gather_S100000_S2048x1_S2048_n_0_n_n_0_1_1 : GatherDims S100000 S2048x1 S2048 where
  offsetDims := []
  collapsedSliceDims := [0]
  operandBatchingDims := []
  startIndicesBatchingDims := []
  startIndexMap := [0]
  indexVectorDim := 1
  sliceSizes := ![1]
  wf := gather_S100000_S2048x1_S2048_n_0_n_n_0_1_1_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v45) S128x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S1x1x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x64x128 : Shape := ⟨3, ![1024, 64, 128]⟩
abbrev S1024x64 : Shape := ⟨2, ![1024, 64]⟩
abbrev S100000x128 : Shape := ⟨2, ![100000, 128]⟩
abbrev S100000 : Shape := ⟨1, ![100000]⟩
abbrev S2048 : Shape := ⟨1, ![2048]⟩
abbrev S_ : Shape := ⟨0, ![]⟩
abbrev S65536x128 : Shape := ⟨2, ![65536, 128]⟩
abbrev S65536 : Shape := ⟨1, ![65536]⟩
abbrev S65536x1 : Shape := ⟨2, ![65536, 1]⟩
abbrev S2048x1 : Shape := ⟨2, ![2048, 1]⟩
abbrev S2048x128 : Shape := ⟨2, ![2048, 128]⟩
abbrev S128x2048 : Shape := ⟨2, ![128, 2048]⟩
abbrev S65536x2048 : Shape := ⟨2, ![65536, 2048]⟩
abbrev S1x2048 : Shape := ⟨2, ![1, 2048]⟩
abbrev S65536x2049 : Shape := ⟨2, ![65536, 2049]⟩

abbrev nBuf : Space → Nat
  | .hbm => 139
  | .vmem => 0
  | .smem => 0
  | _ => 0

abbrev hbmTy0_0 (i : Nat) : BufTy := match i % 128 with
  | 0 => ⟨S1024x64x128, .f32⟩
  | 1 => ⟨S1024x64, .i32⟩
  | 2 => ⟨S100000x128, .f32⟩
  | 3 => ⟨S100000, .f32⟩
  | 4 => ⟨S2048, .i32⟩
  | 5 => ⟨S_, .f32⟩
  | 6 => ⟨S65536x128, .f32⟩
  | 7 => ⟨S65536, .i32⟩
  | 8 => ⟨S_, .i32⟩
  | 9 => ⟨S65536, .i32⟩
  | 10 => ⟨S65536, .i1⟩
  | 11 => ⟨S_, .i32⟩
  | 12 => ⟨S65536, .i32⟩
  | 13 => ⟨S65536, .i1⟩
  | 14 => ⟨S_, .i32⟩
  | 15 => ⟨S65536, .i32⟩
  | 16 => ⟨S65536, .i32⟩
  | 17 => ⟨S65536, .i32⟩
  | 18 => ⟨S65536x1, .i32⟩
  | 19 => ⟨S65536, .f32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048, .f32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S65536x128, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S2048x128, .f32⟩
  | 47 => ⟨S_, .f32⟩
  | 48 => ⟨S_, .f32⟩
  | 49 => ⟨S_, .f32⟩
  | 50 => ⟨S65536x128, .f32⟩
  | 51 => ⟨S_, .f32⟩
  | 52 => ⟨S65536, .f32⟩
  | 53 => ⟨S65536x1, .f32⟩
  | 54 => ⟨S65536x1, .f32⟩
  | 55 => ⟨S_, .f32⟩
  | 56 => ⟨S65536x1, .f32⟩
  | 57 => ⟨S65536x1, .f32⟩
  | 58 => ⟨S65536x128, .f32⟩
  | 59 => ⟨S65536x128, .f32⟩
  | 60 => ⟨S65536x128, .f32⟩
  | 61 => ⟨S_, .f32⟩
  | 62 => ⟨S65536, .f32⟩
  | 63 => ⟨S65536x1, .f32⟩
  | 64 => ⟨S65536x1, .f32⟩
  | 65 => ⟨S_, .f32⟩
  | 66 => ⟨S65536x1, .f32⟩
  | 67 => ⟨S65536x1, .f32⟩
  | 68 => ⟨S65536x128, .f32⟩
  | 69 => ⟨S65536x128, .f32⟩
  | 70 => ⟨S65536x128, .f32⟩
  | 71 => ⟨S_, .f32⟩
  | 72 => ⟨S65536, .f32⟩
  | 73 => ⟨S65536, .f32⟩
  | 74 => ⟨S65536, .f32⟩
  | 75 => ⟨S2048x128, .f32⟩
  | 76 => ⟨S_, .f32⟩
  | 77 => ⟨S2048, .f32⟩
  | 78 => ⟨S2048x1, .f32⟩
  | 79 => ⟨S2048x1, .f32⟩
  | 80 => ⟨S_, .f32⟩
  | 81 => ⟨S2048x1, .f32⟩
  | 82 => ⟨S2048x1, .f32⟩
  | 83 => ⟨S2048x128, .f32⟩
  | 84 => ⟨S2048x128, .f32⟩
  | 85 => ⟨S128x2048, .f32⟩
  | 86 => ⟨S65536x2048, .f32⟩
  | 87 => ⟨S65536x2048, .f32⟩
  | 88 => ⟨S65536x2048, .f32⟩
  | 89 => ⟨S65536x1, .i32⟩
  | 90 => ⟨S1x2048, .i32⟩
  | 91 => ⟨S65536x2048, .i32⟩
  | 92 => ⟨S65536x2048, .i32⟩
  | 93 => ⟨S65536x2048, .i1⟩
  | 94 => ⟨S_, .f32⟩
  | 95 => ⟨S_, .f32⟩
  | 96 => ⟨S65536x2048, .f32⟩
  | 97 => ⟨S65536x2048, .f32⟩
  | 98 => ⟨S_, .f32⟩
  | 99 => ⟨S65536, .f32⟩
  | 100 => ⟨S65536, .f32⟩
  | 101 => ⟨S65536, .f32⟩
  | 102 => ⟨S65536, .f32⟩
  | 103 => ⟨S_, .f32⟩
  | 104 => ⟨S2048, .f32⟩
  | 105 => ⟨S2048, .f32⟩
  | 106 => ⟨S2048, .f32⟩
  | 107 => ⟨S1x2048, .f32⟩
  | 108 => ⟨S65536x2048, .f32⟩
  | 109 => ⟨S65536x2048, .f32⟩
  | 110 => ⟨S65536x1, .f32⟩
  | 111 => ⟨S65536x2049, .f32⟩
  | 112 => ⟨S_, .f32⟩
  | 113 => ⟨S65536, .f32⟩
  | 114 => ⟨S_, .f32⟩
  | 115 => ⟨S65536, .f32⟩
  | 116 => ⟨S65536, .f32⟩
  | 117 => ⟨S65536x1, .f32⟩
  | 118 => ⟨S65536x2049, .f32⟩
  | 119 => ⟨S65536x2049, .f32⟩
  | 120 => ⟨S65536x2049, .f32⟩
  | 121 => ⟨S_, .f32⟩
  | 122 => ⟨S65536, .f32⟩
  | 123 => ⟨S65536x1, .f32⟩
  | 124 => ⟨S65536x1, .f32⟩
  | 125 => ⟨S65536x2049, .f32⟩
  | 126 => ⟨S65536x2049, .f32⟩
  | 127 => ⟨S65536x1, .f32⟩
  | _ => ⟨S1024x64x128, .f32⟩

abbrev hbmTy0_1 (i : Nat) : BufTy := match i % 128 with
  | 0 => ⟨S65536, .f32⟩
  | 1 => ⟨S65536, .f32⟩
  | 2 => ⟨S65536, .f32⟩
  | 3 => ⟨S65536, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S1024x64x128, .f32⟩

abbrev hbmTy (i : Nat) : BufTy := match i / 128 with
  | 0 => hbmTy0_0 i
  | 1 => hbmTy0_1 i
  | _ => ⟨S1024x64x128, .f32⟩

abbrev bufTy : (tb : Table) → Fin (tcTables nBuf tb) → BufTy
  | .hbm, ⟨i, _⟩ => hbmTy i
  | _, _ => ⟨S1024x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_cst : Ref sig .tc := ⟨.hbm, 61, rfl⟩
abbrev main_call1_v1 : Ref sig .tc := ⟨.hbm, 62, rfl⟩
abbrev main_call1_v2 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call2_v0 : Ref sig .tc := ⟨.hbm, 75, rfl⟩
abbrev main_call2_cst : Ref sig .tc := ⟨.hbm, 76, rfl⟩
abbrev main_call2_v1 : Ref sig .tc := ⟨.hbm, 77, rfl⟩
abbrev main_call2_v2 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_call3_v0 : Ref sig .tc := ⟨.hbm, 95, rfl⟩
abbrev main_call3_v1 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call4_cst : Ref sig .tc := ⟨.hbm, 112, rfl⟩
abbrev main_call4_v0 : Ref sig .tc := ⟨.hbm, 113, rfl⟩
abbrev main_call4_cst_0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_v6 : Ref sig .tc := ⟨.hbm, 120, rfl⟩
abbrev main_call4_cst_1 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_15 : Ref sig .tc := ⟨.hbm, 132, rfl⟩
abbrev main_v81 : Ref sig .tc := ⟨.hbm, 133, rfl⟩
abbrev main_cst_16 : Ref sig .tc := ⟨.hbm, 134, rfl⟩
abbrev main_v82 : Ref sig .tc := ⟨.hbm, 135, rfl⟩
abbrev main_cst_17 : Ref sig .tc := ⟨.hbm, 136, rfl⟩
abbrev main_v83 : Ref sig .tc := ⟨.hbm, 137, rfl⟩
abbrev main_v84 : Ref sig .tc := ⟨.hbm, 138, rfl⟩

abbrev nD : Nat := 1
abbrev τ : Topo := Topo.v7x

variable {F : FTy → Type} [FloatOps F]

class Facts₀ : Prop where
  shapeCasts_S1024x64x128_S65536x128 : S1024x64x128.ShapeCasts S65536x128
  shapeCasts_S1024x64_S65536 : S1024x64.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S2048 : S_.BroadcastsInDim S2048 (![] : Fin 0 → Fin S2048.rank)
  bcast_S2048_S2048x1_0 : S2048.BroadcastsInDim S2048x1 (![0] : Fin 1 → Fin S2048x1.rank)
  reducesTo_S65536x128_S65536_d1 : S65536x128.ReducesTo [1] S65536
  h_S_ : 0 < S_.numel
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  reducesTo_S2048x128_S2048_d1 : S2048x128.ReducesTo [1] S2048
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  transposes_S2048x128_S128x2048_1_0 : S2048x128.Transposes [1, 0] S128x2048
  bcast_S_S65536x2048 : S_.BroadcastsInDim S65536x2048 (![] : Fin 0 → Fin S65536x2048.rank)
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  concatenates_S65536x1_S65536x2048_S65536x2049_d1 : Shape.Concatenates [S65536x1, S65536x2048] S65536x2049 1
  reducesTo_S65536x2049_S65536_d1 : S65536x2049.ReducesTo [1] S65536
  bcast_S65536x1_S65536x2049_0_1 : S65536x1.BroadcastsInDim S65536x2049 (![0, 1] : Fin 2 → Fin S65536x2049.rank)
  slices_S65536x2049_S65536x1_0_0 : S65536x2049.Slices ![0, 0] S65536x1
  shapeCasts_S65536x1_S65536 : S65536x1.ShapeCasts S65536
  reducesTo_S65536_S_d0 : S65536.ReducesTo [0] S_
  gather_S100000_S65536x1_S65536_n_0_n_n_0_1_1_wf : GatherDims.WF S100000 S65536x1 S65536 [] [0] [] [0] [] 1 ![1]
  gather_S100000_S2048x1_S2048_n_0_n_n_0_1_1_wf : GatherDims.WF S100000 S2048x1 S2048 [] [0] [] [0] [] 1 ![1]
  gather_S100000x128_S65536x1_S65536x128_1_0_n_n_0_1_1128_wf : GatherDims.WF S100000x128 S65536x1 S65536x128 [1] [0] [] [0] [] 1 ![1, 128]
  gather_S100000x128_S2048x1_S2048x128_1_0_n_n_0_1_1128_wf : GatherDims.WF S100000x128 S2048x1 S2048x128 [1] [0] [] [0] [] 1 ![1, 128]
  dot_S65536x128_S128x2048_S65536x2048_1_0_0_1_n_n_wf : DotDims.WF S65536x128 S128x2048 S65536x2048 [1] [0] [0] [1] [] []

variable [Facts₀]

def gather_S100000_S65536x1_S65536_n_0_n_n_0_1_1 : GatherDims S100000 S65536x1 S65536 where
  offsetDims := []
  collapsedSliceDims := [0]
  operandBatchingDims := []
  startIndicesBatchingDims := []
  startIndexMap := [0]
  indexVectorDim := 1
  sliceSizes := ![1]
  wf := gather_S100000_S65536x1_S65536_n_0_n_n_0_1_1_wf
def gather_S100000_S2048x1_S2048_n_0_n_n_0_1_1 : GatherDims S100000 S2048x1 S2048 where
  offsetDims := []
  collapsedSliceDims := [0]
  operandBatchingDims := []
  startIndicesBatchingDims := []
  startIndexMap := [0]
  indexVectorDim := 1
  sliceSizes := ![1]
  wf := gather_S100000_S2048x1_S2048_n_0_n_n_0_1_1_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def dot_S65536x128_S128x2048_S65536x2048_1_0_0_1_n_n : DotDims S65536x128 S128x2048 S65536x2048 where
  lhsContracting := [1]
  rhsContracting := [0]
  lhsNonContracting := [0]
  rhsNonContracting := [1]
  lhsBatch := []
  rhsBatch := []
  wf := dot_S65536x128_S128x2048_S65536x2048_1_0_0_1_n_n_wf

class Facts : Prop extends Facts₀ where

variable [Facts]
-- ==== Proof.Layout.lean ====
/-
  Layout operations of column-shaped values read at an index: a vector [a] viewed as a column [a, 1]; a column
  [a, 1] spread over b lanes; a row [1, a] turned into a column [a, 1]; and the index a one-axis reduction
  inserts (row r of a reduction along the lanes; position k of a reduction along the rows of a column).
-/
import Idealize.ShloMosaic.Lib.Pipeline.Value
import Idealize.ShloMosaic.Lib.ValueIdx
import Idealize.ShloMosaic.Lib.ValueLayout
import Idealize.ShloMosaic.PureOps.Ideal.Laws

noncomputable section

namespace Cert.LossLayout

open Idealize.ShloMosaic Idealize.ShloMosaic.ValueIdx

variable {α : Type}

/-- A vector [a] viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] spread over b lanes reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, a] turned into a column [a, 1] reads, at (i, u), the row at i. -/
theorem transpose_1a_a1_apply {a : ℕ} (x : (⟨2, ![1, a]⟩ : Shape).Idx → α)
    (h : (⟨2, ![1, a]⟩ : Shape).Transposes [1, 0] ⟨2, ![a, 1]⟩) (i : Fin a) (u : Fin 1) :
    transpose ⟨2, ![a, 1]⟩ [1, 0] x h (ix2 i u) = x (ix2 (0 : Fin 1) i) := by
  have hu : u = 0 := Subsingleton.elim _ _
  subst hu
  exact transpose_ix2_apply x h i (0 : Fin 1)

/-- The index a reduction along the lanes of [a, b] inserts at row i and lane k is (i, k). -/
theorem lift_lanes {a b : ℕ} (h : Shape.Reduces ⟨2, ![a, b]⟩ [1] ⟨1, ![a]⟩) (i : Fin a) (k : Fin b) :
    h.lift (ix1 i) k = ix2 i k := by
  funext c
  match c with
  | ⟨0, _⟩ => rfl
  | ⟨1, _⟩ => rfl

/-- The index a reduction along the rows of a column [a, 1] inserts at position k is (k, 0). -/
theorem lift_rows {a : ℕ} (h : Shape.Reduces ⟨2, ![a, 1]⟩ [0] ⟨1, ![1]⟩) (u : Fin 1) (k : Fin a) :
    h.lift (ix1 u) k = ix2 k (0 : Fin 1) := by
  have hu : u = 0 := Subsingleton.elim _ _
  subst hu
  funext c
  match c with
  | ⟨0, _⟩ => rfl
  | ⟨1, _⟩ => rfl

end Cert.LossLayout

end
-- ==== Proof.PayloadA.lean ====
/-
  The kernel body's first values, read at explicit coordinates over the extended reals.  For a block of 1024 rows:

  * hn r d : entry d of row r divided by max(‖row r‖, 1e-12), the norm being the square root of the row's sum of squares;
  * the positive logit of row r: (Σ_d hn r d · e r d) · temp − a r, with e the block of normalised positive embeddings,
    temp the one temperature entry and a the row block of log-probabilities of the true classes;
  * the matrix product's entry (r, j): Σ_d hn r d · w d j, with w the [128, 2048] matrix of scaled negative embeddings;
  * the class ids as a column and spread over the 2048 lanes, and the sampled ids spread over the 1024 rows.
-/
import proofs.«120988_j34162169873007_2_alg».proof.Proof.Gen.KernelIdeal.Skeleton
import proofs.«120988_j34162169873007_2_alg».proof.Proof.Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.LossLayout

/-- The small constant the norms are clamped below by. -/
abbrev tiny : EReal := Ideal.ofBits .f32 0x2B8CBCCC#32

/-- Row r of x divided by max(‖row r‖, tiny), at lane d. -/
def hn (x : S1024x128.Idx → EReal) (r : Fin 1024) (d : Fin 128) : EReal :=
  Ideal.div (x (ix2 r d)) (max (Ideal.sqrt (∑ k : Fin 128, x (ix2 r k) * x (ix2 r k))) tiny)

/-- A sum along the 128 lanes of a [1024, 128] value, at row r. -/
theorem lane_sum_128 (src : FVec Ideal S1024x128 .f32) (h : S1024x128.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ k : Fin 128, src (ix2 r k) := by
  refine (Ideal.multiReduction_add_single src 0x00000000#32 h hφ hacc (ix1 r)).trans ?_
  exact Finset.sum_congr rfl fun k _ => congrArg src (lift_lanes h r k)

/-- The normalisation chain of a [1024, 128] value v, read at (r, d). -/
theorem hn_form (v : FVec Ideal S1024x128 .f32) (h1 : S1024x128.Reduces [1] S1024) (hφ : FKind.Formats .f32)
    (hacc : (0x00000000#32 : BitVec 32) = FKind.add.neutral .f32 hφ) (h2 : S1024.ShapeCasts S1024x1)
    (h3 : S1024x1.Broadcasts S1024x128) (r : Fin 1024) (d : Fin 128) :
    divf v (broadcastTo S1024x128 (maximumf (sqrt (shapeCast S1024x1
        (multiReduction (F := Ideal) .add [1] S1024 (mulf v v) 0x00000000#32 h1 hφ hacc) h2))
        (broadcast S1024x1 (Scalar.ofBits (F := Ideal) .f32 0x2B8CBCCC#32))) h3) (ix2 r d) = hn v r d := by
  show Ideal.div (v (ix2 r d)) _ = _
  unfold hn
  refine congrArg (Ideal.div (v (ix2 r d))) ?_
  refine (broadcastTo_a1_ab_apply _ h3 r d).trans ?_
  show max (Ideal.sqrt (shapeCast S1024x1 _ h2 (ix2 r (0 : Fin 1)))) _ = _
  refine congrArg₂ max (congrArg Ideal.sqrt ?_) rfl
  refine (shapeCast_a_a1_apply _ h2 r 0).trans ?_
  exact lane_sum_128 _ h1 hφ hacc r

/-- The kernel's normalised block at (r, d). -/
theorem pay3_apply (x0 : Vec Ideal S1024x128 .f32) (r : Fin 1024) (d : Fin 128) :
    k0_pay3 (F := Ideal) x0 (ix2 r d) = hn x0 r d := by
  have e : shapeCast S1024x128 x0 shapeCasts_S1024x128_S1024x128 = x0 := shapeCast_self _ _
  unfold k0_pay3
  refine (hn_form _ _ _ _ _ _ r d).trans ?_
  rw [e]

/-- The positive logit of row r, less the log-probability of its true class. -/
def posAdj (x0 x1 : S1024x128.Idx → EReal) (x7 : S1x1.Idx → EReal) (x3 : S1x1024.Idx → EReal) (r : Fin 1024) : EReal :=
  (∑ d : Fin 128, hn x0 r d * x1 (ix2 r d)) * x7 (ix2 (0 : Fin 1) (0 : Fin 1)) - x3 (ix2 (0 : Fin 1) r)

theorem pay4_apply (x0 x1 : Vec Ideal S1024x128 .f32) (x7 : Vec Ideal S1x1 .f32) (x3 : Vec Ideal S1x1024 .f32)
    (r : Fin 1024) (u : Fin 1) :
    k0_pay4 (F := Ideal) x0 x1 x7 x3 (ix2 r u) = posAdj x0 x1 x7 x3 r := by
  have e1 : shapeCast S1024x128 x1 shapeCasts_S1024x128_S1024x128 = x1 := shapeCast_self _ _
  have e3 : shapeCast S1x1024 x3 shapeCasts_S1x1024_S1x1024 = x3 := shapeCast_self _ _
  have e7 : extractAt ![0, 0] x7 inpos_S1x1_p0_0 = x7 (ix2 (0 : Fin 1) (0 : Fin 1)) :=
    congrArg x7 (funext fun a => Fin.ext (by match a with | ⟨0, _⟩ => rfl | ⟨1, _⟩ => rfl))
  unfold k0_pay4 posAdj
  rw [e1, e3, e7]
  show (shapeCast S1024x1 _ shapeCasts_S1024_S1024x1 (ix2 r u)) * _ - transpose S1024x1 [1, 0] x3 transposes_S1x1024_p1_0_S1024x1 (ix2 r u) = _
  refine congrArg₂ (· - ·) (congrArg (· * x7 (ix2 (0 : Fin 1) (0 : Fin 1))) ?_) (transpose_1a_a1_apply x3 _ r u)
  refine (shapeCast_a_a1_apply _ _ r u).trans ?_
  refine (lane_sum_128 _ _ _ _ r).trans ?_
  exact Finset.sum_congr rfl fun d _ => congrArg (· * x1 (ix2 r d)) (pay3_apply x0 r d)

/-- The product's index facts.  At output index i and contraction index q: the left operand's row is i's row, -/
theorem lhs0 (i : S1024x2048.Idx) (q : dot_S1024x128_S128x2048_S1024x2048_1_0_0_1_n_n.contr.Idx) : (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
/-- its lane the contracted position; -/
theorem lhs1 (i : S1024x2048.Idx) (q : dot_S1024x128_S128x2048_S1024x2048_1_0_0_1_n_n.contr.Idx) : (dot_S1024x128_S128x2048_S1024x2048_1_0_0_1_n_n.lhsIdx i q 1).val = (q ⟨0, by decide⟩).val :=
  dot_S1024x128_S128x2048_S1024x2048_1_0_0_1_n_n.lhsIdx_val_of_single rfl i q
/-- the right operand's row is the contracted position, -/
theorem rhs0 (i : S1024x2048.Idx) (q : dot_S1024x128_S128x2048_S1024x2048_1_0_0_1_n_n.contr.Idx) : (dot_S1024x128_S128x2048_S1024x2048_1_0_0_1_n_n.rhsIdx i q 0).val = (q ⟨0, by decide⟩).val :=
  dot_S1024x128_S128x2048_S1024x2048_1_0_0_1_n_n.rhsIdx_val_of_single rfl i q
/-- its lane i's lane. -/
theorem rhs1 (i : S1024x2048.Idx) (q : dot_S1024x128_S128x2048_S1024x2048_1_0_0_1_n_n.contr.Idx) : (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- So at contraction position k the left operand is read at (row of i, k), -/
theorem lhs_idx (i : S1024x2048.Idx) (k : Fin 128) :
    dot_S1024x128_S128x2048_S1024x2048_1_0_0_1_n_n.lhsIdx i ((contrEquiv1 dot_S1024x128_S128x2048_S1024x2048_1_0_0_1_n_n 128 rfl rfl).symm k) = ix2 (i 0) k := by
  have hk := contrEquiv1_symm_val dot_S1024x128_S128x2048_S1024x2048_1_0_0_1_n_n 128 rfl rfl k
  refine funext fun a => Fin.ext ?_
  match a with
  | ⟨0, _⟩ => exact lhs0 _ _
  | ⟨1, _⟩ => exact (lhs1 _ _).trans hk

/-- and the right operand at (k, lane of i). -/
theorem rhs_idx (i : S1024x2048.Idx) (k : Fin 128) :
    dot_S1024x128_S128x2048_S1024x2048_1_0_0_1_n_n.rhsIdx i ((contrEquiv1 dot_S1024x128_S128x2048_S1024x2048_1_0_0_1_n_n 128 rfl rfl).symm k) = ix2 k (i 1) := by
  have hk := contrEquiv1_symm_val dot_S1024x128_S128x2048_S1024x2048_1_0_0_1_n_n 128 rfl rfl k
  refine funext fun a => Fin.ext ?_
  match a with
  | ⟨0, _⟩ => exact (rhs0 _ _).trans hk
  | ⟨1, _⟩ => exact rhs1 _ _

/-- The matrix product into a zero accumulator, at (r, j): the sum over the 128 contracted positions. -/
theorem matmul_form (l : FVec Ideal S1024x128 .bf16) (w : FVec Ideal S128x2048 .bf16) (r : Fin 1024) (j : Fin 2048) :
    matmul (F := Ideal) dot_S1024x128_S128x2048_S1024x2048_1_0_0_1_n_n none l w (constant S1024x2048 .f32 0x00000000#32) (ix2 r j)
      = ∑ k : Fin 128, l (ix2 r k) * w (ix2 k j) := by
  simp only [matmul]
  rw [Ideal.matmul_constant_zero_apply,
    ← Equiv.sum_comp (contrEquiv1 dot_S1024x128_S128x2048_S1024x2048_1_0_0_1_n_n 128 rfl rfl).symm]
  refine Finset.sum_congr rfl fun k _ => ?_
  rw [lhs_idx, rhs_idx]
  rfl

theorem pay5_apply (x0 : Vec Ideal S1024x128 .f32) (x4 : Vec Ideal S128x2048 .bf16) (r : Fin 1024) (j : Fin 2048) :
    k0_pay5 (F := Ideal) x0 x4 (ix2 r j) = ∑ d : Fin 128, hn x0 r d * x4 (ix2 d j) := by
  have e4 : shapeCast S128x2048 x4 shapeCasts_S128x2048_S128x2048 = x4 := shapeCast_self _ _
  unfold k0_pay5
  rw [e4]
  refine (matmul_form _ x4 r j).trans ?_
  exact Finset.sum_congr rfl fun d _ => congrArg (· * x4 (ix2 d j)) (pay3_apply x0 r d)

/-- The class ids of the block as a column: at (r, u) the id of row r. -/
theorem pay6_apply (x2 : Vec Ideal S1x1024 .i32) (r : Fin 1024) (u : Fin 1) :
    k0_pay6 (F := Ideal) x2 (ix2 r u) = x2 (ix2 (0 : Fin 1) r) := by
  have e2 : shapeCast S1x1024 x2 shapeCasts_S1x1024_S1x1024 = x2 := shapeCast_self _ _
  unfold k0_pay6
  rw [e2]
  exact transpose_1a_a1_apply x2 _ r u

/-- The class ids spread over the lanes: at (r, j) the id of row r. -/
theorem pay7_apply (x2 : Vec Ideal S1x1024 .i32) (r : Fin 1024) (j : Fin 2048) :
    k0_pay7 (F := Ideal) x2 (ix2 r j) = x2 (ix2 (0 : Fin 1) r) := by
  unfold k0_pay7
  exact (broadcastTo_a1_ab_apply _ _ r j).trans (pay6_apply x2 r 0)

/-- The sampled ids spread over the rows: at (r, j) the sampled id j. -/
theorem pay8_apply (x6 : Vec Ideal S1x2048 .i32) (r : Fin 1024) (j : Fin 2048) :
    k0_pay8 (F := Ideal) x6 (ix2 r j) = x6 (ix2 (0 : Fin 1) j) := by
  have e6 : shapeCast S1x2048 x6 shapeCasts_S1x2048_S1x2048 = x6 := shapeCast_self _ _
  unfold k0_pay8
  rw [e6]
  exact broadcastTo_1b_ab_apply x6 _ r j

end Cert.KernelIdeal.Pay

end
-- ==== Proof.PayloadB.lean ====
/-
  The kernel body's last value — what it adds into the [1, 1, 2] output block — read at its two entries.

  For row r of the block, with positive logit p r and the 2048 negative logits
    N r j = (−1e9 where the row's class id equals sampled id j, else the product's entry (r, j)) − b j
  (b the log-probabilities of the sampled classes), the row's loss is
    rowLoss (p r) (N r) = (M + log (exp (p r − M) + Σ_j exp (N r j − M))) − p r,   M = max (p r) (max_j N r j),
  and its weight is 1 when the class id is not 0, else 0.  Entry 0 of the block gains Σ_r rowLoss · weight, entry 1
  gains Σ_r weight.
-/
import proofs.«120988_j34162169873007_2_alg».proof.Proof.Gen.KernelIdeal.Skeleton
import proofs.«120988_j34162169873007_2_alg».proof.Proof.Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.LossLayout

/-- The finite fill a colliding negative logit is replaced by. -/
abbrev big : EReal := Ideal.ofBits .f32 0xCE6E6B28#32
/-- The word a running maximum starts from. -/
abbrev negInf : EReal := Ideal.ofBits .f32 0xFF800000#32

/-- Row r's negative logit at lane j: masked where the ids collide, then shifted by the sampled class's log-probability. -/
def negAdj (v29 : S1024x2048.Idx → EReal) (v35 v36 : S1024x2048.Idx → BitVec 32) (x5 : S1x2048.Idx → EReal)
    (r : Fin 1024) (j : Fin 2048) : EReal :=
  Scalar.select (IntOp.cmpi .eq (v35 (ix2 r j)) (v36 (ix2 r j))) big (v29 (ix2 r j)) - x5 (ix2 (0 : Fin 1) j)

/-- Log-sum-exp of the row [p, N…] minus p, with the maximum and the sum split as the body splits them. -/
def rowLoss (p : EReal) (N : Fin 2048 → EReal) : EReal :=
  (max p ((Finset.univ : Finset (Fin 2048)).fold max negInf N)
    + Ideal.log (Ideal.exp (p - max p ((Finset.univ : Finset (Fin 2048)).fold max negInf N))
        + ∑ j, Ideal.exp (N j - max p ((Finset.univ : Finset (Fin 2048)).fold max negInf N)))) - p

/-- A row's weight: 1 when its class id is not 0, else 0. -/
def valid (y : BitVec 32) : EReal := FloatOps.sitofp (F := Ideal) .f32 ((IntOp.cmpi .ne y 0#32).setWidth 32)

/-- A running maximum along the 2048 lanes, viewed as a column, at row k. -/
theorem row_max (src : FVec Ideal S1024x2048 .f32) (h : S1024x2048.Reduces [1] S1024) (hφ : FKind.Formats .f32)
    (hacc : (0xFF800000#32 : BitVec 32) = FKind.maximumf.neutral .f32 hφ) (h2 : S1024.ShapeCasts S1024x1) (k : Fin 1024) (u : Fin 1) :
    shapeCast S1024x1 (multiReduction (F := Ideal) .maximumf [1] S1024 src 0xFF800000#32 h hφ hacc) h2 (ix2 k u)
      = (Finset.univ : Finset (Fin 2048)).fold max negInf (fun j => src (ix2 k j)) := by
  refine (shapeCast_a_a1_apply _ h2 k u).trans ?_
  refine (Ideal.multiReduction_maximumf_single src 0xFF800000#32 h hφ hacc (ix1 k)).trans ?_
  exact congrArg (Finset.fold max negInf · (Finset.univ : Finset (Fin 2048))) (funext fun j => congrArg src (lift_lanes h k j))

/-- A sum along the 2048 lanes, viewed as a column, at row k. -/
theorem row_sum (src : FVec Ideal S1024x2048 .f32) (h : S1024x2048.Reduces [1] S1024) (hφ : FKind.Formats .f32)
    (hacc : (0x00000000#32 : BitVec 32) = FKind.add.neutral .f32 hφ) (h2 : S1024.ShapeCasts S1024x1) (k : Fin 1024) (u : Fin 1) :
    shapeCast S1024x1 (multiReduction (F := Ideal) .add [1] S1024 src 0x00000000#32 h hφ hacc) h2 (ix2 k u)
      = ∑ j : Fin 2048, src (ix2 k j) := by
  refine (shapeCast_a_a1_apply _ h2 k u).trans ?_
  refine (Ideal.multiReduction_add_single src 0x00000000#32 h hφ hacc (ix1 k)).trans ?_
  exact Finset.sum_congr rfl fun j _ => congrArg src (lift_lanes h k j)

/-- A sum down the 1024 rows of a column, viewed as a [1, 1] value. -/
theorem col_sum (src : FVec Ideal S1024x1 .f32) (h : S1024x1.Reduces [0] S1) (hφ : FKind.Formats .f32)
    (hacc : (0x00000000#32 : BitVec 32) = FKind.add.neutral .f32 hφ) (h2 : S1.ShapeCasts S1x1) (u v : Fin 1) :
    shapeCast S1x1 (multiReduction (F := Ideal) .add [0] S1 src 0x00000000#32 h hφ hacc) h2 (ix2 u v)
      = ∑ k : Fin 1024, src (ix2 k (0 : Fin 1)) := by
  refine (shapeCast_a_1a_apply _ h2 u v).trans ?_
  refine (Ideal.multiReduction_add_single src 0x00000000#32 h hφ hacc (ix1 v)).trans ?_
  exact Finset.sum_congr rfl fun k _ => congrArg src (lift_rows h v k)

/-- The body's loss column over a positive-logit column p and a [1024, 2048] value X of shifted negative logits. -/
theorem loss_col (p : FVec Ideal S1024x1 .f32) (X : FVec Ideal S1024x2048 .f32) (hr : S1024x2048.Reduces [1] S1024)
    (hφ : FKind.Formats .f32) (hm : (0xFF800000#32 : BitVec 32) = FKind.maximumf.neutral .f32 hφ)
    (hφ' : FKind.Formats .f32) (ha : (0x00000000#32 : BitVec 32) = FKind.add.neutral .f32 hφ')
    (h2 : S1024.ShapeCasts S1024x1) (h3 : S1024x1.Broadcasts S1024x2048) (k : Fin 1024) :
    subf (addf (maximumf p (shapeCast S1024x1 (multiReduction (F := Ideal) .maximumf [1] S1024 X 0xFF800000#32 hr hφ hm) h2))
        (log (addf (exp (subf p (maximumf p (shapeCast S1024x1 (multiReduction (F := Ideal) .maximumf [1] S1024 X 0xFF800000#32 hr hφ hm) h2))))
          (shapeCast S1024x1 (multiReduction (F := Ideal) .add [1] S1024
            (exp (subf X (broadcastTo S1024x2048
              (maximumf p (shapeCast S1024x1 (multiReduction (F := Ideal) .maximumf [1] S1024 X 0xFF800000#32 hr hφ hm) h2)) h3)))
            0x00000000#32 hr hφ' ha) h2)))) p (ix2 k (0 : Fin 1))
      = rowLoss (p (ix2 k (0 : Fin 1))) (fun j => X (ix2 k j)) := by
  have hM : maximumf p (shapeCast S1024x1 (multiReduction (F := Ideal) .maximumf [1] S1024 X 0xFF800000#32 hr hφ hm) h2) (ix2 k (0 : Fin 1))
      = max (p (ix2 k (0 : Fin 1))) ((Finset.univ : Finset (Fin 2048)).fold max negInf (fun j => X (ix2 k j))) :=
    congrArg (max (p (ix2 k (0 : Fin 1)))) (row_max X hr hφ hm h2 k 0)
  have hS : shapeCast S1024x1 (multiReduction (F := Ideal) .add [1] S1024
        (exp (subf X (broadcastTo S1024x2048
          (maximumf p (shapeCast S1024x1 (multiReduction (F := Ideal) .maximumf [1] S1024 X 0xFF800000#32 hr hφ hm) h2)) h3)))
        0x00000000#32 hr hφ' ha) h2 (ix2 k (0 : Fin 1))
      = ∑ j : Fin 2048, Ideal.exp (X (ix2 k j) - max (p (ix2 k (0 : Fin 1))) ((Finset.univ : Finset (Fin 2048)).fold max negInf (fun j => X (ix2 k j)))) := by
    refine (row_sum _ hr hφ' ha h2 k 0).trans ?_
    refine Finset.sum_congr rfl fun j _ => ?_
    show Ideal.exp (X (ix2 k j) - broadcastTo S1024x2048 _ h3 (ix2 k j)) = _
    rw [broadcastTo_a1_ab_apply _ h3 k j, hM]
  show (maximumf p _ (ix2 k (0 : Fin 1)) + Ideal.log (Ideal.exp (p (ix2 k (0 : Fin 1)) - maximumf p _ (ix2 k (0 : Fin 1)))
      + shapeCast S1024x1 _ h2 (ix2 k (0 : Fin 1)))) - p (ix2 k (0 : Fin 1)) = _
  rw [hS, hM]
  rfl

/-- The weight column: at row k the weight of the class id there. -/
theorem valid_col (y : IVec S1024x1 32) (k : Fin 1024) :
    (sitofp (F := Ideal) .f32 (extui 32 (cmpi .ne y (broadcast S1024x1 (0#32 : BitVec 32))) natLt_1_32) : FVec Ideal S1024x1 .f32) (ix2 k (0 : Fin 1))
      = valid (y (ix2 k (0 : Fin 1))) := rfl

/-- The masked and shifted negative logits at (k, j). -/
theorem neg_entry (v29 : FVec Ideal S1024x2048 .f32) (v35 v36 : IVec S1024x2048 32) (x5 : Vec Ideal S1x2048 .f32)
    (hb : S1x2048.Broadcasts S1024x2048) (hc : S1x2048.ShapeCasts S1x2048) (k : Fin 1024) (j : Fin 2048) :
    subf (select (cmpi .eq v35 v36) (broadcast S1024x2048 (Scalar.ofBits (F := Ideal) .f32 0xCE6E6B28#32)) v29)
        (broadcastTo S1024x2048 (shapeCast S1x2048 x5 hc) hb) (ix2 k j)
      = negAdj v29 v35 v36 x5 k j := by
  show Scalar.select _ _ _ - broadcastTo S1024x2048 (shapeCast S1x2048 x5 hc) hb (ix2 k j) = _
  rw [broadcastTo_1b_ab_apply _ hb k j, shapeCast_self]
  rfl

/-- What the body adds at entry 0 of the output block: the weighted losses of the block's rows. -/
theorem pay1_loss (v25 : FVec Ideal S1024x1 .f32) (v29 : FVec Ideal S1024x2048 .f32) (v32 : IVec S1024x1 32)
    (v35 v36 : IVec S1024x2048 32) (x5 : Vec Ideal S1x2048 .f32) (xo : Vec Ideal S1x1x2 .f32) :
    k0_pay1 (F := Ideal) v25 v29 v32 v35 v36 x5 xo (ix3 (0 : Fin 1) (0 : Fin 1) (0 : Fin 2))
      = xo (ix3 (0 : Fin 1) (0 : Fin 1) (0 : Fin 2))
        + ∑ k : Fin 1024, rowLoss (v25 (ix2 k (0 : Fin 1))) (negAdj v29 v35 v36 x5 k) * valid (v32 (ix2 k (0 : Fin 1))) := by
  unfold k0_pay1
  show shapeCast S1x1x2 xo shapeCasts_S1x1x2_S1x1x2 (ix3 (0 : Fin 1) (0 : Fin 1) (0 : Fin 2))
      + shapeCast S1x1x2 _ shapeCasts_S1x2_S1x1x2 (ix3 (0 : Fin 1) (0 : Fin 1) (0 : Fin 2)) = _
  refine congrArg₂ (· + ·) (congrFun (shapeCast_self xo _) _) ?_
  refine (shapeCast_ab_1ab_apply _ _ (0 : Fin 1) (0 : Fin 1) (0 : Fin 2)).trans ?_
  refine (concatenate_pair_apply_left 1 _ _ concatenates_S1x1_S1x1_S1x2_d1 (ix2 (0 : Fin 1) (0 : Fin 2)) rfl
    (ix2 (0 : Fin 1) (0 : Fin 1)) (fun b => by match b with | ⟨0, _⟩ => rfl | ⟨1, _⟩ => rfl)).trans ?_
  refine (col_sum _ _ _ _ _ 0 0).trans ?_
  refine Finset.sum_congr rfl fun k _ => ?_
  refine congrArg₂ (· * ·) ?_ (valid_col v32 k)
  refine (loss_col v25 _ _ _ _ _ _ _ _ k).trans ?_
  exact congrArg (rowLoss (v25 (ix2 k (0 : Fin 1)))) (funext fun j => neg_entry v29 v35 v36 x5 _ _ k j)

/-- What the body adds at entry 1 of the output block: the number of weighted rows. -/
theorem pay1_count (v25 : FVec Ideal S1024x1 .f32) (v29 : FVec Ideal S1024x2048 .f32) (v32 : IVec S1024x1 32)
    (v35 v36 : IVec S1024x2048 32) (x5 : Vec Ideal S1x2048 .f32) (xo : Vec Ideal S1x1x2 .f32) :
    k0_pay1 (F := Ideal) v25 v29 v32 v35 v36 x5 xo (ix3 (0 : Fin 1) (0 : Fin 1) (1 : Fin 2))
      = xo (ix3 (0 : Fin 1) (0 : Fin 1) (1 : Fin 2)) + ∑ k : Fin 1024, valid (v32 (ix2 k (0 : Fin 1))) := by
  unfold k0_pay1
  show shapeCast S1x1x2 xo shapeCasts_S1x1x2_S1x1x2 (ix3 (0 : Fin 1) (0 : Fin 1) (1 : Fin 2))
      + shapeCast S1x1x2 _ shapeCasts_S1x2_S1x1x2 (ix3 (0 : Fin 1) (0 : Fin 1) (1 : Fin 2)) = _
  refine congrArg₂ (· + ·) (congrFun (shapeCast_self xo _) _) ?_
  refine (shapeCast_ab_1ab_apply _ _ (0 : Fin 1) (0 : Fin 1) (1 : Fin 2)).trans ?_
  refine (concatenate_pair_apply_right 1 _ _ concatenates_S1x1_S1x1_S1x2_d1 (ix2 (0 : Fin 1) (1 : Fin 2)) rfl rfl
    (ix2 (0 : Fin 1) (0 : Fin 1)) (fun b hb => by match b with | ⟨0, _⟩ => rfl | ⟨1, _⟩ => exact absurd rfl hb) rfl).trans ?_
  refine (col_sum _ _ _ _ _ 0 0).trans ?_
  exact Finset.sum_congr rfl fun k _ => valid_col v32 k

end Cert.KernelIdeal.Pay

end
-- ==== Proof.Pieces.lean ====
/-
  What the two control cases of the kernel body leave in the output's staging buffer, as values.

  The body adds, into the [1, 1, 2] block, the pair (weighted loss of the block's 1024 rows, number of weighted rows).
  At the first step of a core's sweep it first stores zeros and reads them back, so it leaves zeros plus the pair;
  at the other steps it leaves what the step before left plus the pair.
-/
import proofs.«120988_j34162169873007_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's update of the output block xo from the eight input blocks: xo plus the block's pair of sums. -/
def blockAdd (x0 x1 : Vec F S1024x128 .f32) (x2 : Vec F S1x1024 .i32) (x3 : Vec F S1x1024 .f32) (x4 : Vec F S128x2048 .bf16)
    (x5 : Vec F S1x2048 .f32) (x6 : Vec F S1x2048 .i32) (x7 : Vec F S1x1 .f32) (xo : Vec F S1x1x2 .f32) : Vec F S1x1x2 .f32 :=
  k0_pay1 (k0_pay4 x0 x1 x7 x3) (k0_pay5 x0 x4) (k0_pay6 x2) (k0_pay7 x2) (k0_pay8 x6) x5 xo

/-- A step that is not the first of its sweep leaves the update of what the buffer held. -/
theorem out_B (c : Dev nD) (i : grid0.Coords) (a2 : Memref sig .tc .vmem S1024x128 .f32) (h2 : a2.IsWhole) (a3 : Memref sig .tc .vmem S1024x128 .f32) (h3 : a3.IsWhole) (a4 : Memref sig .tc .vmem S1x1024 .i32) (h4 : a4.IsWhole) (a5 : Memref sig .tc .vmem S1x1024 .f32) (h5 : a5.IsWhole) (a6 : Memref sig .tc .vmem S128x2048 .bf16) (h6 : a6.IsWhole) (a7 : Memref sig .tc .vmem S1x2048 .f32) (h7 : a7.IsWhole) (a8 : Memref sig .tc .vmem S1x2048 .i32) (h8 : a8.IsWhole) (a9 : Memref sig .tc .vmem S1x1 .f32) (h9 : a9.IsWhole) (a10 : Memref sig .tc .vmem S1x1x2 .f32) (h10 : a10.IsWhole) (hc : ¬cond0_0 i) (x0 : Vec F S1024x128 .f32) (x1 : Vec F S1024x128 .f32) (x2 : Vec F S1x1024 .i32) (x3 : Vec F S1x1024 .f32) (x4 : Vec F S128x2048 .bf16) (x5 : Vec F S1x2048 .f32) (x6 : Vec F S1x2048 .i32) (x7 : Vec F S1x1 .f32) (xo8 : Vec F S1x1x2 .f32) :
    out0_B_8 c i a2 h2 a3 h3 a4 h4 a5 h5 a6 h6 a7 h7 a8 h8 a9 h9 a10 h10 hc x0 x1 x2 x3 x4 x5 x6 x7 xo8 = blockAdd x0 x1 x2 x3 x4 x5 x6 x7 xo8 := by
  unfold out0_B_8 blockAdd
  rw [View.read_writes_eq_canon _ _ _ (cover0_B_8 c i a2 h2 a3 h3 a4 h4 a5 h5 a6 h6 a7 h7 a8 h8 a9 h9 a10 h10 hc x0 x1 x2 x3 x4 x5 x6 x7 xo8)]
  unfold kernelRun0_B
  dsimp only
  sl_unfold_words
  rw [View.canon_unit_zero hz3]
  simp only [View.readAt_eq_ld, h2.read_unread, h3.read_unread, h4.read_unread, h5.read_unread, h6.read_unread,
    h7.read_unread, h8.read_unread, h9.read_unread, h10.read_unread,
    View.ld_unit_zero (S := S1024x128) hz2, View.ld_unit_zero (S := S1x1024) hz2, View.ld_unit_zero (S := S128x2048) hz2,
    View.ld_unit_zero (S := S1x2048) hz2, View.ld_unit_zero (S := S1x1) hz2, View.ld_unit_zero (S := S1x1x2) hz3]

/-- The first step of a sweep leaves the update of the zero block it has just stored. -/
theorem out_A (c : Dev nD) (i : grid0.Coords) (a2 : Memref sig .tc .vmem S1024x128 .f32) (h2 : a2.IsWhole) (a3 : Memref sig .tc .vmem S1024x128 .f32) (h3 : a3.IsWhole) (a4 : Memref sig .tc .vmem S1x1024 .i32) (h4 : a4.IsWhole) (a5 : Memref sig .tc .vmem S1x1024 .f32) (h5 : a5.IsWhole) (a6 : Memref sig .tc .vmem S128x2048 .bf16) (h6 : a6.IsWhole) (a7 : Memref sig .tc .vmem S1x2048 .f32) (h7 : a7.IsWhole) (a8 : Memref sig .tc .vmem S1x2048 .i32) (h8 : a8.IsWhole) (a9 : Memref sig .tc .vmem S1x1 .f32) (h9 : a9.IsWhole) (a10 : Memref sig .tc .vmem S1x1x2 .f32) (h10 : a10.IsWhole) (hc : cond0_0 i) (x0 : Vec F S1024x128 .f32) (x1 : Vec F S1024x128 .f32) (x2 : Vec F S1x1024 .i32) (x3 : Vec F S1x1024 .f32) (x4 : Vec F S128x2048 .bf16) (x5 : Vec F S1x2048 .f32) (x6 : Vec F S1x2048 .i32) (x7 : Vec F S1x1 .f32) :
    out0_A_8 c i a2 h2 a3 h3 a4 h4 a5 h5 a6 h6 a7 h7 a8 h8 a9 h9 a10 h10 hc x0 x1 x2 x3 x4 x5 x6 x7 = blockAdd x0 x1 x2 x3 x4 x5 x6 x7 k0_pay2 := by
  unfold out0_A_8 blockAdd
  rw [View.read_writes_eq_canon _ _ _ (cover0_A_8 c i a2 h2 a3 h3 a4 h4 a5 h5 a6 h6 a7 h7 a8 h8 a9 h9 a10 h10 hc x0 x1 x2 x3 x4 x5 x6 x7)]
  unfold kernelRun0_A
  dsimp only
  sl_unfold_words
  rw [View.canon_cons_unit_zero (S := S1x1x2) hz3, View.readCov_unit_zero (S := S1x1x2) _ hz3]
  simp only [View.readAt_eq_ld, h2.read_unread, h3.read_unread, h4.read_unread, h5.read_unread, h6.read_unread,
    h7.read_unread, h8.read_unread, h9.read_unread, h10.read_unread,
    View.ld_unit_zero (S := S1024x128) hz2, View.ld_unit_zero (S := S1x1024) hz2, View.ld_unit_zero (S := S128x2048) hz2,
    View.ld_unit_zero (S := S1x2048) hz2, View.ld_unit_zero (S := S1x1) hz2, View.ld_unit_zero (S := S1x1x2) hz3]

end Cert.KernelIdeal.Pieces

end
-- ==== Proof.BlockValue.lean ====
/-
  One grid point's contribution in terms of the whole arrays.

  With A0 … A7 the eight arrays the kernel's windows read — hidden rows [65536, 128], normalised positive embeddings
  [65536, 128], class ids [1, 65536], log-probabilities of the true classes [1, 65536], scaled normalised negative
  embeddings [128, 2048], log-probabilities of the sampled classes [1, 2048], sampled ids [1, 2048], temperature
  [1, 1] — row n of the problem has a loss gLoss n and a weight gW n, functions of row n of A0 … A3 and of A4 … A7.
  If the blocks a point reads are rows [1024 t, 1024 t + 1024) of A0 … A3 and all of A4 … A7, the body adds to the
  output block the sums of gLoss · gW and of gW over those rows.
-/
import proofs.«120988_j34162169873007_2_alg».proof.Proof.PayloadA
import proofs.«120988_j34162169873007_2_alg».proof.Proof.PayloadB
import proofs.«120988_j34162169873007_2_alg».proof.Proof.Pieces

noncomputable section

namespace Cert.KernelIdeal.Block

open Idealize.ShloMosaic Idealize.ShloMosaic.ValueIdx Cert.KernelIdeal Cert.KernelIdeal.Gen Cert.KernelIdeal.Pay
open Cert.KernelIdeal.Pieces (blockAdd)

section Global
variable (A0 A1 : S65536x128.Idx → EReal) (A2 : S1x65536.Idx → BitVec 32) (A3 : S1x65536.Idx → EReal)
  (A4 : S128x2048.Idx → EReal) (A5 : S1x2048.Idx → EReal) (A6 : S1x2048.Idx → BitVec 32) (A7 : S1x1.Idx → EReal)

/-- Row n of A0 divided by max(its norm, tiny), at lane d. -/
def gHn (n : Fin 65536) (d : Fin 128) : EReal :=
  Ideal.div (A0 (ix2 n d)) (max (Ideal.sqrt (∑ k : Fin 128, A0 (ix2 n k) * A0 (ix2 n k))) tiny)
/-- Row n's positive logit less the log-probability of its true class. -/
def gPos (n : Fin 65536) : EReal :=
  (∑ d : Fin 128, gHn A0 n d * A1 (ix2 n d)) * A7 (ix2 (0 : Fin 1) (0 : Fin 1)) - A3 (ix2 (0 : Fin 1) n)
/-- Row n's negative logit against sampled class j, masked on a collision, less that class's log-probability. -/
def gNeg (n : Fin 65536) (j : Fin 2048) : EReal :=
  Scalar.select (IntOp.cmpi .eq (A2 (ix2 (0 : Fin 1) n)) (A6 (ix2 (0 : Fin 1) j))) big
    (∑ d : Fin 128, gHn A0 n d * A4 (ix2 d j)) - A5 (ix2 (0 : Fin 1) j)
/-- Row n's loss. -/
def gLoss (n : Fin 65536) : EReal := rowLoss (gPos A0 A1 A3 A7 n) (gNeg A0 A2 A4 A5 A6 n)
/-- Row n's weight. -/
def gW (n : Fin 65536) : EReal := valid (A2 (ix2 (0 : Fin 1) n))

end Global

/-- Global row 1024 t + r. -/
abbrev row (t : Fin 64) (r : Fin 1024) : Fin 65536 := ⟨t.val * 1024 + r.val, by omega⟩

section Point
variable (A0 A1 : S65536x128.Idx → EReal) (A2 : S1x65536.Idx → BitVec 32) (A3 : S1x65536.Idx → EReal)
  (A4 : S128x2048.Idx → EReal) (A5 : S1x2048.Idx → EReal) (A6 : S1x2048.Idx → BitVec 32) (A7 : S1x1.Idx → EReal)
  (t : Fin 64)
  (x0 x1 : Vec Ideal S1024x128 .f32) (x2 : Vec Ideal S1x1024 .i32) (x3 : Vec Ideal S1x1024 .f32) (x4 : Vec Ideal S128x2048 .bf16)
  (x5 : Vec Ideal S1x2048 .f32) (x6 : Vec Ideal S1x2048 .i32) (x7 : Vec Ideal S1x1 .f32)
  (h0 : ∀ (r : Fin 1024) (d : Fin 128), x0 (ix2 r d) = A0 (ix2 (row t r) d))
  (h1 : ∀ (r : Fin 1024) (d : Fin 128), x1 (ix2 r d) = A1 (ix2 (row t r) d))
  (h2 : ∀ r : Fin 1024, x2 (ix2 (0 : Fin 1) r) = A2 (ix2 (0 : Fin 1) (row t r)))
  (h3 : ∀ r : Fin 1024, x3 (ix2 (0 : Fin 1) r) = A3 (ix2 (0 : Fin 1) (row t r)))
  (h4 : x4 = A4) (h5 : x5 = A5) (h6 : x6 = A6) (h7 : x7 = A7)
include h0 in
theorem hn_block (r : Fin 1024) (d : Fin 128) : hn x0 r d = gHn A0 (row t r) d := by
  unfold hn gHn
  simp only [h0]

include h0 h1 h3 h7 in
theorem pos_block (r : Fin 1024) : posAdj x0 x1 x7 x3 r = gPos A0 A1 A3 A7 (row t r) := by
  unfold posAdj gPos
  simp only [hn_block A0 t x0 h0, h1, h3, h7]

include h0 h2 h4 h5 h6 in
theorem neg_block (r : Fin 1024) :
    negAdj (k0_pay5 (F := Ideal) x0 x4) (k0_pay7 (F := Ideal) x2) (k0_pay8 (F := Ideal) x6) x5 r = gNeg A0 A2 A4 A5 A6 (row t r) := by
  funext j
  unfold negAdj gNeg
  rw [pay5_apply, pay7_apply, pay8_apply]
  simp only [hn_block A0 t x0 h0, h2, h4, h5, h6]

include h0 h1 h2 h3 h4 h5 h6 h7 in
/-- Entry 0 of the updated block: what was there plus the block's weighted losses. -/
theorem blockAdd_loss (xo : Vec Ideal S1x1x2 .f32) :
    blockAdd (F := Ideal) x0 x1 x2 x3 x4 x5 x6 x7 xo (ix3 (0 : Fin 1) (0 : Fin 1) (0 : Fin 2))
      = xo (ix3 (0 : Fin 1) (0 : Fin 1) (0 : Fin 2))
        + ∑ r : Fin 1024, gLoss A0 A1 A2 A3 A4 A5 A6 A7 (row t r) * gW A2 (row t r) := by
  unfold blockAdd
  rw [pay1_loss]
  refine congrArg (xo (ix3 (0 : Fin 1) (0 : Fin 1) (0 : Fin 2)) + ·) (Finset.sum_congr rfl fun r _ => ?_)
  unfold gLoss gW
  rw [pay4_apply, pay6_apply, pos_block A0 A1 A3 A7 t x0 x1 x3 x7 h0 h1 h3 h7,
    neg_block A0 A2 A4 A5 A6 t x0 x2 x4 x5 x6 h0 h2 h4 h5 h6, h2]

include h2 in
/-- Entry 1 of the updated block: what was there plus the block's number of weighted rows. -/
theorem blockAdd_count (xo : Vec Ideal S1x1x2 .f32) :
    blockAdd (F := Ideal) x0 x1 x2 x3 x4 x5 x6 x7 xo (ix3 (0 : Fin 1) (0 : Fin 1) (1 : Fin 2))
      = xo (ix3 (0 : Fin 1) (0 : Fin 1) (1 : Fin 2)) + ∑ r : Fin 1024, gW A2 (row t r) := by
  unfold blockAdd
  rw [pay1_count]
  refine congrArg (xo (ix3 (0 : Fin 1) (0 : Fin 1) (1 : Fin 2)) + ·) (Finset.sum_congr rfl fun r _ => ?_)
  unfold gW
  rw [pay6_apply, h2]

end Point

end Cert.KernelIdeal.Block

end
-- ==== Proof.PointValue.lean ====
/-
  The output's staging buffer after each grid point.

  The grid is 2 sweeps of 32 steps; step s of sweep q is point t = 32 q + s and reads rows [1024 t, 1024 t + 1024) of the
  four row-blocked arrays and all of the four others.  After point t the buffer's entry e holds the sum, over the
  steps of t's sweep up to t, of the step's contribution (entry 0: weighted losses; entry 1: weighted rows).
-/
import proofs.«120988_j34162169873007_2_alg».proof.Proof.BlockValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Points

open Cert.KernelIdeal Cert.KernelIdeal.Gen Cert.KernelIdeal.Pay Cert.KernelIdeal.Block
open Cert.KernelIdeal.Pieces (blockAdd out_A out_B)

variable (m : (ℓ : Loc nD τ sig) → Buf (Elt Ideal) ℓ)

theorem N64 : cfg0.N = 64 := N_0

/-- A point as a number below 64. -/
abbrev pt (t : Fin cfg0.N) : Fin 64 := ⟨t.val, lt_of_lt_of_eq t.isLt N64⟩

/-! ## Each window's block is a slab of its array -/

theorem iblk0 (c : Dev nD) (t : Fin cfg0.N) (r : Fin 1024) (d : Fin 128) :
    (iblk m c 0 t : Vec Ideal S1024x128 .f32) (ix2 r d) = V m c main_v0 (ix2 (row (pt t) r) d) := by
  have hi := (by decide +kernel : ∀ t : Fin grid0.N, win0_0.index t 0 = t.val ∧ win0_0.index t 1 = 0) t
  unfold iblk
  rw [View.read_apply]
  show V m c main_v0 _ = V m c main_v0 _
  congr 1
  funext a
  apply Fin.ext
  match a with
  | ⟨0, _⟩ => show win0_0.index t 0 * 1024 + 1 * r.val = t.val * 1024 + r.val; rw [hi.1]; omega
  | ⟨1, _⟩ => show win0_0.index t 1 * 128 + 1 * d.val = d.val; rw [hi.2]; omega

theorem iblk1 (c : Dev nD) (t : Fin cfg0.N) (r : Fin 1024) (d : Fin 128) :
    (iblk m c 1 t : Vec Ideal S1024x128 .f32) (ix2 r d) = V m c main_v13 (ix2 (row (pt t) r) d) := by
  have hi := (by decide +kernel : ∀ t : Fin grid0.N, win0_1.index t 0 = t.val ∧ win0_1.index t 1 = 0) t
  unfold iblk
  rw [View.read_apply]
  show V m c main_v13 _ = V m c main_v13 _
  congr 1
  funext a
  apply Fin.ext
  match a with
  | ⟨0, _⟩ => show win0_1.index t 0 * 1024 + 1 * r.val = t.val * 1024 + r.val; rw [hi.1]; omega
  | ⟨1, _⟩ => show win0_1.index t 1 * 128 + 1 * d.val = d.val; rw [hi.2]; omega

theorem iblk2 (c : Dev nD) (t : Fin cfg0.N) (r : Fin 1024) :
    (iblk m c 2 t : Vec Ideal S1x1024 .i32) (ix2 (0 : Fin 1) r) = V m c main_v52 (ix2 (0 : Fin 1) (row (pt t) r)) := by
  have hi := (by decide +kernel : ∀ t : Fin grid0.N, win0_2.index t 0 = 0 ∧ win0_2.index t 1 = t.val) t
  unfold iblk
  rw [View.read_apply]
  show V m c main_v52 _ = V m c main_v52 _
  congr 1
  funext a
  apply Fin.ext
  match a with
  | ⟨0, _⟩ => show win0_2.index t 0 * 1 + 1 * 0 = 0; rw [hi.1]
  | ⟨1, _⟩ => show win0_2.index t 1 * 1024 + 1 * r.val = t.val * 1024 + r.val; rw [hi.2]; omega

theorem iblk3 (c : Dev nD) (t : Fin cfg0.N) (r : Fin 1024) :
    (iblk m c 3 t : Vec Ideal S1x1024 .f32) (ix2 (0 : Fin 1) r) = V m c main_v53 (ix2 (0 : Fin 1) (row (pt t) r)) := by
  have hi := (by decide +kernel : ∀ t : Fin grid0.N, win0_3.index t 0 = 0 ∧ win0_3.index t 1 = t.val) t
  unfold iblk
  rw [View.read_apply]
  show V m c main_v53 _ = V m c main_v53 _
  congr 1
  funext a
  apply Fin.ext
  match a with
  | ⟨0, _⟩ => show win0_3.index t 0 * 1 + 1 * 0 = 0; rw [hi.1]
  | ⟨1, _⟩ => show win0_3.index t 1 * 1024 + 1 * r.val = t.val * 1024 + r.val; rw [hi.2]; omega

theorem iblk4 (c : Dev nD) (t : Fin cfg0.N) : (iblk m c 4 t : Vec Ideal S128x2048 .bf16) = V m c main_v45 := by
  have hi := (by decide +kernel : ∀ t : Fin grid0.N, win0_4.index t 0 = 0 ∧ win0_4.index t 1 = 0) t
  funext y
  unfold iblk
  rw [View.read_apply]
  show V m c main_v45 _ = V m c main_v45 _
  congr 1
  funext a
  apply Fin.ext
  match a with
  | ⟨0, _⟩ => show win0_4.index t 0 * 128 + 1 * (y 0).val = (y 0).val; rw [hi.1]; omega
  | ⟨1, _⟩ => show win0_4.index t 1 * 2048 + 1 * (y 1).val = (y 1).val; rw [hi.2]; omega

theorem iblk5 (c : Dev nD) (t : Fin cfg0.N) : (iblk m c 5 t : Vec Ideal S1x2048 .f32) = V m c main_v54 := by
  have hi := (by decide +kernel : ∀ t : Fin grid0.N, win0_5.index t 0 = 0 ∧ win0_5.index t 1 = 0) t
  funext y
  unfold iblk
  rw [View.read_apply]
  show V m c main_v54 _ = V m c main_v54 _
  congr 1
  funext a
  apply Fin.ext
  match a with
  | ⟨0, _⟩ => show win0_5.index t 0 * 1 + 1 * (y 0).val = (y 0).val; rw [hi.1]; omega
  | ⟨1, _⟩ => show win0_5.index t 1 * 2048 + 1 * (y 1).val = (y 1).val; rw [hi.2]; omega

theorem iblk6 (c : Dev nD) (t : Fin cfg0.N) : (iblk m c 6 t : Vec Ideal S1x2048 .i32) = V m c main_v55 := by
  have hi := (by decide +kernel : ∀ t : Fin grid0.N, win0_6.index t 0 = 0 ∧ win0_6.index t 1 = 0) t
  funext y
  unfold iblk
  rw [View.read_apply]
  show V m c main_v55 _ = V m c main_v55 _
  congr 1
  funext a
  apply Fin.ext
  match a with
  | ⟨0, _⟩ => show win0_6.index t 0 * 1 + 1 * (y 0).val = (y 0).val; rw [hi.1]; omega
  | ⟨1, _⟩ => show win0_6.index t 1 * 2048 + 1 * (y 1).val = (y 1).val; rw [hi.2]; omega

theorem iblk7 (c : Dev nD) (t : Fin cfg0.N) : (iblk m c 7 t : Vec Ideal S1x1 .f32) = V m c main_v56 := by
  have hi := (by decide +kernel : ∀ t : Fin grid0.N, win0_7.index t 0 = 0 ∧ win0_7.index t 1 = 0) t
  funext y
  unfold iblk
  rw [View.read_apply]
  show V m c main_v56 _ = V m c main_v56 _
  congr 1
  funext a
  apply Fin.ext
  match a with
  | ⟨0, _⟩ => show win0_7.index t 0 * 1 + 1 * (y 0).val = (y 0).val; rw [hi.1]; omega
  | ⟨1, _⟩ => show win0_7.index t 1 * 1 + 1 * (y 1).val = (y 1).val; rw [hi.2]; omega

/-! ## A point's contribution, by the point's number -/

/-- The weighted losses of the 1024 rows point t reads (0 past the grid). -/
def stepLoss (c : Dev nD) (t : ℕ) : EReal :=
  if h : t < 64 then ∑ r : Fin 1024, gLoss (V m c main_v0) (V m c main_v13) (V m c main_v52) (V m c main_v53) (V m c main_v45)
      (V m c main_v54) (V m c main_v55) (V m c main_v56) (row ⟨t, h⟩ r) * gW (V m c main_v52) (row ⟨t, h⟩ r)
  else 0

/-- The number of weighted rows among the 1024 rows point t reads (0 past the grid). -/
def stepCount (c : Dev nD) (t : ℕ) : EReal :=
  if h : t < 64 then ∑ r : Fin 1024, gW (V m c main_v52) (row ⟨t, h⟩ r) else 0

/-- The body's update at point t, entry 0. -/
theorem point_loss (c : Dev nD) (t : Fin cfg0.N) (xo : Vec Ideal S1x1x2 .f32) :
    blockAdd (F := Ideal) (iblk m c 0 t) (iblk m c 1 t) (iblk m c 2 t) (iblk m c 3 t) (iblk m c 4 t) (iblk m c 5 t) (iblk m c 6 t)
        (iblk m c 7 t) xo (ix3 (0 : Fin 1) (0 : Fin 1) (0 : Fin 2))
      = xo (ix3 (0 : Fin 1) (0 : Fin 1) (0 : Fin 2)) + stepLoss m c t.val := by
  unfold stepLoss
  rw [dif_pos (lt_of_lt_of_eq t.isLt N64)]
  exact blockAdd_loss (V m c main_v0) (V m c main_v13) (V m c main_v52) (V m c main_v53) (V m c main_v45) (V m c main_v54)
    (V m c main_v55) (V m c main_v56) (pt t) (iblk m c 0 t) (iblk m c 1 t) (iblk m c 2 t) (iblk m c 3 t) (iblk m c 4 t) (iblk m c 5 t)
    (iblk m c 6 t) (iblk m c 7 t) (iblk0 m c t) (iblk1 m c t) (iblk2 m c t) (iblk3 m c t) (iblk4 m c t) (iblk5 m c t) (iblk6 m c t)
    (iblk7 m c t) xo

/-- The body's update at point t, entry 1. -/
theorem point_count (c : Dev nD) (t : Fin cfg0.N) (xo : Vec Ideal S1x1x2 .f32) :
    blockAdd (F := Ideal) (iblk m c 0 t) (iblk m c 1 t) (iblk m c 2 t) (iblk m c 3 t) (iblk m c 4 t) (iblk m c 5 t) (iblk m c 6 t)
        (iblk m c 7 t) xo (ix3 (0 : Fin 1) (0 : Fin 1) (1 : Fin 2))
      = xo (ix3 (0 : Fin 1) (0 : Fin 1) (1 : Fin 2)) + stepCount m c t.val := by
  unfold stepCount
  rw [dif_pos (lt_of_lt_of_eq t.isLt N64)]
  exact blockAdd_count (V m c main_v52) (pt t) (iblk m c 0 t) (iblk m c 1 t) (iblk m c 2 t) (iblk m c 3 t) (iblk m c 4 t) (iblk m c 5 t)
    (iblk m c 6 t) (iblk m c 7 t) (iblk2 m c t) xo

/-! ## The running sums -/

/-- If at every point the update adds B t to entry e, then after point n entry e holds the sum of B over the steps of
    n's sweep up to n. -/
theorem outsAt_sum (c : Dev nD) (e : Fin 2) (B : ℕ → EReal)
    (hB : ∀ (t : Fin cfg0.N) (xo : Vec Ideal S1x1x2 .f32),
      blockAdd (F := Ideal) (iblk m c 0 t) (iblk m c 1 t) (iblk m c 2 t) (iblk m c 3 t) (iblk m c 4 t) (iblk m c 5 t) (iblk m c 6 t)
        (iblk m c 7 t) xo (ix3 (0 : Fin 1) (0 : Fin 1) e) = xo (ix3 (0 : Fin 1) (0 : Fin 1) e) + B t.val) :
    ∀ (n : ℕ) (h : n < cfg0.N), outsAt0 (F := Ideal) m c n h (ix3 (0 : Fin 1) (0 : Fin 1) e)
      = ∑ i ∈ Finset.range (n % 32 + 1), B (n - n % 32 + i)
  | 0, h => by
    rw [outsAt0_A m c ⟨0, h⟩ rfl, out_A]
    refine (hB ⟨0, h⟩ _).trans ?_
    show Ideal.ofBits .f32 0x00000000#32 + B 0 = _
    rw [Ideal.ofBits_zero_f32, zero_add]
    simp
  | n + 1, h => by
    by_cases h0 : (n + 1) % 32 = 0
    · rw [outsAt0_A m c ⟨n + 1, h⟩ h0, out_A]
      refine (hB ⟨n + 1, h⟩ _).trans ?_
      show Ideal.ofBits .f32 0x00000000#32 + B (n + 1) = _
      rw [Ideal.ofBits_zero_f32, zero_add, h0]
      simp
    · rw [outsAt0_B m c ⟨n + 1, h⟩ h0, out_B]
      refine (hB ⟨n + 1, h⟩ _).trans ?_
      show outsAt0 (F := Ideal) m c n _ (ix3 (0 : Fin 1) (0 : Fin 1) e) + B (n + 1) = _
      rw [outsAt_sum c e B hB n (Nat.lt_of_succ_lt h)]
      have e1 : (n + 1) % 32 = n % 32 + 1 := by omega
      have e2 : n + 1 - (n % 32 + 1) = n - n % 32 := by omega
      rw [e1, Finset.sum_range_succ _ (n % 32 + 1), e2]
      congr 2
      omega

end Cert.KernelIdeal.Points

end
-- ==== Proof.KernelFinal.lean ====
/-
  The kernel's output array after the run, and the scalar the host operations after the call compute from it.

  Sweep q writes its block back once, after its last step (point 32 q + 31); the block it writes holds, at entry e, the
  sum over the sweep's 32 steps of the step's contribution.  So the [2, 1, 2] array ends at
      out (q, 0, 0) = Σ_{s < 32} stepLoss (32 q + s),      out (q, 0, 1) = Σ_{s < 32} stepCount (32 q + s),
  and the host then returns (out(0,0,0) + out(1,0,0)) / max(out(0,0,1) + out(1,0,1), 1).
-/
import proofs.«120988_j34162169873007_2_alg».proof.Proof.PointValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Points
open Cert.KernelIdeal.Facts₀ Cert.KernelIdeal.Facts

variable (m : (ℓ : Loc nD τ sig) → Buf (Elt Ideal) ℓ) (ρ : Dev nD → PrngReg)

/-- The sum of B over the 32 steps of sweep q. -/
def sweep (B : ℕ → EReal) (q : ℕ) : EReal := ∑ s ∈ Finset.range 32, B (32 * q + s)

/-- The output array after the run. -/
def outArr (c : Dev nD) : S2x1x2.Idx → EReal :=
  fun i => if (i 2).val = 0 then sweep (stepLoss m c) (i 0).val else sweep (stepCount m c) (i 0).val

/-- What the staging buffer holds after the last step of a sweep. -/
theorem out_at_flush (c : Dev nD) (t : Fin cfg0.N) (h31 : t.val % 32 = 31) (j : S1x1x2.Idx) :
    outsAt0 (F := Ideal) m c t.val t.isLt j
      = if (j 2).val = 0 then sweep (stepLoss m c) (t.val / 32) else sweep (stepCount m c) (t.val / 32) := by
  have h0 : (j 0).val < 1 := (j 0).isLt
  have h1 : (j 1).val < 1 := (j 1).isLt
  have h2 : (j 2).val < 2 := (j 2).isLt
  have hb : t.val - 31 = 32 * (t.val / 32) := by omega
  by_cases he : (j 2).val = 0
  · have hj : j = ix3 (0 : Fin 1) (0 : Fin 1) (0 : Fin 2) := funext fun a => Fin.ext (by
      match a with
      | ⟨0, _⟩ => show (j 0).val = 0; omega
      | ⟨1, _⟩ => show (j 1).val = 0; omega
      | ⟨2, _⟩ => show (j 2).val = 0; omega)
    rw [if_pos he, hj, outsAt_sum m c 0 (stepLoss m c) (point_loss m c) t.val t.isLt, h31, hb]
    rfl
  · have hj : j = ix3 (0 : Fin 1) (0 : Fin 1) (1 : Fin 2) := funext fun a => Fin.ext (by
      match a with
      | ⟨0, _⟩ => show (j 0).val = 0; omega
      | ⟨1, _⟩ => show (j 1).val = 0; omega
      | ⟨2, _⟩ => show (j 2).val = 1; omega)
    rw [if_neg he, hj, outsAt_sum m c 1 (stepCount m c) (point_count m c) t.val t.isLt, h31, hb]
    rfl

/-- The output window's block index at point t: (sweep of t, 0, 0). -/
theorem idx8 : ∀ t : Fin cfg0.N, win0_8.index t (0 : Fin 3) = t.val / 32 ∧ win0_8.index t (1 : Fin 3) = 0
    ∧ win0_8.index t (2 : Fin 3) = 0 :=
  (by decide +kernel : ∀ t : Fin grid0.N, win0_8.index t (0 : Fin 3) = t.val / 32 ∧ win0_8.index t (1 : Fin 3) = 0
    ∧ win0_8.index t (2 : Fin 3) = 0)

/-- What a flushing point writes back is its block of outArr. -/
theorem flushed8_eq (c : Dev nD) (t : Fin cfg0.N) (hf : (cfg0.win 8).flush t = true) :
    (dats m 0 c).flushed 8 t = ((cfg0.win 8).blk t).view.read (Elt Ideal) (outArr m c) := by
  have h31 : t.val % 32 = 31 := (flush0_8 t).mp hf
  obtain ⟨e0, e1, e2⟩ := idx8 t
  show (cfg0.win 8).cut (grid0.coords t) ((dats m 0 c).after 8 t) = _
  rw [after0_8]
  funext j
  show outsAt0 (F := Ideal) m c t.val t.isLt j = outArr m c (((cfg0.win 8).blk t).view.emb j)
  rw [out_at_flush m c t h31 j]
  unfold outArr
  have q0 : ((((cfg0.win 8).blk t).view.emb j) 0).val = t.val / 32 := by
    show win0_8.index t (0 : Fin 3) * 1 + 1 * (j 0).val = _
    have hj : (j 0).val < 1 := (j 0).isLt
    omega
  have q2 : ((((cfg0.win 8).blk t).view.emb j) 2).val = (j 2).val := by
    show win0_8.index t (2 : Fin 3) * 2 + 1 * (j 2).val = _
    omega
  simp only [q0, q2]

/-- An index of the output array is in point t's block iff each coordinate is in the block's range. -/
theorem mem_blk8 (t : Fin cfg0.N) (i : S2x1x2.Idx) :
    i ∈ ((cfg0.win 8).blk t).view.set ↔ ∀ a : Fin 3, win0_8.index t a * S1x1x2.size a ≤ (i a).val
      ∧ (i a).val < win0_8.index t a * S1x1x2.size a + S1x1x2.size a := by
  show i ∈ ((View.whole main_v57).slice (win0_8.rect t)).set ↔ _
  rw [View.set_slice_whole, Rect.mem_set_unit]
  exact Iff.rfl

/-- Every index of the output array is in the block of the last point of its sweep. -/
theorem cover8 (i : S2x1x2.Idx) : ∃ t : Fin cfg0.N, (cfg0.win 8).flush t = true ∧ i ∈ ((cfg0.win 8).blk t).view.set := by
  have h0 : (i 0).val < 2 := (i 0).isLt
  have h1 : (i 1).val < 1 := (i 1).isLt
  have h2 : (i 2).val < 2 := (i 2).isLt
  let t : Fin cfg0.N := ⟨32 * (i 0).val + 31, by rw [N64]; omega⟩
  obtain ⟨e0, e1, e2⟩ := idx8 t
  have ht : t.val = 32 * (i 0).val + 31 := rfl
  refine ⟨t, (flush0_8 t).mpr (by rw [ht]; omega), ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; omega
  | ⟨2, _⟩ => show win0_8.index t (2 : Fin 3) * 2 ≤ (i 2).val ∧ (i 2).val < win0_8.index t (2 : Fin 3) * 2 + 2; omega

/-- The output array after the run. -/
theorem final8 (c : Dev nD) : (dats m 0 c).arrAt 8 cfg0.N = outArr m c :=
  (dats m 0 c).arrAt_eq_of_cover 8 (outArr m c) (flushed8_eq m c) cover8

/-! ## The host operations after the call -/

instance : Subsingleton S1x1x1.Idx := ⟨fun a b => funext fun d => Fin.ext (by
  match d with
  | ⟨0, _⟩ => have h1 : (a 0).val < 1 := (a 0).isLt; have h2 : (b 0).val < 1 := (b 0).isLt; show (a 0).val = (b 0).val; omega
  | ⟨1, _⟩ => have h1 : (a 1).val < 1 := (a 1).isLt; have h2 : (b 1).val < 1 := (b 1).isLt; show (a 1).val = (b 1).val; omega
  | ⟨2, _⟩ => have h1 : (a 2).val < 1 := (a 2).isLt; have h2 : (b 2).val < 1 := (b 2).isLt; show (a 2).val = (b 2).val; omega)⟩

/-- A [1, 1, 1] value viewed as a scalar reads its one entry. -/
theorem scalar_of_111 (x : S1x1x1.Idx → EReal) (h : S1x1x1.ShapeCasts S_) (i : S_.Idx) :
    shapeCast S_ x h i = x (ix3 (0 : Fin 1) (0 : Fin 1) (0 : Fin 1)) := by
  unfold shapeCast
  exact congrArg x (Subsingleton.elim _ _)

/-- The [1, 1, 1] slice of a [2, 1, 2] value at offsets (q, 0, e) reads entry (q, 0, e). -/
theorem slice_entry (X : S2x1x2.Idx → EReal) (q e : Fin 2) (off : Fin 3 → Nat) (hoff : off = ![q.val, 0, e.val])
    (h : S2x1x2.Slices off S1x1x1) :
    extractStridedSlice S1x1x1 off X h (ix3 (0 : Fin 1) (0 : Fin 1) (0 : Fin 1)) = X (ix3 q (0 : Fin 1) e) := by
  subst hoff
  exact extractStridedSlice_apply _ X h _ _ fun a => by
    match a with
    | ⟨0, _⟩ => rfl
    | ⟨1, _⟩ => rfl
    | ⟨2, _⟩ => rfl

/-- The host operations after the call, as one function of the [2, 1, 2] array. -/
def tail (X : S2x1x2.Idx → EReal) : S_.Idx → EReal :=
  Host.divf (F := Ideal) (φ := .f32)
    (addf (F := Ideal) (φ := .f32) (shapeCast S_ (extractStridedSlice S1x1x1 ![0, 0, 0] X Facts₀.slices_S2x1x2_S1x1x1_0_0_0) Facts₀.shapeCasts_S1x1x1_S_)
      (shapeCast S_ (extractStridedSlice S1x1x1 ![1, 0, 0] X Facts₀.slices_S2x1x2_S1x1x1_1_0_0) Facts₀.shapeCasts_S1x1x1_S_))
    (maximumf (F := Ideal) (φ := .f32)
      (addf (F := Ideal) (φ := .f32) (shapeCast S_ (extractStridedSlice S1x1x1 ![0, 0, 1] X Facts₀.slices_S2x1x2_S1x1x1_0_0_1) Facts₀.shapeCasts_S1x1x1_S_)
        (shapeCast S_ (extractStridedSlice S1x1x1 ![1, 0, 1] X Facts₀.slices_S2x1x2_S1x1x1_1_0_1) Facts₀.shapeCasts_S1x1x1_S_))
      (constant (F := Ideal) S_ .f32 0x3F800000#32))

/-- The scalar the tail computes: (X(0,0,0) + X(1,0,0)) / max(X(0,0,1) + X(1,0,1), 1). -/
theorem tail_apply (X : S2x1x2.Idx → EReal) (i : S_.Idx) :
    tail X i = Ideal.div (X (ix3 (0 : Fin 2) (0 : Fin 1) (0 : Fin 2)) + X (ix3 (1 : Fin 2) (0 : Fin 1) (0 : Fin 2)))
      (max (X (ix3 (0 : Fin 2) (0 : Fin 1) (1 : Fin 2)) + X (ix3 (1 : Fin 2) (0 : Fin 1) (1 : Fin 2))) (Ideal.ofBits .f32 0x3F800000#32)) := by
  unfold tail
  show Ideal.div (shapeCast S_ _ _ i + shapeCast S_ _ _ i) (max (shapeCast S_ _ _ i + shapeCast S_ _ _ i) _) = _
  rw [scalar_of_111, scalar_of_111, scalar_of_111, scalar_of_111]
  exact congrArg₂ Ideal.div
    (congrArg₂ (· + ·) (slice_entry X 0 0 _ rfl _) (slice_entry X 1 0 _ rfl _))
    (congrArg₂ max (congrArg₂ (· + ·) (slice_entry X 0 1 _ rfl _) (slice_entry X 1 1 _ rfl _)) rfl)

end Cert.KernelIdeal.Final

end
-- ==== Proof.HostArrays.lean ====
/-
  The eight arrays the kernel's windows read, as the host operations before the call leave them — written over the
  same intermediate values the reference computes: the flattened hidden rows; the gathered positive embeddings, each row
  divided by max(its norm, 1e-12); the flattened class ids as a row; the logarithms of the gathered class probabilities
  plus 1e-10 as rows; the normalised negative embeddings times the temperature, transposed; the sampled ids as a row;
  the temperature as a [1, 1] value.  Then each array read at an entry.
-/
import proofs.«120988_j34162169873007_2_alg».proof.Proof.Gen.KernelIdeal.Frame
import proofs.«120988_j34162169873007_2_alg».proof.Proof.RefReadP
import proofs.«120988_j34162169873007_2_alg».proof.Proof.Layout
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx

namespace Cert.KernelIdeal.HostArr

open Cert.KernelIdeal Cert.KernelIdeal.Gen

variable (m : (ℓ : Loc nD τ sig) → Buf (Elt Ideal) ℓ)

/-- The scalar shape has one index. -/
instance : Subsingleton S_.Idx := ⟨fun a b => funext fun d => d.elim0⟩

theorem V_v0 (c : Dev nD) : (V m c main_v0 : S65536x128.Idx → EReal)
    = Cert.ReferenceIdeal.ReadP.val_main_v0 (F := Ideal) (m ((c : Thread nD τ).loc main_arg0)) := by
  dsimp only [V, V0]
  simp only [hostOps0, hostOps0_1, hostOps0_2, hostOps0_3, hostOps0_4, List.flatten_cons, List.flatten_nil, List.append_nil, List.cons_append, List.nil_append]
  after_results_simp
  rfl

theorem V_v13 (c : Dev nD) : (V m c main_v13 : S65536x128.Idx → EReal)
    = Cert.ReferenceIdeal.ReadP.val_main_v43 (F := Ideal) (m ((c : Thread nD τ).loc main_arg1)) (m ((c : Thread nD τ).loc main_arg2)) := by
  dsimp only [V, V0]
  simp only [hostOps0, hostOps0_1, hostOps0_2, hostOps0_3, hostOps0_4, List.flatten_cons, List.flatten_nil, List.append_nil, List.cons_append, List.nil_append]
  after_results_simp
  rfl

theorem V_v52 (c : Dev nD) : (V m c main_v52 : S1x65536.Idx → BitVec 32)
    = shapeCast S1x65536 (Cert.ReferenceIdeal.ReadP.val_main_v1 (F := Ideal) (m ((c : Thread nD τ).loc main_arg1))) Facts₀.shapeCasts_S65536_S1x65536 := by
  dsimp only [V, V0]
  simp only [hostOps0, hostOps0_1, hostOps0_2, hostOps0_3, hostOps0_4, List.flatten_cons, List.flatten_nil, List.append_nil, List.cons_append, List.nil_append]
  after_results_simp
  rfl

theorem V_v53 (c : Dev nD) : (V m c main_v53 : S1x65536.Idx → EReal)
    = shapeCast S1x65536 (Cert.ReferenceIdeal.ReadP.val_main_v65 (F := Ideal) (m ((c : Thread nD τ).loc main_arg1)) (m ((c : Thread nD τ).loc main_arg3))) Facts₀.shapeCasts_S65536_S1x65536 := by
  dsimp only [V, V0]
  simp only [hostOps0, hostOps0_1, hostOps0_2, hostOps0_3, hostOps0_4, List.flatten_cons, List.flatten_nil, List.append_nil, List.cons_append, List.nil_append]
  after_results_simp
  rfl

theorem V_v45 (c : Dev nD) : (V m c main_v45 : S128x2048.Idx → EReal)
    = transpose S128x2048 [1, 0] (truncf (F := Ideal) .bf16 (mulf (F := Ideal) (φ := .f32) (Cert.ReferenceIdeal.ReadP.val_main_v52 (F := Ideal) (m ((c : Thread nD τ).loc main_arg2)) (m ((c : Thread nD τ).loc main_arg4)))
        (broadcastInDim S2048x128 ![] Facts₀.bcast_S_S2048x128 (Cert.ReferenceIdeal.ReadP.val_main_v33 (F := Ideal) (m ((c : Thread nD τ).loc main_arg5))))) Facts₀.bitsLt_bf16_f32)
      Facts₀.transposes_S2048x128_S128x2048_1_0 := by
  dsimp only [V, V0]
  simp only [hostOps0, hostOps0_1, hostOps0_2, hostOps0_3, hostOps0_4, List.flatten_cons, List.flatten_nil, List.append_nil, List.cons_append, List.nil_append]
  after_results_simp
  rfl

theorem V_v54 (c : Dev nD) : (V m c main_v54 : S1x2048.Idx → EReal)
    = shapeCast S1x2048 (Cert.ReferenceIdeal.ReadP.val_main_v69 (F := Ideal) (m ((c : Thread nD τ).loc main_arg3)) (m ((c : Thread nD τ).loc main_arg4))) Facts₀.shapeCasts_S2048_S1x2048 := by
  dsimp only [V, V0]
  simp only [hostOps0, hostOps0_1, hostOps0_2, hostOps0_3, hostOps0_4, List.flatten_cons, List.flatten_nil, List.append_nil, List.cons_append, List.nil_append]
  after_results_simp
  rfl

theorem V_v55 (c : Dev nD) : (V m c main_v55 : S1x2048.Idx → BitVec 32)
    = shapeCast S1x2048 (m ((c : Thread nD τ).loc main_arg4)) Facts₀.shapeCasts_S2048_S1x2048 := by
  dsimp only [V, V0]
  simp only [hostOps0, hostOps0_1, hostOps0_2, hostOps0_3, hostOps0_4, List.flatten_cons, List.flatten_nil, List.append_nil, List.cons_append, List.nil_append]
  after_results_simp
  rfl

theorem V_v56 (c : Dev nD) : (V m c main_v56 : S1x1.Idx → EReal)
    = shapeCast S1x1 (Cert.ReferenceIdeal.ReadP.val_main_v33 (F := Ideal) (m ((c : Thread nD τ).loc main_arg5))) Facts₀.shapeCasts_S_S1x1 := by
  dsimp only [V, V0]
  simp only [hostOps0, hostOps0_1, hostOps0_2, hostOps0_3, hostOps0_4, List.flatten_cons, List.flatten_nil, List.append_nil, List.cons_append, List.nil_append]
  after_results_simp
  rfl

/-! ## The arrays at an entry -/

theorem ids_at (c : Dev nD) (n : Fin 65536) :
    (V m c main_v52 : S1x65536.Idx → BitVec 32) (ix2 (0 : Fin 1) n) = Cert.ReferenceIdeal.ReadP.val_main_v1 (F := Ideal) (m ((c : Thread nD τ).loc main_arg1)) (ix1 n) := by
  rw [V_v52]
  exact shapeCast_a_1a_apply _ _ (0 : Fin 1) n

theorem logtp_at (c : Dev nD) (n : Fin 65536) :
    (V m c main_v53 : S1x65536.Idx → EReal) (ix2 (0 : Fin 1) n)
      = Cert.ReferenceIdeal.ReadP.val_main_v65 (F := Ideal) (m ((c : Thread nD τ).loc main_arg1)) (m ((c : Thread nD τ).loc main_arg3)) (ix1 n) := by
  rw [V_v53]
  exact shapeCast_a_1a_apply _ _ (0 : Fin 1) n

theorem logsp_at (c : Dev nD) (j : Fin 2048) :
    (V m c main_v54 : S1x2048.Idx → EReal) (ix2 (0 : Fin 1) j)
      = Cert.ReferenceIdeal.ReadP.val_main_v69 (F := Ideal) (m ((c : Thread nD τ).loc main_arg3)) (m ((c : Thread nD τ).loc main_arg4)) (ix1 j) := by
  rw [V_v54]
  exact shapeCast_a_1a_apply _ _ (0 : Fin 1) j

theorem sids_at (c : Dev nD) (j : Fin 2048) :
    (V m c main_v55 : S1x2048.Idx → BitVec 32) (ix2 (0 : Fin 1) j) = (m ((c : Thread nD τ).loc main_arg4)) (ix1 j) := by
  rw [V_v55]
  exact shapeCast_a_1a_apply _ _ (0 : Fin 1) j

theorem temp_at (c : Dev nD) :
    (V m c main_v56 : S1x1.Idx → EReal) (ix2 (0 : Fin 1) (0 : Fin 1)) = Cert.ReferenceIdeal.ReadP.val_main_v33 (F := Ideal) (m ((c : Thread nD τ).loc main_arg5)) ix0 := by
  rw [V_v56]
  unfold shapeCast
  exact congrArg _ (Subsingleton.elim _ _)

theorem wneg_at (c : Dev nD) (d : Fin 128) (j : Fin 2048) :
    (V m c main_v45 : S128x2048.Idx → EReal) (ix2 d j)
      = Cert.ReferenceIdeal.ReadP.val_main_v52 (F := Ideal) (m ((c : Thread nD τ).loc main_arg2)) (m ((c : Thread nD τ).loc main_arg4)) (ix2 j d)
        * Cert.ReferenceIdeal.ReadP.val_main_v33 (F := Ideal) (m ((c : Thread nD τ).loc main_arg5)) ix0 := by
  rw [V_v45]
  refine (transpose_ix2_apply _ _ d j).trans ?_
  show Cert.ReferenceIdeal.ReadP.val_main_v52 (F := Ideal) (m ((c : Thread nD τ).loc main_arg2)) (m ((c : Thread nD τ).loc main_arg4)) (ix2 j d)
    * broadcastInDim S2048x128 ![] Facts₀.bcast_S_S2048x128 (Cert.ReferenceIdeal.ReadP.val_main_v33 (F := Ideal) (m ((c : Thread nD τ).loc main_arg5))) (ix2 j d) = _
  refine congrArg (fun z : EReal => Cert.ReferenceIdeal.ReadP.val_main_v52 (F := Ideal) (m ((c : Thread nD τ).loc main_arg2)) (m ((c : Thread nD τ).loc main_arg4)) (ix2 j d) * z) ?_
  exact broadcastInDim_apply _ _ _ _ ix0 (fun a => a.elim0)

end Cert.KernelIdeal.HostArr

end
-- ==== Proof.RefSoftmax.lean ====
/-
  The reference's tail, read row by row over its array of joined logits.

  The reference joins each row's positive logit and its 2048 negative logits into a row of 2049, takes the row's
  log-softmax (maximum started at −∞, the row shifted by it, the log of the sum of exponentials started at 0), keeps entry 0,
  negates it, weighs it by "the class id is not 0", and divides the sum of the weighted values by max(sum of weights, 1).
-/
import proofs.«120988_j34162169873007_2_alg».proof.Proof.RefReadP

noncomputable section

namespace Cert.ReferenceIdeal.RefValue

open Idealize.ShloMosaic Idealize.ShloMosaic.ValueIdx Cert.ReferenceIdeal Cert.ReferenceIdeal.Gen Cert.ReferenceIdeal.ReadP
open Cert.ReferenceIdeal.Facts

/-- The word a running maximum starts from. -/
abbrev negInf : EReal := Ideal.ofBits .f32 0xFF800000#32
/-- The word a sum starts from. -/
abbrev zeroW : EReal := Ideal.ofBits .f32 0x00000000#32

/-- Minus entry 0 of the log-softmax of a row of 2049 logits, as the reference computes it. -/
def refLoss (X : Fin 2049 → EReal) : EReal :=
  -((X 0 - max negInf ((Finset.univ : Finset (Fin 2049)).fold max negInf X))
      - Ideal.log (zeroW + ∑ k : Fin 2049, Ideal.exp (X k - max negInf ((Finset.univ : Finset (Fin 2049)).fold max negInf X))))

variable (x0 : S1024x64x128.Idx → EReal) (x1 : S1024x64.Idx → BitVec 32) (x2 : S100000x128.Idx → EReal) (x3 : S100000.Idx → EReal) (x4 : S2048.Idx → BitVec 32) (x5 : S_.Idx → EReal)

/-- The index a reduction along the 2049 joined logits inserts at row n and position k is (n, k). -/
theorem lift_row (h : S65536x2049.Reduces [1] S65536) (n : Fin 65536) (k : Fin 2049) : h.lift (ix1 n) k = ix2 n k := by
  funext c
  match c with
  | ⟨0, _⟩ => rfl
  | ⟨1, _⟩ => rfl

/-- The joined logits reduce along their second axis. -/
theorem red2049 : S65536x2049.Reduces [1] S65536 := by decide

/-- A maximum-reduction along the joined logits, at row n, is the running maximum over the inserted indices, -/
theorem reduce_max_lift (X : S65536x2049.Idx → EReal) (init : S_.Idx → EReal) (hr : S65536x2049.Reduces [1] S65536) (n : Fin 65536) :
    Host.reduce (max : EReal → EReal → EReal) X init reducesTo_S65536x2049_S65536_d1 h_S_ (ix1 n)
      = (Finset.univ : Finset (Fin 2049)).fold max (init (Shape.Idx.first h_S_)) (X ∘ hr.lift (ix1 n)) :=
  Host.reduce_eq_fold_single (max : EReal → EReal → EReal) X init reducesTo_S65536x2049_S65536_d1 hr h_S_ (ix1 n)

/-- which are the row's indices (n, k). -/
theorem fold_lift (X : S65536x2049.Idx → EReal) (b : EReal) (hr : S65536x2049.Reduces [1] S65536) (n : Fin 65536)
    (hl : ∀ k : Fin 2049, hr.lift (ix1 n) k = ix2 n k) :
    (Finset.univ : Finset (Fin 2049)).fold max b (X ∘ hr.lift (ix1 n))
      = (Finset.univ : Finset (Fin 2049)).fold max b (fun k => X (ix2 n k)) :=
  congrArg (Finset.fold max b · (Finset.univ : Finset (Fin 2049))) (funext fun k => congrArg X (hl k))

/-- So it is the running maximum from the initial value over the row. -/
theorem reduce_max_row (X : S65536x2049.Idx → EReal) (init : S_.Idx → EReal) (n : Fin 65536) :
    Host.reduce (max : EReal → EReal → EReal) X init reducesTo_S65536x2049_S65536_d1 h_S_ (ix1 n)
      = (Finset.univ : Finset (Fin 2049)).fold max (init (Shape.Idx.first h_S_)) (fun k => X (ix2 n k)) :=
  (reduce_max_lift X init red2049 n).trans (fold_lift X _ red2049 n (lift_row red2049 n))

/-- The row maximum: started at −∞, over the row's 2049 logits. -/
theorem rowmax (n : Fin 65536) :
    val_main_call4_v2 (F := Ideal) x0 x1 x2 x3 x4 x5 (ix1 n)
      = max negInf ((Finset.univ : Finset (Fin 2049)).fold max negInf (fun k => val_main_v74 (F := Ideal) x0 x1 x2 x3 x4 x5 (ix2 n k))) := by
  rw [val_main_call4_v2_apply, val_main_call4_v1_apply, val_main_call4_cst_0_apply]
  show max negInf (val_main_call4_v0 (F := Ideal) x0 x1 x2 x3 x4 x5 (ix1 n)) = _
  refine congrArg (max negInf) ?_
  unfold val_main_call4_v0
  exact reduce_max_row _ _ n

/-- The maximum spread over the row. -/
theorem rowmax_bcast (n : Fin 65536) (k : Fin 2049) :
    val_main_call4_v4 (F := Ideal) x0 x1 x2 x3 x4 x5 (ix2 n k) = val_main_call4_v2 (F := Ideal) x0 x1 x2 x3 x4 x5 (ix1 n) := by
  rw [val_main_call4_v4_apply, val_main_call4_v3_apply]
  exact congrArg (val_main_call4_v2 (F := Ideal) x0 x1 x2 x3 x4 x5) (funext fun a => by match a with | ⟨0, _⟩ => rfl)

/-- The shifted row. -/
theorem shifted (n : Fin 65536) (k : Fin 2049) :
    val_main_call4_v5 (F := Ideal) x0 x1 x2 x3 x4 x5 (ix2 n k)
      = val_main_v74 (F := Ideal) x0 x1 x2 x3 x4 x5 (ix2 n k) - val_main_call4_v2 (F := Ideal) x0 x1 x2 x3 x4 x5 (ix1 n) := by
  rw [val_main_call4_v5_apply, rowmax_bcast]
  rfl

/-- The sum of the shifted row's exponentials. -/
theorem expsum (n : Fin 65536) :
    val_main_call4_v7 (F := Ideal) x0 x1 x2 x3 x4 x5 (ix1 n)
      = zeroW + ∑ k : Fin 2049, Ideal.exp (val_main_call4_v5 (F := Ideal) x0 x1 x2 x3 x4 x5 (ix2 n k)) := by
  rw [val_main_call4_v7_apply, val_main_call4_cst_1_apply]
  refine congrArg (zeroW + ·) (Finset.sum_congr rfl fun k _ => ?_)
  rw [val_main_call4_v6_apply, Ideal.hostUnary_exp_def]
  exact congrArg (fun i => Ideal.exp (val_main_call4_v5 (F := Ideal) x0 x1 x2 x3 x4 x5 i))
    (funext fun a => by match a with | ⟨0, _⟩ => rfl | ⟨1, _⟩ => rfl)

/-- Its logarithm spread over the row. -/
theorem logsum_bcast (n : Fin 65536) (k : Fin 2049) :
    val_main_call4_v10 (F := Ideal) x0 x1 x2 x3 x4 x5 (ix2 n k) = Ideal.log (val_main_call4_v7 (F := Ideal) x0 x1 x2 x3 x4 x5 (ix1 n)) := by
  rw [val_main_call4_v10_apply, val_main_call4_v9_apply, val_main_call4_v8_apply, Ideal.hostUnary_log_def]
  exact congrArg (fun i => Ideal.log (val_main_call4_v7 (F := Ideal) x0 x1 x2 x3 x4 x5 i)) (funext fun a => by match a with | ⟨0, _⟩ => rfl)

/-- Row n's negated log-softmax entry 0. -/
theorem neg_logsoftmax0 (n : Fin 65536) :
    val_main_v78 (F := Ideal) x0 x1 x2 x3 x4 x5 (ix1 n) = refLoss (fun k => val_main_v74 (F := Ideal) x0 x1 x2 x3 x4 x5 (ix2 n k)) := by
  rw [val_main_v78_apply, val_main_v77_apply, val_main_v76_apply]
  have hi : idx_main_v76 (idx_main_v77 (ix1 n)) = ix2 n (0 : Fin 2049) := funext fun a => Fin.ext (by
    match a with
    | ⟨0, _⟩ => show n.val / 1 = n.val; omega
    | ⟨1, _⟩ => rfl)
  rw [hi, val_main_v75_apply, shifted, logsum_bcast, expsum]
  unfold refLoss
  simp only [shifted, rowmax]
  rfl

/-- Row n's weight: 1 when its class id is not 0, else 0. -/
def refW (y : BitVec 32) : EReal := FloatOps.uitofp (F := Ideal) .f32 (IntOp.cmpi .ne y 0#32)

theorem weight (n : Fin 65536) :
    val_main_v79 (F := Ideal) x1 (ix1 n) = refW (val_main_v1 (F := Ideal) x1 (ix1 n)) := by
  rw [val_main_v79_apply, val_main_v3_apply, val_main_v2_apply, val_main_c_apply]
  rfl

/-- The reference's result: the weighted sum over the 65536 rows divided by max(number of weighted rows, 1). -/
theorem result_apply (i : S_.Idx) :
    val_main_v84 (F := Ideal) x0 x1 x2 x3 x4 x5 i
      = Ideal.div (zeroW + ∑ n : Fin 65536, refLoss (fun k => val_main_v74 (F := Ideal) x0 x1 x2 x3 x4 x5 (ix2 n k))
            * refW (val_main_v1 (F := Ideal) x1 (ix1 n)))
          (max (zeroW + ∑ n : Fin 65536, refW (val_main_v1 (F := Ideal) x1 (ix1 n))) (Ideal.ofBits .f32 0x3F800000#32)) := by
  rw [val_main_v84_apply, val_main_v81_apply, val_main_v83_apply, val_main_v82_apply, val_main_cst_15_apply, val_main_cst_16_apply,
    val_main_cst_17_apply]
  have s1 : ∀ f : S65536.Idx → EReal, ∑ j : S65536.Idx, f j = ∑ n : Fin 65536, f (ix1 n) := fun f => by
    refine (Fintype.sum_equiv ⟨fun j => j 0, fun n => ix1 n, fun j => (eq_ix1 j).symm, fun _ => rfl⟩ _ _ fun j => ?_)
    exact congrArg f (eq_ix1 j)
  rw [s1, s1]
  simp only [val_main_v80_apply, neg_logsoftmax0, weight]
  rfl

end Cert.ReferenceIdeal.RefValue

end
-- ==== Proof.RefLogits.lean ====
/-
  The reference's row of 2049 joined logits, entry by entry, over its own intermediate arrays.

  With hnR n d the hidden row n divided by max(its norm, 1e-12) at lane d,
    entry 0      = (0 + Σ_d hnR n d · e n d) · temp − a n
    entry j + 1  = (−1e9 where the row's class id equals sampled id j, else (Σ_d hnR n d · w j d) · temp) − b j
  where e is the array of normalised positive embeddings, w the normalised negative embeddings, a and b the logarithms
  of the gathered class probabilities plus 1e-10, and temp the exponential of the clamped log-temperature.
-/
import proofs.«120988_j34162169873007_2_alg».proof.Proof.RefSoftmax

noncomputable section

namespace Cert.ReferenceIdeal.RefValue

open Idealize.ShloMosaic Idealize.ShloMosaic.ValueIdx Cert.ReferenceIdeal Cert.ReferenceIdeal.Gen Cert.ReferenceIdeal.ReadP
open Cert.ReferenceIdeal.Facts

/-- The small constant the norms are clamped below by. -/
abbrev tinyW : EReal := Ideal.ofBits .f32 0x2B8CBCCC#32
/-- The finite fill of a colliding negative logit. -/
abbrev bigW : EReal := Ideal.ofBits .f32 0xCE6E6B28#32

variable (x0 : S1024x64x128.Idx → EReal) (x1 : S1024x64.Idx → BitVec 32) (x2 : S100000x128.Idx → EReal) (x3 : S100000.Idx → EReal) (x4 : S2048.Idx → BitVec 32) (x5 : S_.Idx → EReal)

/-- The reference's normalised hidden row n at lane d. -/
theorem hn_ref (n : Fin 65536) (d : Fin 128) :
    val_main_v38 (F := Ideal) x0 (ix2 n d)
      = Ideal.div (val_main_v0 (F := Ideal) x0 (ix2 n d))
          (max (Ideal.sqrt (zeroW + ∑ k : Fin 128, val_main_v0 (F := Ideal) x0 (ix2 n k) * val_main_v0 (F := Ideal) x0 (ix2 n k))) tinyW) := by
  have h1 : idx_main_call0_v2 (idx_main_v37 (ix2 n d)) = ix1 n := funext fun a => by match a with | ⟨0, _⟩ => rfl
  have h2 : ∀ k : Fin 128, idx_main_call0_v1 (ix1 n) k = ix2 n k := fun k => funext fun a => by
    match a with | ⟨0, _⟩ => rfl | ⟨1, _⟩ => rfl
  rw [val_main_v38_apply, val_main_v37_apply, val_main_v36_apply, val_main_v35_apply, val_main_cst_8_apply, val_main_v34_apply,
    val_main_call0_v2_apply, h1, val_main_call0_v1_apply, val_main_call0_cst_apply]
  simp only [h2, val_main_call0_v0_apply, Ideal.hostDivf_def, Ideal.maximumf_def, Ideal.hostUnary_sqrt_def, Ideal.ofBits_def, Ideal.mulf_def]

/-- Entry 0 of row n: the positive logit less the log-probability of the true class. -/
theorem pos_ref (n : Fin 65536) :
    val_main_v74 (F := Ideal) x0 x1 x2 x3 x4 x5 (ix2 n (0 : Fin 2049))
      = (zeroW + ∑ d : Fin 128, val_main_v38 (F := Ideal) x0 (ix2 n d) * val_main_v43 (F := Ideal) x1 x2 (ix2 n d))
          * val_main_v33 (F := Ideal) x5 ix0 - val_main_v65 (F := Ideal) x1 x3 (ix1 n) := by
  have h1 : idx_main_v73 (ix2 n (0 : Fin 1)) = ix1 n := funext fun a => by match a with | ⟨0, _⟩ => rfl
  have h2 : ∀ d : Fin 128, idx_main_v45 (ix1 n) d = ix2 n d := fun d => funext fun a => by
    match a with | ⟨0, _⟩ => rfl | ⟨1, _⟩ => rfl
  have h3 : idx_main_v46 (ix1 n) = ix0 := funext fun a => a.elim0
  unfold val_main_v74
  refine (concatenate_pair_apply_left 1 _ _ concatenates_S65536x1_S65536x2048_S65536x2049_d1 (ix2 n (0 : Fin 2049)) rfl
    (ix2 n (0 : Fin 1)) (fun b => by match b with | ⟨0, _⟩ => rfl | ⟨1, _⟩ => rfl)).trans ?_
  rw [val_main_v73_apply, h1, val_main_v66_apply, val_main_v47_apply, val_main_v45_apply, val_main_cst_10_apply, val_main_v46_apply, h3]
  simp only [h2, val_main_v44_apply, Ideal.subf_def, Ideal.mulf_def, Ideal.ofBits_def]

/-- Entry j + 1 of row n: the masked, scaled negative logit less the log-probability of sampled class j. -/
theorem neg_ref (n : Fin 65536) (j : Fin 2048) :
    val_main_v74 (F := Ideal) x0 x1 x2 x3 x4 x5 (ix2 n j.succ)
      = Scalar.select (IntOp.cmpi .eq (val_main_v1 (F := Ideal) x1 (ix1 n)) (x4 (ix1 j))) bigW
          ((∑ d : Fin 128, val_main_v38 (F := Ideal) x0 (ix2 n d) * val_main_v52 (F := Ideal) x2 x4 (ix2 j d))
            * val_main_v33 (F := Ideal) x5 ix0)
        - val_main_v69 (F := Ideal) x3 x4 (ix1 j) := by
  have h1 : idx_main_v57 (idx_main_v59 (ix2 n j)) = ix1 n := funext fun a => by match a with | ⟨0, _⟩ => rfl
  have h2 : idx_main_v58 (idx_main_v60 (ix2 n j)) = ix1 j := funext fun a => by match a with | ⟨0, _⟩ => rfl
  have h3 : idx_main_call3_v1 (ix2 n j) = ix0 := funext fun a => a.elim0
  have h4 : idx_main_v55 (ix2 n j) = ix0 := funext fun a => a.elim0
  have h5 : idx_main_v70 (idx_main_v71 (ix2 n j)) = ix1 j := funext fun a => by match a with | ⟨0, _⟩ => rfl
  have h6 : ∀ d : Fin 128, lidx_main_v54 (ix2 n j) d = ix2 n d := fun d => funext fun a => by
    match a with | ⟨0, _⟩ => rfl | ⟨1, _⟩ => rfl
  have h7 : ∀ d : Fin 128, idx_main_v53 (ridx_main_v54 (ix2 n j) d) = ix2 j d := fun d => funext fun a => by
    match a with | ⟨0, _⟩ => rfl | ⟨1, _⟩ => rfl
  unfold val_main_v74
  refine (concatenate_pair_apply_right 1 _ _ concatenates_S65536x1_S65536x2048_S65536x2049_d1 (ix2 n j.succ) rfl rfl
    (ix2 n j) (fun b hb => by match b with | ⟨0, _⟩ => rfl | ⟨1, _⟩ => exact absurd rfl hb) rfl).trans ?_
  rw [val_main_v72_apply, val_main_v62_apply, val_main_v61_apply, val_main_v59_apply, val_main_v57_apply, h1, val_main_v60_apply,
    val_main_v58_apply, h2, val_main_call3_v1_apply, h3, val_main_call3_v0_apply, val_main_cst_12_apply, val_main_v56_apply,
    val_main_v54_apply, val_main_v55_apply, h4, val_main_v71_apply, val_main_v70_apply, h5]
  simp only [h6, val_main_v53_apply, h7, Ideal.subf_def, Ideal.mulf_def, Ideal.ofBits_def]

end Cert.ReferenceIdeal.RefValue

end
-- ==== Proof.Reals.lean ====
/-
  "Is a real number" for extended reals, and its closure under the operations the two logit formulas use:
  sums, products, differences, finite sums, the maximum, the square root of a nonnegative real, the quotient by a
  nonzero real, the exponential, and the logarithm of a positive real.  Also: the two spellings of a row's weight
  (a 0/1 word converted as a signed 32-bit integer, or as an unsigned 1-bit integer) are the same real.
-/
import Idealize.ShloMosaic.PureOps.Ideal
import Idealize.ShloMosaic.PureOps.Ideal.Laws
import Mathlib.Data.EReal.Operations
import Mathlib.Data.EReal.Inv
import Mathlib.Algebra.BigOperators.Fin

noncomputable section

namespace Cert.LossReal

open Idealize.ShloMosaic

/-- x is a real number. -/
def IsReal (x : EReal) : Prop := ∃ r : ℝ, x = (r : EReal)

theorem isReal_of_ne {x : EReal} (h1 : x ≠ ⊤) (h2 : x ≠ ⊥) : IsReal x := ⟨x.toReal, (EReal.coe_toReal h1 h2).symm⟩
theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

theorem IsReal.sum {ι : Type} (s : Finset ι) (f : ι → EReal) (hf : ∀ i, IsReal (f i)) : IsReal (∑ i ∈ s, f i) := by
  classical
  induction s using Finset.induction_on with
  | empty => simpa using isReal_zero
  | insert a s ha ih => rw [Finset.sum_insert ha]; exact (hf a).add ih

/-- A finite sum of squares of reals is a nonnegative real. -/
theorem sum_sq_real {ι : Type} (s : Finset ι) (f : ι → EReal) (hf : ∀ i, IsReal (f i)) :
    ∃ r : ℝ, 0 ≤ r ∧ ∑ i ∈ s, f i * f i = (r : EReal) := by
  classical
  induction s using Finset.induction_on with
  | empty => exact ⟨0, le_refl _, by simp⟩
  | insert a s ha ih =>
    obtain ⟨r, hr, e⟩ := ih
    obtain ⟨q, hq⟩ := hf a
    exact ⟨q * q + r, add_nonneg (mul_self_nonneg q) hr, by
      rw [Finset.sum_insert ha, e, hq, ← EReal.coe_mul, ← EReal.coe_add]⟩

/-- The square root of a nonnegative real is a nonnegative real. -/
theorem sqrt_real {r : ℝ} (hr : 0 ≤ r) : Ideal.sqrt (r : EReal) = ((Real.sqrt r : ℝ) : EReal) := by
  rw [Ideal.sqrt_coe, if_neg (not_lt.mpr hr)]

/-- A real divided by a positive real is a real. -/
theorem div_real (a : ℝ) {b : ℝ} (hb : 0 < b) : IsReal (Ideal.div (a : EReal) (b : EReal)) := by
  rw [Ideal.div_coe hb.ne']
  exact (isReal_coe a).mul (isReal_coe _)

/-- x / max(sqrt(S), t) is real when x is real, S is a nonnegative real and t a positive real. -/
theorem normalised_real {x S t : EReal} (hx : IsReal x) (hS : ∃ r : ℝ, 0 ≤ r ∧ S = (r : EReal)) (ht : ∃ q : ℝ, 0 < q ∧ t = (q : EReal)) :
    IsReal (Ideal.div x (max (Ideal.sqrt S) t)) := by
  obtain ⟨a, rfl⟩ := hx
  obtain ⟨r, hr, rfl⟩ := hS
  obtain ⟨q, hq, rfl⟩ := ht
  rw [sqrt_real hr]
  have : max ((Real.sqrt r : ℝ) : EReal) (q : EReal) = ((max (Real.sqrt r) q : ℝ) : EReal) := by
    rcases le_total (Real.sqrt r) q with h | h
    · rw [max_eq_right h, max_eq_right (EReal.coe_le_coe_iff.mpr h)]
    · rw [max_eq_left h, max_eq_left (EReal.coe_le_coe_iff.mpr h)]
  rw [this]
  exact div_real a (lt_of_lt_of_le hq (le_max_right _ _))

/-- The exponential of anything but ⊤ is a nonnegative real. -/
theorem exp_nonneg_real {x : EReal} (hx : x ≠ ⊤) : ∃ r : ℝ, 0 ≤ r ∧ Ideal.exp x = (r : EReal) := by
  induction x using EReal.rec with
  | bot => exact ⟨0, le_refl _, by simp⟩
  | coe x => exact ⟨Real.exp x, (Real.exp_pos x).le, rfl⟩
  | top => exact absurd rfl hx

/-- The logarithm of a positive real is a real. -/
theorem log_real {x : EReal} (hx : IsReal x) (hpos : 0 < x) : IsReal (Ideal.log x) := by
  obtain ⟨r, rfl⟩ := hx
  have hr : 0 < r := by exact_mod_cast hpos
  rw [Ideal.log_coe, if_neg (not_le.mpr hr)]
  exact isReal_coe _

/-- A difference is not ⊤ when the minuend is not ⊤ and the subtrahend is real. -/
theorem sub_ne_top {x y : EReal} (hx : x ≠ ⊤) (hy : IsReal y) : x - y ≠ ⊤ := by
  obtain ⟨b, rfl⟩ := hy
  induction x using EReal.rec with
  | bot => simp
  | coe a => rw [← EReal.coe_sub]; exact EReal.coe_ne_top _
  | top => exact absurd rfl hx

/-- The two conversions of a 0/1 word give the same real. -/
theorem weight_eq (b : BitVec 1) :
    FloatOps.sitofp (F := Ideal) .f32 (b.setWidth 32) = FloatOps.uitofp (F := Ideal) .f32 b := by
  rcases BitVec.eq_zero_or_eq_one b with h | h <;> subst h <;> rfl

end Cert.LossReal

end
-- ==== Proof.Consts.lean ====
/-
  The f32 literals of the two programs as real numbers: a pattern whose exponent field is not all ones denotes a real;
  with a clear sign bit and a nonzero exponent field, a positive real.  The literals: 1e-12 (positive), -1e9, 1e-10
  and 4.6 (real).
-/
import proofs.«120988_j34162169873007_2_alg».proof.Proof.Reals

noncomputable section

namespace Cert.LossReal

open Idealize.ShloMosaic

/-- An f32 pattern whose exponent field is not all ones denotes a real number. -/
theorem ofBits_f32_real (b : BitVec 32) (h : (b.extractLsb' 23 8).toNat ≠ 255) : IsReal (Ideal.ofBits .f32 b) := by
  unfold Ideal.ofBits Ideal.ieee
  simp only
  rw [if_neg (by simpa using h)]
  split <;> exact ⟨_, rfl⟩

/-- With a clear sign bit and an exponent field neither 0 nor all ones, it denotes a positive real. -/
theorem ofBits_f32_pos (b : BitVec 32) (hs : (b.extractLsb' 31 1 == 1#1) = false)
    (h1 : (b.extractLsb' 23 8).toNat ≠ 255) (h0 : (b.extractLsb' 23 8).toNat ≠ 0) :
    ∃ q : ℝ, 0 < q ∧ Ideal.ofBits .f32 b = (q : EReal) := by
  unfold Ideal.ofBits Ideal.ieee
  simp only
  rw [if_neg (by simpa using h1), if_neg h0, hs]
  refine ⟨_, ?_, rfl⟩
  simp only [Bool.false_eq_true, if_false]
  positivity

theorem tiny_pos : ∃ q : ℝ, 0 < q ∧ Ideal.ofBits .f32 0x2B8CBCCC#32 = (q : EReal) :=
  ofBits_f32_pos _ (by decide) (by decide) (by decide)
theorem big_real : IsReal (Ideal.ofBits .f32 0xCE6E6B28#32) := ofBits_f32_real _ (by decide)
theorem eps_real : IsReal (Ideal.ofBits .f32 0x2EDBE6FF#32) := ofBits_f32_real _ (by decide)
theorem clamp_real : IsReal (Ideal.ofBits .f32 0x40933333#32) := ofBits_f32_real _ (by decide)

/-- The temperature exp(min(x, 4.6)) is a nonnegative real whatever x is. -/
theorem temp_real (x : EReal) : ∃ r : ℝ, 0 ≤ r ∧ Ideal.exp (min x (Ideal.ofBits .f32 0x40933333#32)) = (r : EReal) :=
  exp_nonneg_real (ne_of_lt (lt_of_le_of_lt (min_le_right _ _) (lt_top_iff_ne_top.mpr clamp_real.ne_top)))

end Cert.LossReal

end
-- ==== Proof.RefReal.lean ====
/-
  The reference's intermediate arrays are arrays of real numbers, under the precondition's facts.

  Given that every entry of hidden, embed_table and sampling_probs is real and that the gathered probabilities plus
  1e-10 are positive: the flattened hidden rows, both gathers of embedding rows, every normalised row (a real divided by
  the maximum of a square root of a sum of squares and a positive constant), both logarithms (of positive reals) are
  real, and the temperature exp(min(·, 4.6)) is a nonnegative real whatever the log-temperature is.
-/
import proofs.«120988_j34162169873007_2_alg».proof.Proof.RefLogits
import proofs.«120988_j34162169873007_2_alg».proof.Proof.Consts

noncomputable section

namespace Cert.ReferenceIdeal.RefValue

open Idealize.ShloMosaic Idealize.ShloMosaic.ValueIdx Cert.ReferenceIdeal Cert.ReferenceIdeal.Gen Cert.ReferenceIdeal.ReadP
open Cert.ReferenceIdeal.Facts Cert.LossReal

variable (x0 : S1024x64x128.Idx → EReal) (x1 : S1024x64.Idx → BitVec 32) (x2 : S100000x128.Idx → EReal) (x3 : S100000.Idx → EReal) (x4 : S2048.Idx → BitVec 32) (x5 : S_.Idx → EReal)

/-- The normalised positive embeddings: the gathered row n divided by max(its norm, 1e-12), at lane d. -/
theorem epos_ref (n : Fin 65536) (d : Fin 128) :
    val_main_v43 (F := Ideal) x1 x2 (ix2 n d)
      = Ideal.div (val_main_v24 (F := Ideal) x1 x2 (ix2 n d))
          (max (Ideal.sqrt (zeroW + ∑ k : Fin 128, val_main_v24 (F := Ideal) x1 x2 (ix2 n k) * val_main_v24 (F := Ideal) x1 x2 (ix2 n k))) tinyW) := by
  have h1 : idx_main_call1_v2 (idx_main_v42 (ix2 n d)) = ix1 n := funext fun a => by match a with | ⟨0, _⟩ => rfl
  have h2 : ∀ k : Fin 128, idx_main_call1_v1 (ix1 n) k = ix2 n k := fun k => funext fun a => by
    match a with | ⟨0, _⟩ => rfl | ⟨1, _⟩ => rfl
  rw [val_main_v43_apply, val_main_v42_apply, val_main_v41_apply, val_main_v40_apply, val_main_cst_9_apply, val_main_v39_apply,
    val_main_call1_v2_apply, h1, val_main_call1_v1_apply, val_main_call1_cst_apply]
  simp only [h2, val_main_call1_v0_apply, Ideal.hostDivf_def, Ideal.maximumf_def, Ideal.hostUnary_sqrt_def, Ideal.ofBits_def, Ideal.mulf_def]

/-- The normalised negative embeddings: the gathered row j divided by max(its norm, 1e-12), at lane d. -/
theorem eneg_ref (n : Fin 2048) (d : Fin 128) :
    val_main_v52 (F := Ideal) x2 x4 (ix2 n d)
      = Ideal.div (val_main_v31 (F := Ideal) x2 x4 (ix2 n d))
          (max (Ideal.sqrt (zeroW + ∑ k : Fin 128, val_main_v31 (F := Ideal) x2 x4 (ix2 n k) * val_main_v31 (F := Ideal) x2 x4 (ix2 n k))) tinyW) := by
  have h1 : idx_main_call2_v2 (idx_main_v51 (ix2 n d)) = ix1 n := funext fun a => by match a with | ⟨0, _⟩ => rfl
  have h2 : ∀ k : Fin 128, idx_main_call2_v1 (ix1 n) k = ix2 n k := fun k => funext fun a => by
    match a with | ⟨0, _⟩ => rfl | ⟨1, _⟩ => rfl
  rw [val_main_v52_apply, val_main_v51_apply, val_main_v50_apply, val_main_v49_apply, val_main_cst_11_apply, val_main_v48_apply,
    val_main_call2_v2_apply, h1, val_main_call2_v1_apply, val_main_call2_cst_apply]
  simp only [h2, val_main_call2_v0_apply, Ideal.hostDivf_def, Ideal.maximumf_def, Ideal.hostUnary_sqrt_def, Ideal.ofBits_def, Ideal.mulf_def]

/-- The logarithm of the gathered true-class probability plus 1e-10, at row n. -/
theorem logtp_ref (n : S65536.Idx) :
    val_main_v65 (F := Ideal) x1 x3 n = Ideal.log (val_main_v10 (F := Ideal) x1 x3 n + Ideal.ofBits .f32 0x2EDBE6FF#32) := by
  rw [val_main_v65_apply, val_main_v64_apply, val_main_v63_apply, val_main_cst_13_apply]
  simp only [Ideal.hostUnary_log_def, Ideal.addf_def, Ideal.ofBits_def]

/-- The logarithm of the gathered sampled-class probability plus 1e-10, at sampled class j. -/
theorem logsp_ref (j : S2048.Idx) :
    val_main_v69 (F := Ideal) x3 x4 j = Ideal.log (val_main_v17 (F := Ideal) x3 x4 j + Ideal.ofBits .f32 0x2EDBE6FF#32) := by
  rw [val_main_v69_apply, val_main_v68_apply, val_main_v67_apply, val_main_cst_14_apply]
  simp only [Ideal.hostUnary_log_def, Ideal.addf_def, Ideal.ofBits_def]

/-- The temperature: exp(min(log-temperature, 4.6)). -/
theorem temp_ref : val_main_v33 (F := Ideal) x5 ix0 = Ideal.exp (min (x5 ix0) (Ideal.ofBits .f32 0x40933333#32)) := by
  rw [val_main_v33_apply, val_main_v32_apply, val_main_cst_apply]
  simp only [Ideal.hostUnary_exp_def, Ideal.ofBits_def]
  rfl

section Real
variable (r0 : ∀ i, IsReal (x0 i)) (r2 : ∀ i, IsReal (x2 i)) (r3 : ∀ i, IsReal (x3 i))
  (p1 : ∀ n : S65536.Idx, 0 < val_main_v10 (F := Ideal) x1 x3 n + Ideal.ofBits .f32 0x2EDBE6FF#32)
  (p2 : ∀ j : S2048.Idx, 0 < val_main_v17 (F := Ideal) x3 x4 j + Ideal.ofBits .f32 0x2EDBE6FF#32)

/-- A sum started at the zero word of squares of reals is a nonnegative real. -/
theorem zero_sum_sq (f : Fin 128 → EReal) (hf : ∀ k, IsReal (f k)) : ∃ r : ℝ, 0 ≤ r ∧ zeroW + ∑ k : Fin 128, f k * f k = (r : EReal) := by
  obtain ⟨r, hr, e⟩ := sum_sq_real Finset.univ f hf
  exact ⟨r, hr, by rw [e]; show Ideal.ofBits .f32 0x00000000#32 + _ = _; rw [Ideal.ofBits_zero_f32, zero_add]⟩

include r0 in
theorem hidden_real (i : S65536x128.Idx) : IsReal (val_main_v0 (F := Ideal) x0 i) := by
  rw [val_main_v0_apply]; exact r0 _

include r0 in
theorem hn_real (n : Fin 65536) (d : Fin 128) : IsReal (val_main_v38 (F := Ideal) x0 (ix2 n d)) := by
  rw [hn_ref]
  exact normalised_real (hidden_real x0 r0 _) (zero_sum_sq _ fun k => hidden_real x0 r0 _) tiny_pos

include r2 in
theorem gpos_real (i : S65536x128.Idx) : IsReal (val_main_v24 (F := Ideal) x1 x2 i) := by
  unfold val_main_v24 Host.gather; exact r2 _

include r2 in
theorem gneg_real (i : S2048x128.Idx) : IsReal (val_main_v31 (F := Ideal) x2 x4 i) := by
  unfold val_main_v31 Host.gather; exact r2 _

include r2 in
theorem epos_real (n : Fin 65536) (d : Fin 128) : IsReal (val_main_v43 (F := Ideal) x1 x2 (ix2 n d)) := by
  rw [epos_ref]
  exact normalised_real (gpos_real x1 x2 r2 _) (zero_sum_sq _ fun k => gpos_real x1 x2 r2 _) tiny_pos

include r2 in
theorem eneg_real (j : Fin 2048) (d : Fin 128) : IsReal (val_main_v52 (F := Ideal) x2 x4 (ix2 j d)) := by
  rw [eneg_ref]
  exact normalised_real (gneg_real x2 x4 r2 _) (zero_sum_sq _ fun k => gneg_real x2 x4 r2 _) tiny_pos

include r3 p1 in
theorem logtp_real (n : S65536.Idx) : IsReal (val_main_v65 (F := Ideal) x1 x3 n) := by
  rw [logtp_ref]
  refine log_real (IsReal.add ?_ eps_real) (p1 n)
  unfold val_main_v10 Host.gather; exact r3 _

include r3 p2 in
theorem logsp_real (j : S2048.Idx) : IsReal (val_main_v69 (F := Ideal) x3 x4 j) := by
  rw [logsp_ref]
  refine log_real (IsReal.add ?_ eps_real) (p2 j)
  unfold val_main_v17 Host.gather; exact r3 _

/-- The temperature is a nonnegative real. -/
theorem temp_nonneg_real : ∃ r : ℝ, 0 ≤ r ∧ val_main_v33 (F := Ideal) x5 ix0 = (r : EReal) := by
  rw [temp_ref]; exact temp_real _

end Real

end Cert.ReferenceIdeal.RefValue

end
-- ==== Proof.Algebra.lean ====
/-
  Laws of the extended reals used to join the two programs' arithmetic.

  * A finite sum scaled on the right by a factor t with 0 ≤ t < ⊤ is the sum of the scaled terms, for ANY
    extended-real terms: multiplication by such a factor distributes over addition even at the infinities.
    This moves the temperature from inside a dot product's right factor to outside the dot product.
  * The maximum and the sum over the row of logits [p, N 0, …, N (n-1)] split into the part of p and the part of N.
  * With M real and x ≠ ⊤, exp (x - M) is a nonnegative real; so a sum of such terms is a nonnegative real.
  * For reals p, M and s > 0:  (M + log s) - p  =  -((p - M) - log s).  These are the two spellings of
    "minus the log-softmax of logit 0": log-sum-exp minus the logit, and the negated shifted logit minus the log
    of the shifted sum.
-/
import Idealize.ShloMosaic.PureOps.Ideal
import Mathlib.Data.EReal.Operations
import Mathlib.Data.EReal.Inv
import Mathlib.Algebra.BigOperators.Fin
import Mathlib.Data.Finset.Fold

noncomputable section

namespace Cert.LossAlg

open Idealize.ShloMosaic

/-- A finite sum times a factor in [0, ⊤) is the sum of the products, whatever the terms. -/
theorem sum_mul_of_nonneg {ι : Type} (s : Finset ι) (f : ι → EReal) {t : EReal} (h0 : 0 ≤ t) (ht : t ≠ ⊤) :
    (∑ i ∈ s, f i) * t = ∑ i ∈ s, f i * t := by
  classical
  induction s using Finset.induction_on with
  | empty => simp
  | insert a s ha ih =>
    rw [Finset.sum_insert ha, Finset.sum_insert ha, EReal.right_distrib_of_nonneg_of_ne_top h0 ht, ih]

/-- A dot product whose right factors all carry the factor t is the plain dot product times t. -/
theorem dot_scaled {ι : Type} [Fintype ι] (a b : ι → EReal) {t : EReal} (h0 : 0 ≤ t) (ht : t ≠ ⊤) :
    ∑ d, a d * (b d * t) = (∑ d, a d * b d) * t := by
  rw [sum_mul_of_nonneg _ _ h0 ht]
  exact Finset.sum_congr rfl fun d _ => (mul_assoc _ _ _).symm

/-- The running maximum over [p, N 0, …] is the maximum of p and the running maximum over N. -/
theorem fold_max_cons {n : ℕ} (b p : EReal) (N : Fin n → EReal) :
    (Finset.univ : Finset (Fin (n + 1))).fold max b (Fin.cons p N : Fin (n + 1) → EReal)
      = max p ((Finset.univ : Finset (Fin n)).fold max b N) := by
  rw [Fin.univ_succ, Finset.fold_cons, Finset.fold_map]
  rfl

/-- The sum over [p, N 0, …] of g is g p plus the sum over N. -/
theorem sum_cons {n : ℕ} (g : EReal → EReal) (p : EReal) (N : Fin n → EReal) :
    ∑ k : Fin (n + 1), g ((Fin.cons p N : Fin (n + 1) → EReal) k) = g p + ∑ j : Fin n, g (N j) := by
  rw [Fin.sum_univ_succ]
  rfl

/-- A running maximum from ⊥ over terms that are never ⊤ is not ⊤. -/
theorem fold_max_ne_top {n : ℕ} (N : Fin n → EReal) (hN : ∀ j, N j ≠ ⊤) :
    (Finset.univ : Finset (Fin n)).fold max ⊥ N ≠ ⊤ := by
  refine ne_of_lt ?_
  rw [Finset.fold_max_lt]
  exact ⟨bot_lt_top, fun j _ => lt_top_iff_ne_top.mpr (hN j)⟩

/-- exp of a logit that is not ⊤, shifted by a real, is a nonnegative real. -/
theorem exp_shift_real (x : EReal) (hx : x ≠ ⊤) (M : ℝ) : ∃ r : ℝ, 0 ≤ r ∧ Ideal.exp (x - (M : EReal)) = (r : EReal) := by
  induction x using EReal.rec with
  | bot => exact ⟨0, le_refl _, by simp⟩
  | coe x => exact ⟨Real.exp (x - M), (Real.exp_pos _).le, by rw [← EReal.coe_sub]; rfl⟩
  | top => exact absurd rfl hx

/-- A finite sum of nonnegative reals, as extended reals, is a nonnegative real. -/
theorem sum_real_nonneg {ι : Type} (s : Finset ι) (f : ι → EReal) (hf : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr, e⟩ := ih
    obtain ⟨q, hq, e'⟩ := hf a
    exact ⟨q + r, add_nonneg hq hr, by rw [Finset.sum_insert ha, e, e', EReal.coe_add]⟩

/-- The two spellings of minus the log-softmax of one logit, for real logit p, real row maximum M and a positive real
    shifted sum s. -/
theorem lse_real (p M s : ℝ) (hs : 0 < s) :
    ((M : EReal) + Ideal.log (s : EReal)) - (p : EReal) = -(((p : EReal) - (M : EReal)) - Ideal.log (s : EReal)) := by
  have hl : Ideal.log (s : EReal) = ((Real.log s : ℝ) : EReal) := by
    rw [Ideal.log_coe, if_neg (not_le.mpr hs)]
  rw [hl, ← EReal.coe_add, ← EReal.coe_sub, ← EReal.coe_sub, ← EReal.coe_sub, ← EReal.coe_neg]
  congr 1
  ring

/-- The two encodings the programs use for the neutral elements: the f32 word of −∞ is ⊥. -/
theorem ofBits_neg_inf : Ideal.ofBits .f32 0xFF800000#32 = (⊥ : EReal) := by
  simp [Ideal.ofBits, Ideal.ieee]

/-- THE ROW LAW.  For a real positive logit p and negative logits N that are never ⊤:
    log-sum-exp of the row [p, N…] minus p, computed with the maximum split as max p (max N) and the sum split as
    exp(p − M) + Σ exp(N − M), equals the negated entry 0 of the row's log-softmax computed over the joined row
    from a maximum started at ⊥ and a sum started at 0. -/
theorem row_law {n : ℕ} (p : ℝ) (N : Fin n → EReal) (hN : ∀ j, N j ≠ ⊤) :
    ((max (p : EReal) ((Finset.univ : Finset (Fin n)).fold max ⊥ N))
        + Ideal.log (Ideal.exp ((p : EReal) - max (p : EReal) ((Finset.univ : Finset (Fin n)).fold max ⊥ N))
          + ∑ j, Ideal.exp (N j - max (p : EReal) ((Finset.univ : Finset (Fin n)).fold max ⊥ N)))) - (p : EReal)
    = -(((p : EReal) - max ⊥ ((Finset.univ : Finset (Fin (n + 1))).fold max ⊥ (Fin.cons (p : EReal) N : Fin (n + 1) → EReal)))
        - Ideal.log (0 + ∑ k : Fin (n + 1), Ideal.exp ((Fin.cons (p : EReal) N : Fin (n + 1) → EReal) k
            - max ⊥ ((Finset.univ : Finset (Fin (n + 1))).fold max ⊥ (Fin.cons (p : EReal) N : Fin (n + 1) → EReal))))) := by
  rw [fold_max_cons, max_eq_right (bot_le : (⊥ : EReal) ≤ _), zero_add]
  have hm1 := fold_max_ne_top N hN
  generalize (Finset.univ : Finset (Fin n)).fold max ⊥ N = m1 at hm1 ⊢
  have hMtop : max (p : EReal) m1 ≠ ⊤ := by
    rcases max_choice (p : EReal) m1 with h | h <;> rw [h]
    · exact EReal.coe_ne_top p
    · exact hm1
  have hMbot : max (p : EReal) m1 ≠ ⊥ := ne_of_gt (lt_of_lt_of_le (EReal.bot_lt_coe p) (le_max_left _ _))
  obtain ⟨M, hM⟩ : ∃ M : ℝ, max (p : EReal) m1 = (M : EReal) :=
    ⟨(max (p : EReal) m1).toReal, (EReal.coe_toReal hMtop hMbot).symm⟩
  rw [hM]
  have hs := sum_cons (fun x => Ideal.exp (x - (M : EReal))) (p : EReal) N
  beta_reduce at hs
  rw [hs]
  obtain ⟨r, hr, er⟩ := sum_real_nonneg Finset.univ (fun j => Ideal.exp (N j - (M : EReal)))
    (fun j => exp_shift_real (N j) (hN j) M)
  have e0 : Ideal.exp ((p : EReal) - (M : EReal)) = ((Real.exp (p - M) : ℝ) : EReal) := by
    rw [← EReal.coe_sub]; rfl
  rw [er, e0, ← EReal.coe_add]
  exact lse_real p M _ (add_pos_of_pos_of_nonneg (Real.exp_pos _) hr)

/-- THE REGROUPING.  If B t is the sum of f over rows 1024 t … 1024 t + 1023 for each of the 64 points t, then the sum of B
    over the first 32 points plus the sum over the last 32 is the sum of f over all 65536 rows. -/
theorem sum_sweeps (f : Fin 65536 → EReal) (B : ℕ → EReal)
    (hB : ∀ t : Fin 64, B t.val = ∑ r : Fin 1024, f ⟨t.val * 1024 + r.val, by omega⟩) :
    (∑ s ∈ Finset.range 32, B (32 * 0 + s)) + (∑ s ∈ Finset.range 32, B (32 * 1 + s)) = ∑ n : Fin 65536, f n := by
  have e1 : (∑ s ∈ Finset.range 32, B (32 * 0 + s)) + (∑ s ∈ Finset.range 32, B (32 * 1 + s))
      = ∑ t ∈ Finset.range (32 + 32), B t := by
    rw [Finset.sum_range_add B 32 32]
    simp only [Nat.mul_zero, Nat.zero_add, Nat.mul_one]
  rw [e1, show 32 + 32 = 64 from rfl, Finset.sum_range]
  rw [Finset.sum_congr rfl fun t _ => hB t]
  have e2 : ∑ n : Fin 65536, f n = ∑ x : Fin 64 × Fin 1024, f ⟨x.1.val * 1024 + x.2.val, by omega⟩ := by
    refine (Fintype.sum_equiv (finProdFinEquiv (m := 64) (n := 1024)) _ _ fun x => ?_).symm
    refine congrArg f (Fin.ext ?_)
    show x.1.val * 1024 + x.2.val = x.2.val + 1024 * x.1.val
    omega
  rw [e2, Fintype.sum_prod_type]

end Cert.LossAlg

end
-- ==== Proof.Bridge.lean ====
/-
  The kernel's result is the reference's.

  Per row n of the 65536: the kernel's loss is log-sum-exp over [p, N…] minus p with the maximum and sum split; the
  reference's is minus entry 0 of the log-softmax of the joined row.  The kernel's p and N are the reference's entries
  0 and j + 1: the normalised hidden row is the same quotient (the reference's sum of squares merely starts from the zero
  word), and the kernel's product against embeddings already scaled by the temperature is the reference's product scaled
  afterwards, because the temperature lies in [0, ⊤).  Under the precondition p is real and no N is ⊤, so the row law
  applies.  The weights are the same 0/1 real.  The kernel's two sweeps of 32 block sums regroup into the reference's one
  sum over all rows, and both end with the same quotient by max(count, 1).
-/
import proofs.«120988_j34162169873007_2_alg».proof.Proof.KernelFinal
import proofs.«120988_j34162169873007_2_alg».proof.Proof.HostArrays
import proofs.«120988_j34162169873007_2_alg».proof.Proof.RefReal
import proofs.«120988_j34162169873007_2_alg».proof.Proof.Algebra

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.Pay Cert.KernelIdeal.Block Cert.KernelIdeal.Points Cert.KernelIdeal.Final
open Cert.ReferenceIdeal.RefValue (refLoss refW zeroW tinyW bigW)
open Cert.LossAlg Cert.LossReal

/-! ## One row -/

section Row
variable (A0 A1 : S65536x128.Idx → EReal) (A2 : S1x65536.Idx → BitVec 32) (A3 : S1x65536.Idx → EReal)
  (A4 : S128x2048.Idx → EReal) (A5 : S1x2048.Idx → EReal) (A6 : S1x2048.Idx → BitVec 32) (A7 : S1x1.Idx → EReal)
  (E : S65536x128.Idx → EReal) (LT : S65536.Idx → EReal) (EN : S2048x128.Idx → EReal) (LS : S2048.Idx → EReal) (T : EReal)
  (YF : S65536.Idx → BitVec 32) (SI : S2048.Idx → BitVec 32)
  (hnR : Fin 65536 → Fin 128 → EReal) (X : (⟨2, ![65536, 2049]⟩ : Shape).Idx → EReal)
  (hhn : ∀ n d, hnR n d = Ideal.div (A0 (ix2 n d)) (max (Ideal.sqrt (zeroW + ∑ k : Fin 128, A0 (ix2 n k) * A0 (ix2 n k))) tinyW))
  (hA1 : ∀ n d, A1 (ix2 n d) = E (ix2 n d))
  (hA2 : ∀ n, A2 (ix2 (0 : Fin 1) n) = YF (ix1 n)) (hA3 : ∀ n, A3 (ix2 (0 : Fin 1) n) = LT (ix1 n))
  (hA4 : ∀ d j, A4 (ix2 d j) = EN (ix2 j d) * T) (hA5 : ∀ j, A5 (ix2 (0 : Fin 1) j) = LS (ix1 j))
  (hA6 : ∀ j, A6 (ix2 (0 : Fin 1) j) = SI (ix1 j)) (hA7 : A7 (ix2 (0 : Fin 1) (0 : Fin 1)) = T)
  (hX0 : ∀ n : Fin 65536, X (ix2 n (0 : Fin 2049)) = (zeroW + ∑ d : Fin 128, hnR n d * E (ix2 n d)) * T - LT (ix1 n))
  (hXs : ∀ (n : Fin 65536) (j : Fin 2048), X (ix2 n j.succ)
      = Scalar.select (IntOp.cmpi .eq (YF (ix1 n)) (SI (ix1 j))) bigW ((∑ d : Fin 128, hnR n d * EN (ix2 j d)) * T) - LS (ix1 j))
  (rhn : ∀ n d, IsReal (hnR n d)) (rE : ∀ (n : Fin 65536) (d : Fin 128), IsReal (E (ix2 n d)))
  (rEN : ∀ (j : Fin 2048) (d : Fin 128), IsReal (EN (ix2 j d)))
  (rLT : ∀ n : Fin 65536, IsReal (LT (ix1 n))) (rLS : ∀ j : Fin 2048, IsReal (LS (ix1 j))) (rT : ∃ r : ℝ, 0 ≤ r ∧ T = (r : EReal))

include hhn hA1 hA2 hA3 hA4 hA5 hA6 hA7 hX0 hXs rhn rE rEN rLT rLS rT in
/-- Row n's weighted loss is the same in the two programs. -/
theorem row_eq (n : Fin 65536) :
    gLoss A0 A1 A2 A3 A4 A5 A6 A7 n * gW A2 n = refLoss (fun k => X (ix2 n k)) * refW (YF (ix1 n)) := by
  obtain ⟨t, ht0, hT⟩ := rT
  have hT0 : (0 : EReal) ≤ T := by rw [hT]; exact_mod_cast ht0
  have hTtop : T ≠ ⊤ := by rw [hT]; exact EReal.coe_ne_top _
  have rTT : IsReal T := ⟨t, hT⟩
  have z : zeroW = (0 : EReal) := Ideal.ofBits_zero_f32
  have hn_eq : ∀ d, gHn A0 n d = hnR n d := fun d => by
    rw [hhn, z, zero_add]; rfl
  have pos_eq : gPos A0 A1 A3 A7 n = X (ix2 n (0 : Fin 2049)) := by
    rw [hX0, z, zero_add]
    unfold gPos
    rw [hA7, hA3]
    simp only [hn_eq, hA1]
  have neg_eq : ∀ j : Fin 2048, gNeg A0 A2 A4 A5 A6 n j = X (ix2 n j.succ) := fun j => by
    rw [hXs]
    unfold gNeg
    rw [hA2, hA6, hA5]
    simp only [hn_eq, hA4]
    rw [dot_scaled _ _ hT0 hTtop]
  have hX : (fun k => X (ix2 n k)) = (Fin.cons (gPos A0 A1 A3 A7 n) (gNeg A0 A2 A4 A5 A6 n) : Fin 2049 → EReal) :=
    funext fun k => by
      refine Fin.cases ?_ (fun j => ?_) k
      · exact pos_eq.symm
      · exact (neg_eq j).symm
  have rpos : IsReal (gPos A0 A1 A3 A7 n) := by
    rw [pos_eq, hX0, z, zero_add]
    exact ((IsReal.sum _ _ fun d => (rhn n d).mul (rE n d)).mul rTT).sub (rLT n)
  have rneg : ∀ j : Fin 2048, gNeg A0 A2 A4 A5 A6 n j ≠ ⊤ := fun j => by
    rw [neg_eq, hXs]
    refine sub_ne_top ?_ (rLS j)
    unfold Scalar.select
    split
    · exact big_real.ne_top
    · exact ((IsReal.sum _ _ fun d => (rhn n d).mul (rEN j d)).mul rTT).ne_top
  obtain ⟨p, hp⟩ := rpos
  have hw : gW A2 n = refW (YF (ix1 n)) := by
    unfold gW valid refW
    rw [hA2]
    exact weight_eq _
  unfold gLoss
  rw [hX, hw, hp]
  refine congrArg (· * refW (YF (ix1 n))) ?_
  unfold rowLoss refLoss
  simp only [Cert.KernelIdeal.Pay.negInf, Cert.ReferenceIdeal.RefValue.negInf, Cert.ReferenceIdeal.RefValue.zeroW,
    ofBits_neg_inf, Ideal.ofBits_zero_f32]
  exact row_law p _ rneg

end Row

/-! ## The whole result -/

section Whole
variable (m : (ℓ : Loc nD τ sig) → Buf (Elt Ideal) ℓ) (c : Dev nD)
  (r0 : ∀ i, IsReal ((m ((c : Thread nD τ).loc main_arg0)) i)) (r2 : ∀ i, IsReal ((m ((c : Thread nD τ).loc main_arg2)) i)) (r3 : ∀ i, IsReal ((m ((c : Thread nD τ).loc main_arg3)) i))
  (p1 : ∀ n, 0 < Cert.ReferenceIdeal.ReadP.val_main_v10 (F := Ideal) (m ((c : Thread nD τ).loc main_arg1)) (m ((c : Thread nD τ).loc main_arg3)) n + Ideal.ofBits .f32 0x2EDBE6FF#32)
  (p2 : ∀ j, 0 < Cert.ReferenceIdeal.ReadP.val_main_v17 (F := Ideal) (m ((c : Thread nD τ).loc main_arg3)) (m ((c : Thread nD τ).loc main_arg4)) j + Ideal.ofBits .f32 0x2EDBE6FF#32)

/-- The output array's two loss entries and two count entries. -/
theorem out_loss (q : Fin 2) : outArr m c (ix3 q (0 : Fin 1) (0 : Fin 2)) = sweep (stepLoss m c) q.val := if_pos rfl
theorem out_count (q : Fin 2) : outArr m c (ix3 q (0 : Fin 1) (1 : Fin 2)) = sweep (stepCount m c) q.val :=
  if_neg (show ¬((1 : ℕ) = 0) from Nat.one_ne_zero)

include r0 r2 r3 p1 p2 in
/-- Row n's weighted loss, kernel side over the window arrays, is the reference's. -/
theorem row_bridge (n : Fin 65536) :
    gLoss (V m c main_v0) (V m c main_v13) (V m c main_v52) (V m c main_v53) (V m c main_v45) (V m c main_v54) (V m c main_v55)
        (V m c main_v56) n * gW (V m c main_v52) n
      = refLoss (fun k => Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n k))
        * refW (Cert.ReferenceIdeal.ReadP.val_main_v1 (F := Ideal) (m ((c : Thread nD τ).loc main_arg1)) (ix1 n)) :=
  row_eq (V m c main_v0) (V m c main_v13) (V m c main_v52) (V m c main_v53) (V m c main_v45) (V m c main_v54) (V m c main_v55)
    (V m c main_v56)
    (Cert.ReferenceIdeal.ReadP.val_main_v43 (F := Ideal) (m ((c : Thread nD τ).loc main_arg1)) (m ((c : Thread nD τ).loc main_arg2)))
    (Cert.ReferenceIdeal.ReadP.val_main_v65 (F := Ideal) (m ((c : Thread nD τ).loc main_arg1)) (m ((c : Thread nD τ).loc main_arg3)))
    (Cert.ReferenceIdeal.ReadP.val_main_v52 (F := Ideal) (m ((c : Thread nD τ).loc main_arg2)) (m ((c : Thread nD τ).loc main_arg4)))
    (Cert.ReferenceIdeal.ReadP.val_main_v69 (F := Ideal) (m ((c : Thread nD τ).loc main_arg3)) (m ((c : Thread nD τ).loc main_arg4)))
    (Cert.ReferenceIdeal.ReadP.val_main_v33 (F := Ideal) (m ((c : Thread nD τ).loc main_arg5)) ix0)
    (Cert.ReferenceIdeal.ReadP.val_main_v1 (F := Ideal) (m ((c : Thread nD τ).loc main_arg1)))
    (m ((c : Thread nD τ).loc main_arg4))
    (fun n d => Cert.ReferenceIdeal.ReadP.val_main_v38 (F := Ideal) (m ((c : Thread nD τ).loc main_arg0)) (ix2 n d))
    (Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun n d => by rw [Cert.KernelIdeal.HostArr.V_v0 m c]; exact Cert.ReferenceIdeal.RefValue.hn_ref _ n d)
    (fun n d => congrFun (Cert.KernelIdeal.HostArr.V_v13 m c) (ix2 n d))
    (Cert.KernelIdeal.HostArr.ids_at m c) (Cert.KernelIdeal.HostArr.logtp_at m c)
    (Cert.KernelIdeal.HostArr.wneg_at m c) (Cert.KernelIdeal.HostArr.logsp_at m c)
    (Cert.KernelIdeal.HostArr.sids_at m c) (Cert.KernelIdeal.HostArr.temp_at m c)
    (Cert.ReferenceIdeal.RefValue.pos_ref _ _ _ _ _ _)
    (Cert.ReferenceIdeal.RefValue.neg_ref _ _ _ _ _ _)
    (Cert.ReferenceIdeal.RefValue.hn_real _ r0)
    (Cert.ReferenceIdeal.RefValue.epos_real _ _ r2)
    (Cert.ReferenceIdeal.RefValue.eneg_real _ _ r2)
    (fun n => Cert.ReferenceIdeal.RefValue.logtp_real _ _ r3 p1 (ix1 n))
    (fun j => Cert.ReferenceIdeal.RefValue.logsp_real _ _ r3 p2 (ix1 j))
    (Cert.ReferenceIdeal.RefValue.temp_nonneg_real _)
    n

include r0 r2 r3 p1 p2 in
/-- The scalar the kernel's program returns is the scalar the reference returns. -/
theorem result_bridge :
    tail (outArr m c) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  rw [tail_apply, Cert.ReferenceIdeal.RefValue.result_apply, out_loss, out_loss, out_count, out_count]
  have z : zeroW = (0 : EReal) := Ideal.ofBits_zero_f32
  have hl : sweep (stepLoss m c) (0 : Fin 2).val + sweep (stepLoss m c) (1 : Fin 2).val
      = ∑ n : Fin 65536, gLoss (V m c main_v0) (V m c main_v13) (V m c main_v52) (V m c main_v53) (V m c main_v45) (V m c main_v54)
          (V m c main_v55) (V m c main_v56) n * gW (V m c main_v52) n :=
    sum_sweeps _ (stepLoss m c) fun t => by
      unfold stepLoss
      rw [dif_pos t.isLt]
  have hc : sweep (stepCount m c) (0 : Fin 2).val + sweep (stepCount m c) (1 : Fin 2).val
      = ∑ n : Fin 65536, gW (V m c main_v52) n :=
    sum_sweeps _ (stepCount m c) fun t => by
      unfold stepCount
      rw [dif_pos t.isLt]
  have hw : ∀ n : Fin 65536, gW (V m c main_v52) n
      = refW (Cert.ReferenceIdeal.ReadP.val_main_v1 (F := Ideal) (m ((c : Thread nD τ).loc main_arg1)) (ix1 n)) := fun n => by
    unfold gW valid refW
    rw [Cert.KernelIdeal.HostArr.ids_at m c]
    exact weight_eq _
  rw [hl, hc, z, zero_add, zero_add]
  rw [Finset.sum_congr rfl fun n _ => row_bridge m c r0 r2 r3 p1 p2 n, Finset.sum_congr rfl fun n _ => hw n]

end Whole

end Cert.Bridge

end
-- ==== Proof.KernelRun.lean ====
/-
  The idealized kernel's run, with its result named: every weakly fair execution terminates with the result buffer at
  (out(0,0,0) + out(1,0,0)) / max(out(0,0,1) + out(1,0,1), 1) of the output array out after the call, and with the six
  argument arrays unchanged.
-/
import proofs.«120988_j34162169873007_2_alg».proof.Proof.KernelFinal
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- The host operations after the call, run on the arrays the call leaves, give the tail of the output array. -/
theorem tail_eq (c : Dev nD) :
    Pipeline.afterTail₀ cfgs (dats m) 0 (V0 m) [hostOps1] c main_v69 = tail (outArr m c) := by
  unfold Pipeline.afterTail₀
  show StableHlo.after hostOps1 _ (Proc.devRef .tc main_v69) = _
  after_results_simp
  exact congrArg tail ((Pipeline.withArrays_arr spec0 launch0.win.arr_inj c _ _ 8).trans (final8 m c))

/-- The run: the result at the tail of the output array, the arguments unchanged. -/
theorem run : θ_run defs (onTc (τ := τ) (main (F := Ideal))) ⟨m, fun _ => 0, ρ⟩ (fun r => ∀ c : Dev nD,
      r.2.mem ((c.tc : Thread nD τ).loc main_v69) = tail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v69 (Pipeline.mem_restRefs_of main_v69 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Final

end
-- ==== Proof.RefRun.lean ====
/-
  The reference's run, evaluated in stages.

  The reference's @main is a list of 133 host operations.  Read in one pass, the value of its result as ONE composed
  term is too deep to compare with anything; so the list is cut — after the normalised positive
  embeddings (operation 64), around the join of the logits (operation 106, taken alone, its two operands being the entries
  of a list of (shape, value) pairs) and at each step of the log-softmax — and each piece is evaluated over an
  incoming valuation of which only the few buffers the piece reads are known, each by hypothesis as the intermediate
  value the read-at-an-index module names.  Chained, the pieces give the result buffer as that module's last
  stage of the six arguments, from which every weakly fair execution's post follows by the library's run of a list.
-/
import proofs.«120988_j34162169873007_2_alg».proof.Proof.RefRunP
import proofs.«120988_j34162169873007_2_alg».proof.Proof.RefReadP
import Idealize.ShloMosaic.Lib.StableHlo.Run

set_option maxRecDepth 65536

noncomputable section

namespace Cert.ReferenceIdeal.RefRun

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]

/-- The operations of two lists in turn. -/
theorem after_append (l1 l2 : List (HloOp τ sig (Elt F))) (V : Valuation τ sig (Elt F)) :
    after (l1 ++ l2) V = after l2 (after l1 V) := by
  induction l1 generalizing V with
  | nil => rfl
  | cons op l ih => exact ih _

/-- Operations 1–64: the flattened inputs, the four gathers, the temperature, the two normalisations of hidden rows and
    positive embeddings. -/
abbrev P1 : List (HloOp τ sig (Elt F)) :=
  [ reshape main_arg0 main_v0 rfl shapeCasts_S1024x64x128_S65536x128,
    reshape main_arg1 main_v1 rfl shapeCasts_S1024x64_S65536,
    nullary main_c (constantI S_ 32 0#32),
    unary main_c main_v2 (broadcastInDim S65536 ![] bcast_S_S65536 : (⟨S_, .i32⟩ : BufTy).Contents (Elt F) → (⟨S65536, .i32⟩ : BufTy).Contents (Elt F)),
    binary main_v1 main_v2 main_v3 (cmpi .ne : (⟨S65536, .i32⟩ : BufTy).Contents (Elt F) → (⟨S65536, .i32⟩ : BufTy).Contents (Elt F) → (⟨S65536, .i1⟩ : BufTy).Contents (Elt F)),
    nullary main_c_0 (constantI S_ 32 0#32),
    unary main_c_0 main_v4 (broadcastInDim S65536 ![] bcast_S_S65536 : (⟨S_, .i32⟩ : BufTy).Contents (Elt F) → (⟨S65536, .i32⟩ : BufTy).Contents (Elt F)),
    binary main_v1 main_v4 main_v5 (cmpi .slt : (⟨S65536, .i32⟩ : BufTy).Contents (Elt F) → (⟨S65536, .i32⟩ : BufTy).Contents (Elt F) → (⟨S65536, .i1⟩ : BufTy).Contents (Elt F)),
    nullary main_c_1 (constantI S_ 32 100000#32),
    unary main_c_1 main_v6 (broadcastInDim S65536 ![] bcast_S_S65536 : (⟨S_, .i32⟩ : BufTy).Contents (Elt F) → (⟨S65536, .i32⟩ : BufTy).Contents (Elt F)),
    binary main_v1 main_v6 main_v7 (addi : (⟨S65536, .i32⟩ : BufTy).Contents (Elt F) → (⟨S65536, .i32⟩ : BufTy).Contents (Elt F) → (⟨S65536, .i32⟩ : BufTy).Contents (Elt F)),
    ternary main_v5 main_v7 main_v1 main_v8 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v8 main_v9 (broadcastInDim S65536x1 ![0] bcast_S65536_S65536x1_0 : (⟨S65536, .i32⟩ : BufTy).Contents (Elt F) → (⟨S65536x1, .i32⟩ : BufTy).Contents (Elt F)),
    binary main_arg3 main_v9 main_v10 ((fun x i => Host.gather gather_S100000_S65536x1_S65536_n_0_n_n_0_1_1 x i) : (⟨S100000, .f32⟩ : BufTy).Contents (Elt F) → (⟨S65536x1, .i32⟩ : BufTy).Contents (Elt F) → (⟨S65536, .f32⟩ : BufTy).Contents (Elt F)),
    nullary main_c_2 (constantI S_ 32 0#32),
    unary main_c_2 main_v11 (broadcastInDim S2048 ![] bcast_S_S2048 : (⟨S_, .i32⟩ : BufTy).Contents (Elt F) → (⟨S2048, .i32⟩ : BufTy).Contents (Elt F)),
    binary main_arg4 main_v11 main_v12 (cmpi .slt : (⟨S2048, .i32⟩ : BufTy).Contents (Elt F) → (⟨S2048, .i32⟩ : BufTy).Contents (Elt F) → (⟨S2048, .i1⟩ : BufTy).Contents (Elt F)),
    nullary main_c_3 (constantI S_ 32 100000#32),
    unary main_c_3 main_v13 (broadcastInDim S2048 ![] bcast_S_S2048 : (⟨S_, .i32⟩ : BufTy).Contents (Elt F) → (⟨S2048, .i32⟩ : BufTy).Contents (Elt F)),
    binary main_arg4 main_v13 main_v14 (addi : (⟨S2048, .i32⟩ : BufTy).Contents (Elt F) → (⟨S2048, .i32⟩ : BufTy).Contents (Elt F) → (⟨S2048, .i32⟩ : BufTy).Contents (Elt F)),
    ternary main_v12 main_v14 main_arg4 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v15 main_v16 (broadcastInDim S2048x1 ![0] bcast_S2048_S2048x1_0 : (⟨S2048, .i32⟩ : BufTy).Contents (Elt F) → (⟨S2048x1, .i32⟩ : BufTy).Contents (Elt F)),
    binary main_arg3 main_v16 main_v17 ((fun x i => Host.gather gather_S100000_S2048x1_S2048_n_0_n_n_0_1_1 x i) : (⟨S100000, .f32⟩ : BufTy).Contents (Elt F) → (⟨S2048x1, .i32⟩ : BufTy).Contents (Elt F) → (⟨S2048, .f32⟩ : BufTy).Contents (Elt F)),
    nullary main_c_4 (constantI S_ 32 0#32),
    unary main_c_4 main_v18 (broadcastInDim S65536 ![] bcast_S_S65536 : (⟨S_, .i32⟩ : BufTy).Contents (Elt F) → (⟨S65536, .i32⟩ : BufTy).Contents (Elt F)),
    binary main_v1 main_v18 main_v19 (cmpi .slt : (⟨S65536, .i32⟩ : BufTy).Contents (Elt F) → (⟨S65536, .i32⟩ : BufTy).Contents (Elt F) → (⟨S65536, .i1⟩ : BufTy).Contents (Elt F)),
    nullary main_c_5 (constantI S_ 32 100000#32),
    unary main_c_5 main_v20 (broadcastInDim S65536 ![] bcast_S_S65536 : (⟨S_, .i32⟩ : BufTy).Contents (Elt F) → (⟨S65536, .i32⟩ : BufTy).Contents (Elt F)),
    binary main_v1 main_v20 main_v21 (addi : (⟨S65536, .i32⟩ : BufTy).Contents (Elt F) → (⟨S65536, .i32⟩ : BufTy).Contents (Elt F) → (⟨S65536, .i32⟩ : BufTy).Contents (Elt F)),
    ternary main_v19 main_v21 main_v1 main_v22 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v22 main_v23 (broadcastInDim S65536x1 ![0] bcast_S65536_S65536x1_0 : (⟨S65536, .i32⟩ : BufTy).Contents (Elt F) → (⟨S65536x1, .i32⟩ : BufTy).Contents (Elt F)),
    binary main_arg2 main_v23 main_v24 ((fun x i => Host.gather gather_S100000x128_S65536x1_S65536x128_1_0_n_n_0_1_1128 x i) : (⟨S100000x128, .f32⟩ : BufTy).Contents (Elt F) → (⟨S65536x1, .i32⟩ : BufTy).Contents (Elt F) → (⟨S65536x128, .f32⟩ : BufTy).Contents (Elt F)),
    nullary main_c_6 (constantI S_ 32 0#32),
    unary main_c_6 main_v25 (broadcastInDim S2048 ![] bcast_S_S2048 : (⟨S_, .i32⟩ : BufTy).Contents (Elt F) → (⟨S2048, .i32⟩ : BufTy).Contents (Elt F)),
    binary main_arg4 main_v25 main_v26 (cmpi .slt : (⟨S2048, .i32⟩ : BufTy).Contents (Elt F) → (⟨S2048, .i32⟩ : BufTy).Contents (Elt F) → (⟨S2048, .i1⟩ : BufTy).Contents (Elt F)),
    nullary main_c_7 (constantI S_ 32 100000#32),
    unary main_c_7 main_v27 (broadcastInDim S2048 ![] bcast_S_S2048 : (⟨S_, .i32⟩ : BufTy).Contents (Elt F) → (⟨S2048, .i32⟩ : BufTy).Contents (Elt F)),
    binary main_arg4 main_v27 main_v28 (addi : (⟨S2048, .i32⟩ : BufTy).Contents (Elt F) → (⟨S2048, .i32⟩ : BufTy).Contents (Elt F) → (⟨S2048, .i32⟩ : BufTy).Contents (Elt F)),
    ternary main_v26 main_v28 main_arg4 main_v29 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v29 main_v30 (broadcastInDim S2048x1 ![0] bcast_S2048_S2048x1_0 : (⟨S2048, .i32⟩ : BufTy).Contents (Elt F) → (⟨S2048x1, .i32⟩ : BufTy).Contents (Elt F)),
    binary main_arg2 main_v30 main_v31 ((fun x i => Host.gather gather_S100000x128_S2048x1_S2048x128_1_0_n_n_0_1_1128 x i) : (⟨S100000x128, .f32⟩ : BufTy).Contents (Elt F) → (⟨S2048x1, .i32⟩ : BufTy).Contents (Elt F) → (⟨S2048x128, .f32⟩ : BufTy).Contents (Elt F)),
    nullary main_cst (constant S_ .f32 0x40933333#32),
    binary main_arg5 main_cst main_v32 (minimumf : (⟨S_, .f32⟩ : BufTy).Contents (Elt F) → (⟨S_, .f32⟩ : BufTy).Contents (Elt F) → (⟨S_, .f32⟩ : BufTy).Contents (Elt F)),
    unary main_v32 main_v33 (Host.exp : (⟨S_, .f32⟩ : BufTy).Contents (Elt F) → (⟨S_, .f32⟩ : BufTy).Contents (Elt F)),
    TRef.binary (TRef.of (T := ⟨S65536x128, .f32⟩) main_v0) (TRef.of (T := ⟨S65536x128, .f32⟩) main_v0) (TRef.of (T := ⟨S65536x128, .f32⟩) main_call0_v0) mulf,
    TRef.nullary (TRef.of (T := ⟨S_, .f32⟩) main_call0_cst) (constant S_ .f32 0x00000000#32),
    TRef.binary (TRef.of (T := ⟨S65536x128, .f32⟩) main_call0_v0) (TRef.of (T := ⟨S_, .f32⟩) main_call0_cst) (TRef.of (T := ⟨S65536, .f32⟩) main_call0_v1) (fun x v => Host.reduceAdd x v reducesTo_S65536x128_S65536_d1 h_S_),
    TRef.unary (TRef.of (T := ⟨S65536, .f32⟩) main_call0_v1) (TRef.of (T := ⟨S65536x1, .f32⟩) main_call0_v2) (broadcastInDim S65536x1 ![0] bcast_S65536_S65536x1_0),
    TRef.unary (TRef.of (T := ⟨S65536x1, .f32⟩) main_call0_v2) (TRef.of (T := ⟨S65536x1, .f32⟩) main_v34) Host.sqrt,
    nullary main_cst_8 (constant S_ .f32 0x2B8CBCCC#32),
    unary main_cst_8 main_v35 (broadcastInDim S65536x1 ![] bcast_S_S65536x1 : (⟨S_, .f32⟩ : BufTy).Contents (Elt F) → (⟨S65536x1, .f32⟩ : BufTy).Contents (Elt F)),
    binary main_v34 main_v35 main_v36 (maximumf : (⟨S65536x1, .f32⟩ : BufTy).Contents (Elt F) → (⟨S65536x1, .f32⟩ : BufTy).Contents (Elt F) → (⟨S65536x1, .f32⟩ : BufTy).Contents (Elt F)),
    unary main_v36 main_v37 (broadcastInDim S65536x128 ![0, 1] bcast_S65536x1_S65536x128_0_1 : (⟨S65536x1, .f32⟩ : BufTy).Contents (Elt F) → (⟨S65536x128, .f32⟩ : BufTy).Contents (Elt F)),
    binary main_v0 main_v37 main_v38 (Host.divf : (⟨S65536x128, .f32⟩ : BufTy).Contents (Elt F) → (⟨S65536x128, .f32⟩ : BufTy).Contents (Elt F) → (⟨S65536x128, .f32⟩ : BufTy).Contents (Elt F)),
    TRef.binary (TRef.of (T := ⟨S65536x128, .f32⟩) main_v24) (TRef.of (T := ⟨S65536x128, .f32⟩) main_v24) (TRef.of (T := ⟨S65536x128, .f32⟩) main_call1_v0) mulf,
    TRef.nullary (TRef.of (T := ⟨S_, .f32⟩) main_call1_cst) (constant S_ .f32 0x00000000#32),
    TRef.binary (TRef.of (T := ⟨S65536x128, .f32⟩) main_call1_v0) (TRef.of (T := ⟨S_, .f32⟩) main_call1_cst) (TRef.of (T := ⟨S65536, .f32⟩) main_call1_v1) (fun x v => Host.reduceAdd x v reducesTo_S65536x128_S65536_d1 h_S_),
    TRef.unary (TRef.of (T := ⟨S65536, .f32⟩) main_call1_v1) (TRef.of (T := ⟨S65536x1, .f32⟩) main_call1_v2) (broadcastInDim S65536x1 ![0] bcast_S65536_S65536x1_0),
    TRef.unary (TRef.of (T := ⟨S65536x1, .f32⟩) main_call1_v2) (TRef.of (T := ⟨S65536x1, .f32⟩) main_v39) Host.sqrt,
    nullary main_cst_9 (constant S_ .f32 0x2B8CBCCC#32),
    unary main_cst_9 main_v40 (broadcastInDim S65536x1 ![] bcast_S_S65536x1 : (⟨S_, .f32⟩ : BufTy).Contents (Elt F) → (⟨S65536x1, .f32⟩ : BufTy).Contents (Elt F)),
    binary main_v39 main_v40 main_v41 (maximumf : (⟨S65536x1, .f32⟩ : BufTy).Contents (Elt F) → (⟨S65536x1, .f32⟩ : BufTy).Contents (Elt F) → (⟨S65536x1, .f32⟩ : BufTy).Contents (Elt F)),
    unary main_v41 main_v42 (broadcastInDim S65536x128 ![0, 1] bcast_S65536x1_S65536x128_0_1 : (⟨S65536x1, .f32⟩ : BufTy).Contents (Elt F) → (⟨S65536x128, .f32⟩ : BufTy).Contents (Elt F)),
    binary main_v24 main_v42 main_v43 (Host.divf : (⟨S65536x128, .f32⟩ : BufTy).Contents (Elt F) → (⟨S65536x128, .f32⟩ : BufTy).Contents (Elt F) → (⟨S65536x128, .f32⟩ : BufTy).Contents (Elt F)) ]

/-- Operations 65–105: the positive logits, the normalised negative embeddings, the negative logits with their mask,
    the two logarithms, the positive logits as a column. -/
abbrev P2 : List (HloOp τ sig (Elt F)) :=
  [ binary main_v38 main_v43 main_v44 (mulf : (⟨S65536x128, .f32⟩ : BufTy).Contents (Elt F) → (⟨S65536x128, .f32⟩ : BufTy).Contents (Elt F) → (⟨S65536x128, .f32⟩ : BufTy).Contents (Elt F)),
    nullary main_cst_10 (constant S_ .f32 0x00000000#32),
    binary main_v44 main_cst_10 main_v45 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v33 main_v46 (broadcastInDim S65536 ![] bcast_S_S65536 : (⟨S_, .f32⟩ : BufTy).Contents (Elt F) → (⟨S65536, .f32⟩ : BufTy).Contents (Elt F)),
    binary main_v45 main_v46 main_v47 (mulf : (⟨S65536, .f32⟩ : BufTy).Contents (Elt F) → (⟨S65536, .f32⟩ : BufTy).Contents (Elt F) → (⟨S65536, .f32⟩ : BufTy).Contents (Elt F)),
    TRef.binary (TRef.of (T := ⟨S2048x128, .f32⟩) main_v31) (TRef.of (T := ⟨S2048x128, .f32⟩) main_v31) (TRef.of (T := ⟨S2048x128, .f32⟩) main_call2_v0) mulf,
    TRef.nullary (TRef.of (T := ⟨S_, .f32⟩) main_call2_cst) (constant S_ .f32 0x00000000#32),
    TRef.binary (TRef.of (T := ⟨S2048x128, .f32⟩) main_call2_v0) (TRef.of (T := ⟨S_, .f32⟩) main_call2_cst) (TRef.of (T := ⟨S2048, .f32⟩) main_call2_v1) (fun x v => Host.reduceAdd x v reducesTo_S2048x128_S2048_d1 h_S_),
    TRef.unary (TRef.of (T := ⟨S2048, .f32⟩) main_call2_v1) (TRef.of (T := ⟨S2048x1, .f32⟩) main_call2_v2) (broadcastInDim S2048x1 ![0] bcast_S2048_S2048x1_0),
    TRef.unary (TRef.of (T := ⟨S2048x1, .f32⟩) main_call2_v2) (TRef.of (T := ⟨S2048x1, .f32⟩) main_v48) Host.sqrt,
    nullary main_cst_11 (constant S_ .f32 0x2B8CBCCC#32),
    unary main_cst_11 main_v49 (broadcastInDim S2048x1 ![] bcast_S_S2048x1 : (⟨S_, .f32⟩ : BufTy).Contents (Elt F) → (⟨S2048x1, .f32⟩ : BufTy).Contents (Elt F)),
    binary main_v48 main_v49 main_v50 (maximumf : (⟨S2048x1, .f32⟩ : BufTy).Contents (Elt F) → (⟨S2048x1, .f32⟩ : BufTy).Contents (Elt F) → (⟨S2048x1, .f32⟩ : BufTy).Contents (Elt F)),
    unary main_v50 main_v51 (broadcastInDim S2048x128 ![0, 1] bcast_S2048x1_S2048x128_0_1 : (⟨S2048x1, .f32⟩ : BufTy).Contents (Elt F) → (⟨S2048x128, .f32⟩ : BufTy).Contents (Elt F)),
    binary main_v31 main_v51 main_v52 (Host.divf : (⟨S2048x128, .f32⟩ : BufTy).Contents (Elt F) → (⟨S2048x128, .f32⟩ : BufTy).Contents (Elt F) → (⟨S2048x128, .f32⟩ : BufTy).Contents (Elt F)),
    unary main_v52 main_v53 ((transpose S128x2048 [1, 0] · transposes_S2048x128_S128x2048_1_0) : (⟨S2048x128, .f32⟩ : BufTy).Contents (Elt F) → (⟨S128x2048, .f32⟩ : BufTy).Contents (Elt F)),
    binary main_v38 main_v53 main_v54 ((fun l r => Host.dotGeneral dot_S65536x128_S128x2048_S65536x2048_1_0_0_1_n_n none l r) : (⟨S65536x128, .f32⟩ : BufTy).Contents (Elt F) → (⟨S128x2048, .f32⟩ : BufTy).Contents (Elt F) → (⟨S65536x2048, .f32⟩ : BufTy).Contents (Elt F)),
    unary main_v33 main_v55 (broadcastInDim S65536x2048 ![] bcast_S_S65536x2048 : (⟨S_, .f32⟩ : BufTy).Contents (Elt F) → (⟨S65536x2048, .f32⟩ : BufTy).Contents (Elt F)),
    binary main_v54 main_v55 main_v56 (mulf : (⟨S65536x2048, .f32⟩ : BufTy).Contents (Elt F) → (⟨S65536x2048, .f32⟩ : BufTy).Contents (Elt F) → (⟨S65536x2048, .f32⟩ : BufTy).Contents (Elt F)),
    unary main_v1 main_v57 (broadcastInDim S65536x1 ![0] bcast_S65536_S65536x1_0 : (⟨S65536, .i32⟩ : BufTy).Contents (Elt F) → (⟨S65536x1, .i32⟩ : BufTy).Contents (Elt F)),
    unary main_arg4 main_v58 (broadcastInDim S1x2048 ![1] bcast_S2048_S1x2048_1 : (⟨S2048, .i32⟩ : BufTy).Contents (Elt F) → (⟨S1x2048, .i32⟩ : BufTy).Contents (Elt F)),
    unary main_v57 main_v59 (broadcastInDim S65536x2048 ![0, 1] bcast_S65536x1_S65536x2048_0_1 : (⟨S65536x1, .i32⟩ : BufTy).Contents (Elt F) → (⟨S65536x2048, .i32⟩ : BufTy).Contents (Elt F)),
    unary main_v58 main_v60 (broadcastInDim S65536x2048 ![0, 1] bcast_S1x2048_S65536x2048_0_1 : (⟨S1x2048, .i32⟩ : BufTy).Contents (Elt F) → (⟨S65536x2048, .i32⟩ : BufTy).Contents (Elt F)),
    binary main_v59 main_v60 main_v61 (cmpi .eq : (⟨S65536x2048, .i32⟩ : BufTy).Contents (Elt F) → (⟨S65536x2048, .i32⟩ : BufTy).Contents (Elt F) → (⟨S65536x2048, .i1⟩ : BufTy).Contents (Elt F)),
    nullary main_cst_12 (constant S_ .f32 0xCE6E6B28#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S65536x2048, .f32⟩) main_call3_v1) (broadcastInDim S65536x2048 ![] bcast_S_S65536x2048),
    TRef.ternary (TRef.of (T := ⟨S65536x2048, .i1⟩) main_v61) (TRef.of (T := ⟨S65536x2048, .f32⟩) main_call3_v1) (TRef.of (T := ⟨S65536x2048, .f32⟩) main_v56) (TRef.of (T := ⟨S65536x2048, .f32⟩) main_v62) select,
    nullary main_cst_13 (constant S_ .f32 0x2EDBE6FF#32),
    unary main_cst_13 main_v63 (broadcastInDim S65536 ![] bcast_S_S65536 : (⟨S_, .f32⟩ : BufTy).Contents (Elt F) → (⟨S65536, .f32⟩ : BufTy).Contents (Elt F)),
    binary main_v10 main_v63 main_v64 (addf : (⟨S65536, .f32⟩ : BufTy).Contents (Elt F) → (⟨S65536, .f32⟩ : BufTy).Contents (Elt F) → (⟨S65536, .f32⟩ : BufTy).Contents (Elt F)),
    unary main_v64 main_v65 (Host.log : (⟨S65536, .f32⟩ : BufTy).Contents (Elt F) → (⟨S65536, .f32⟩ : BufTy).Contents (Elt F)),
    binary main_v47 main_v65 main_v66 (subf : (⟨S65536, .f32⟩ : BufTy).Contents (Elt F) → (⟨S65536, .f32⟩ : BufTy).Contents (Elt F) → (⟨S65536, .f32⟩ : BufTy).Contents (Elt F)),
    nullary main_cst_14 (constant S_ .f32 0x2EDBE6FF#32),
    unary main_cst_14 main_v67 (broadcastInDim S2048 ![] bcast_S_S2048 : (⟨S_, .f32⟩ : BufTy).Contents (Elt F) → (⟨S2048, .f32⟩ : BufTy).Contents (Elt F)),
    binary main_v17 main_v67 main_v68 (addf : (⟨S2048, .f32⟩ : BufTy).Contents (Elt F) → (⟨S2048, .f32⟩ : BufTy).Contents (Elt F) → (⟨S2048, .f32⟩ : BufTy).Contents (Elt F)),
    unary main_v68 main_v69 (Host.log : (⟨S2048, .f32⟩ : BufTy).Contents (Elt F) → (⟨S2048, .f32⟩ : BufTy).Contents (Elt F)),
    unary main_v69 main_v70 (broadcastInDim S1x2048 ![1] bcast_S2048_S1x2048_1 : (⟨S2048, .f32⟩ : BufTy).Contents (Elt F) → (⟨S1x2048, .f32⟩ : BufTy).Contents (Elt F)),
    unary main_v70 main_v71 (broadcastInDim S65536x2048 ![0, 1] bcast_S1x2048_S65536x2048_0_1 : (⟨S1x2048, .f32⟩ : BufTy).Contents (Elt F) → (⟨S65536x2048, .f32⟩ : BufTy).Contents (Elt F)),
    binary main_v62 main_v71 main_v72 (subf : (⟨S65536x2048, .f32⟩ : BufTy).Contents (Elt F) → (⟨S65536x2048, .f32⟩ : BufTy).Contents (Elt F) → (⟨S65536x2048, .f32⟩ : BufTy).Contents (Elt F)),
    unary main_v66 main_v73 (broadcastInDim S65536x1 ![0] bcast_S65536_S65536x1_0 : (⟨S65536, .f32⟩ : BufTy).Contents (Elt F) → (⟨S65536x1, .f32⟩ : BufTy).Contents (Elt F)) ]

/-- Operation 106: each row's positive logit joined in front of its 2048 negative logits. -/
abbrev PC : List (HloOp τ sig (Elt F)) :=
  [ binary main_v73 main_v72 main_v74 ((fun a b => concatenate S65536x2049 1 [⟨S65536x1, a⟩, ⟨S65536x2048, b⟩] concatenates_S65536x1_S65536x2048_S65536x2049_d1) : (⟨S65536x1, .f32⟩ : BufTy).Contents (Elt F) → (⟨S65536x2048, .f32⟩ : BufTy).Contents (Elt F) → (⟨S65536x2049, .f32⟩ : BufTy).Contents (Elt F)) ]

/-- Operations 107–108: the row maxima of the joined rows. -/
abbrev QA : List (HloOp τ sig (Elt F)) :=
  [ TRef.nullary (TRef.of (T := ⟨S_, .f32⟩) main_call4_cst) (constant S_ .f32 0xFF800000#32),
    TRef.binary (TRef.of (T := ⟨S65536x2049, .f32⟩) main_v74) (TRef.of (T := ⟨S_, .f32⟩) main_call4_cst) (TRef.of (T := ⟨S65536, .f32⟩) main_call4_v0) (fun x v => Host.reduce FloatOps.maximumf x v reducesTo_S65536x2049_S65536_d1 h_S_) ]

/-- Operations 109–111: the maxima clamped below by −∞. -/
abbrev QB : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S65536, .f32⟩) main_call4_v1) (broadcastInDim S65536 ![] bcast_S_S65536),
    TRef.binary (TRef.of (T := ⟨S65536, .f32⟩) main_call4_v1) (TRef.of (T := ⟨S65536, .f32⟩) main_call4_v0) (TRef.of (T := ⟨S65536, .f32⟩) main_call4_v2) maximumf ]

/-- Operations 112–114: the rows shifted by their maxima. -/
abbrev QC : List (HloOp τ sig (Elt F)) :=
  [ TRef.unary (TRef.of (T := ⟨S65536, .f32⟩) main_call4_v2) (TRef.of (T := ⟨S65536x1, .f32⟩) main_call4_v3) (broadcastInDim S65536x1 ![0] bcast_S65536_S65536x1_0),
    TRef.unary (TRef.of (T := ⟨S65536x1, .f32⟩) main_call4_v3) (TRef.of (T := ⟨S65536x2049, .f32⟩) main_call4_v4) (broadcastInDim S65536x2049 ![0, 1] bcast_S65536x1_S65536x2049_0_1),
    TRef.binary (TRef.of (T := ⟨S65536x2049, .f32⟩) main_v74) (TRef.of (T := ⟨S65536x2049, .f32⟩) main_call4_v4) (TRef.of (T := ⟨S65536x2049, .f32⟩) main_call4_v5) subf ]

/-- Operations 115–117: the exponentials and their row sums. -/
abbrev QD : List (HloOp τ sig (Elt F)) :=
  [ TRef.unary (TRef.of (T := ⟨S65536x2049, .f32⟩) main_call4_v5) (TRef.of (T := ⟨S65536x2049, .f32⟩) main_call4_v6) Host.exp,
    TRef.nullary (TRef.of (T := ⟨S_, .f32⟩) main_call4_cst_1) (constant S_ .f32 0x00000000#32),
    TRef.binary (TRef.of (T := ⟨S65536x2049, .f32⟩) main_call4_v6) (TRef.of (T := ⟨S_, .f32⟩) main_call4_cst_1) (TRef.of (T := ⟨S65536, .f32⟩) main_call4_v7) (fun x v => Host.reduceAdd x v reducesTo_S65536x2049_S65536_d1 h_S_) ]

/-- Operations 118–121: the logarithms of the sums, and the shifted rows less them. -/
abbrev QE : List (HloOp τ sig (Elt F)) :=
  [ TRef.unary (TRef.of (T := ⟨S65536, .f32⟩) main_call4_v7) (TRef.of (T := ⟨S65536x1, .f32⟩) main_call4_v8) (broadcastInDim S65536x1 ![0] bcast_S65536_S65536x1_0),
    TRef.unary (TRef.of (T := ⟨S65536x1, .f32⟩) main_call4_v8) (TRef.of (T := ⟨S65536x1, .f32⟩) main_call4_v9) Host.log,
    TRef.unary (TRef.of (T := ⟨S65536x1, .f32⟩) main_call4_v9) (TRef.of (T := ⟨S65536x2049, .f32⟩) main_call4_v10) (broadcastInDim S65536x2049 ![0, 1] bcast_S65536x1_S65536x2049_0_1),
    TRef.binary (TRef.of (T := ⟨S65536x2049, .f32⟩) main_call4_v5) (TRef.of (T := ⟨S65536x2049, .f32⟩) main_call4_v10) (TRef.of (T := ⟨S65536x2049, .f32⟩) main_v75) subf ]

/-- Operations 122–133: entry 0 negated and weighted, the two sums, the quotient. -/
abbrev P4 : List (HloOp τ sig (Elt F)) :=
  [ unary main_v75 main_v76 ((extractStridedSlice S65536x1 ![0, 0] · slices_S65536x2049_S65536x1_0_0) : (⟨S65536x2049, .f32⟩ : BufTy).Contents (Elt F) → (⟨S65536x1, .f32⟩ : BufTy).Contents (Elt F)),
    reshape main_v76 main_v77 rfl shapeCasts_S65536x1_S65536,
    unary main_v77 main_v78 (Host.negf : (⟨S65536, .f32⟩ : BufTy).Contents (Elt F) → (⟨S65536, .f32⟩ : BufTy).Contents (Elt F)),
    unary main_v3 main_v79 (uitofp .f32 : (⟨S65536, .i1⟩ : BufTy).Contents (Elt F) → (⟨S65536, .f32⟩ : BufTy).Contents (Elt F)),
    binary main_v78 main_v79 main_v80 (mulf : (⟨S65536, .f32⟩ : BufTy).Contents (Elt F) → (⟨S65536, .f32⟩ : BufTy).Contents (Elt F) → (⟨S65536, .f32⟩ : BufTy).Contents (Elt F)),
    nullary main_cst_15 (constant S_ .f32 0x00000000#32),
    binary main_v80 main_cst_15 main_v81 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_16 (constant S_ .f32 0x00000000#32),
    binary main_v79 main_cst_16 main_v82 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_17 (constant S_ .f32 0x3F800000#32),
    binary main_v82 main_cst_17 main_v83 (maximumf : (⟨S_, .f32⟩ : BufTy).Contents (Elt F) → (⟨S_, .f32⟩ : BufTy).Contents (Elt F) → (⟨S_, .f32⟩ : BufTy).Contents (Elt F)),
    binary main_v81 main_v83 main_v84 (Host.divf : (⟨S_, .f32⟩ : BufTy).Contents (Elt F) → (⟨S_, .f32⟩ : BufTy).Contents (Elt F) → (⟨S_, .f32⟩ : BufTy).Contents (Elt F)) ]

set_option maxHeartbeats 4000000 in
theorem ops_split : (ops : List (HloOp τ sig (Elt F))) = P1 ++ (P2 ++ (PC ++ (QA ++ (QB ++ (QC ++ (QD ++ (QE ++ P4))))))) := rfl

/-! ## Stage 1 -/

theorem s1_v38 (V0 : Valuation τ sig (Elt F)) :
    after P1 V0 (Proc.devRef .tc main_v38) = ReadP.val_main_v38 (F := F) (V0 (Proc.devRef .tc main_arg0)) := by
  after_results_simp
  rfl

theorem s1_v43 (V0 : Valuation τ sig (Elt F)) :
    after P1 V0 (Proc.devRef .tc main_v43) = ReadP.val_main_v43 (F := F) (V0 (Proc.devRef .tc main_arg1)) (V0 (Proc.devRef .tc main_arg2)) := by
  after_results_simp
  rfl

theorem s1_v33 (V0 : Valuation τ sig (Elt F)) :
    after P1 V0 (Proc.devRef .tc main_v33) = ReadP.val_main_v33 (F := F) (V0 (Proc.devRef .tc main_arg5)) := by
  after_results_simp
  rfl

theorem s1_v31 (V0 : Valuation τ sig (Elt F)) :
    after P1 V0 (Proc.devRef .tc main_v31) = ReadP.val_main_v31 (F := F) (V0 (Proc.devRef .tc main_arg2)) (V0 (Proc.devRef .tc main_arg4)) := by
  after_results_simp
  rfl

theorem s1_v1 (V0 : Valuation τ sig (Elt F)) :
    after P1 V0 (Proc.devRef .tc main_v1) = ReadP.val_main_v1 (F := F) (V0 (Proc.devRef .tc main_arg1)) := by
  after_results_simp
  rfl

theorem s1_v3 (V0 : Valuation τ sig (Elt F)) :
    after P1 V0 (Proc.devRef .tc main_v3) = ReadP.val_main_v3 (F := F) (V0 (Proc.devRef .tc main_arg1)) := by
  after_results_simp
  rfl

theorem s1_v10 (V0 : Valuation τ sig (Elt F)) :
    after P1 V0 (Proc.devRef .tc main_v10) = ReadP.val_main_v10 (F := F) (V0 (Proc.devRef .tc main_arg1)) (V0 (Proc.devRef .tc main_arg3)) := by
  after_results_simp
  rfl

theorem s1_v17 (V0 : Valuation τ sig (Elt F)) :
    after P1 V0 (Proc.devRef .tc main_v17) = ReadP.val_main_v17 (F := F) (V0 (Proc.devRef .tc main_arg3)) (V0 (Proc.devRef .tc main_arg4)) := by
  after_results_simp
  rfl

theorem s1_arg4 (V0 : Valuation τ sig (Elt F)) : after P1 V0 (Proc.devRef .tc main_arg4) = V0 (Proc.devRef .tc main_arg4) := by
  after_results_simp

/-! ## Stage 2 -/

/-- The positive logits as a column. -/
theorem s2_v73 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h38 : W (Proc.devRef .tc main_v38) = ReadP.val_main_v38 (F := F) a0)
    (h43 : W (Proc.devRef .tc main_v43) = ReadP.val_main_v43 (F := F) a1 a2)
    (h33 : W (Proc.devRef .tc main_v33) = ReadP.val_main_v33 (F := F) a5)
    (h10 : W (Proc.devRef .tc main_v10) = ReadP.val_main_v10 (F := F) a1 a3) :
    after P2 W (Proc.devRef .tc main_v73) = ReadP.val_main_v73 (F := F) a0 a1 a2 a3 a5 := by
  after_results_simp
  rw [h38, h43, h33, h10]
  rfl

/-- The masked, scaled and shifted negative logits. -/
theorem s2_v72 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h38 : W (Proc.devRef .tc main_v38) = ReadP.val_main_v38 (F := F) a0)
    (h33 : W (Proc.devRef .tc main_v33) = ReadP.val_main_v33 (F := F) a5)
    (h31 : W (Proc.devRef .tc main_v31) = ReadP.val_main_v31 (F := F) a2 a4)
    (h1 : W (Proc.devRef .tc main_v1) = ReadP.val_main_v1 (F := F) a1)
    (h17 : W (Proc.devRef .tc main_v17) = ReadP.val_main_v17 (F := F) a3 a4)
    (h4 : W (Proc.devRef .tc main_arg4) = a4) :
    after P2 W (Proc.devRef .tc main_v72) = ReadP.val_main_v72 (F := F) a0 a1 a2 a3 a4 a5 := by
  after_results_simp
  rw [h38, h33, h31, h1, h17, h4]
  rfl

theorem s2_v3 (W : Valuation τ sig (Elt F)) : after P2 W (Proc.devRef .tc main_v3) = W (Proc.devRef .tc main_v3) := by
  after_results_simp

/-! ## The join -/

/-- The joined rows, from the two operands. -/
theorem sC_v74 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h73 : W (Proc.devRef .tc main_v73) = ReadP.val_main_v73 (F := F) a0 a1 a2 a3 a5)
    (h72 : W (Proc.devRef .tc main_v72) = ReadP.val_main_v72 (F := F) a0 a1 a2 a3 a4 a5) :
    after PC W (Proc.devRef .tc main_v74) = ReadP.val_main_v74 (F := F) a0 a1 a2 a3 a4 a5 := by
  after_results_simp
  exact congrArg₂ (fun (p : (⟨S65536x1, .f32⟩ : BufTy).Contents (Elt F)) (q : (⟨S65536x2048, .f32⟩ : BufTy).Contents (Elt F)) =>
    concatenate S65536x2049 1 [⟨S65536x1, p⟩, ⟨S65536x2048, q⟩] concatenates_S65536x1_S65536x2048_S65536x2049_d1) h73 h72

theorem sC_v3 (W : Valuation τ sig (Elt F)) : after PC W (Proc.devRef .tc main_v3) = W (Proc.devRef .tc main_v3) := by
  after_results_simp

/-! ## Stage 3: the log-softmax, step by step -/

/-- The row maxima, over any incoming rows. -/
theorem qa_v0_of (W : Valuation τ sig (Elt F)) (y : (⟨S65536x2049, .f32⟩ : BufTy).Contents (Elt F))
    (h74 : W (Proc.devRef .tc main_v74) = y) :
    after QA W (Proc.devRef .tc main_call4_v0)
      = Host.reduce FloatOps.maximumf y (constant (F := F) S_ .f32 0xFF800000#32) reducesTo_S65536x2049_S65536_d1 h_S_ := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', h74]
  -- each operand's transport to its declared type is the operand (a transport along an equation of types), …
  have ey : (TRef.of (T := ⟨S65536x2049, .f32⟩) main_v74).ofBuf y = y := eq_of_heq (cast_heq _ _)
  have ec1 : HEq ((TRef.of (T := ⟨S_, .f32⟩) main_call4_cst).toBuf (Val := Elt F)
      (constant (F := F) S_ .f32 0xFF800000#32 : (⟨S_, .f32⟩ : BufTy).Contents (Elt F)))
      (constant (F := F) S_ .f32 0xFF800000#32) := cast_heq _ _
  have ec : (TRef.of (T := ⟨S_, .f32⟩) main_call4_cst).ofBuf
      ((TRef.of (T := ⟨S_, .f32⟩) main_call4_cst).toBuf (Val := Elt F)
        (constant (F := F) S_ .f32 0xFF800000#32 : (⟨S_, .f32⟩ : BufTy).Contents (Elt F)))
        = constant (F := F) S_ .f32 0xFF800000#32 := eq_of_heq ((cast_heq _ _).trans ec1)
  rw [ey, ec]
  -- … and so is the transport of the reduce to the result buffer's type
  exact eq_of_heq (cast_heq _ _)

theorem qa_v0 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h74 : W (Proc.devRef .tc main_v74) = ReadP.val_main_v74 (F := F) a0 a1 a2 a3 a4 a5) :
    after QA W (Proc.devRef .tc main_call4_v0) = ReadP.val_main_call4_v0 (F := F) a0 a1 a2 a3 a4 a5 := by
  refine (qa_v0_of W _ h74).trans ?_
  unfold ReadP.val_main_call4_v0 ReadP.val_main_call4_cst
  rfl
theorem qa_74 (W : Valuation τ sig (Elt F)) : after QA W (Proc.devRef .tc main_v74) = W (Proc.devRef .tc main_v74) := by
  after_results_simp
theorem qa_3 (W : Valuation τ sig (Elt F)) : after QA W (Proc.devRef .tc main_v3) = W (Proc.devRef .tc main_v3) := by
  after_results_simp

/-- The maxima clamped below by −∞, over any incoming maxima. -/
theorem qb_v2_of (W : Valuation τ sig (Elt F)) (y : (⟨S65536, .f32⟩ : BufTy).Contents (Elt F))
    (h0 : W (Proc.devRef .tc main_call4_v0) = y) :
    after QB W (Proc.devRef .tc main_call4_v2)
      = maximumf (F := F) (φ := .f32) (broadcastInDim S65536 ![] bcast_S_S65536 (constant (F := F) S_ .f32 0xFF800000#32)) y := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', h0]
  rfl

theorem qb_v2 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h0 : W (Proc.devRef .tc main_call4_v0) = ReadP.val_main_call4_v0 (F := F) a0 a1 a2 a3 a4 a5) :
    after QB W (Proc.devRef .tc main_call4_v2) = ReadP.val_main_call4_v2 (F := F) a0 a1 a2 a3 a4 a5 := by
  refine (qb_v2_of W _ h0).trans ?_
  unfold ReadP.val_main_call4_v2 ReadP.val_main_call4_v1 ReadP.val_main_call4_cst_0
  rfl
theorem qb_74 (W : Valuation τ sig (Elt F)) : after QB W (Proc.devRef .tc main_v74) = W (Proc.devRef .tc main_v74) := by
  after_results_simp
theorem qb_3 (W : Valuation τ sig (Elt F)) : after QB W (Proc.devRef .tc main_v3) = W (Proc.devRef .tc main_v3) := by
  after_results_simp

theorem qc_v5 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h74 : W (Proc.devRef .tc main_v74) = ReadP.val_main_v74 (F := F) a0 a1 a2 a3 a4 a5)
    (h2 : W (Proc.devRef .tc main_call4_v2) = ReadP.val_main_call4_v2 (F := F) a0 a1 a2 a3 a4 a5) :
    after QC W (Proc.devRef .tc main_call4_v5) = ReadP.val_main_call4_v5 (F := F) a0 a1 a2 a3 a4 a5 := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', h74, h2]
  rfl
theorem qc_3 (W : Valuation τ sig (Elt F)) : after QC W (Proc.devRef .tc main_v3) = W (Proc.devRef .tc main_v3) := by
  after_results_simp

theorem qd_v7 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h5 : W (Proc.devRef .tc main_call4_v5) = ReadP.val_main_call4_v5 (F := F) a0 a1 a2 a3 a4 a5) :
    after QD W (Proc.devRef .tc main_call4_v7) = ReadP.val_main_call4_v7 (F := F) a0 a1 a2 a3 a4 a5 := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', h5]
  rfl
theorem qd_v5 (W : Valuation τ sig (Elt F)) : after QD W (Proc.devRef .tc main_call4_v5) = W (Proc.devRef .tc main_call4_v5) := by
  after_results_simp
theorem qd_3 (W : Valuation τ sig (Elt F)) : after QD W (Proc.devRef .tc main_v3) = W (Proc.devRef .tc main_v3) := by
  after_results_simp

theorem qe_v75 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h5 : W (Proc.devRef .tc main_call4_v5) = ReadP.val_main_call4_v5 (F := F) a0 a1 a2 a3 a4 a5)
    (h7 : W (Proc.devRef .tc main_call4_v7) = ReadP.val_main_call4_v7 (F := F) a0 a1 a2 a3 a4 a5) :
    after QE W (Proc.devRef .tc main_v75) = ReadP.val_main_v75 (F := F) a0 a1 a2 a3 a4 a5 := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', h5, h7]
  rfl
theorem qe_3 (W : Valuation τ sig (Elt F)) : after QE W (Proc.devRef .tc main_v3) = W (Proc.devRef .tc main_v3) := by
  after_results_simp

/-- The log-softmax of the joined rows, from the joined rows. -/
theorem s3_v75 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h74 : W (Proc.devRef .tc main_v74) = ReadP.val_main_v74 (F := F) a0 a1 a2 a3 a4 a5) :
    after QE (after QD (after QC (after QB (after QA W)))) (Proc.devRef .tc main_v75) = ReadP.val_main_v75 (F := F) a0 a1 a2 a3 a4 a5 := by
  have e0 := qa_v0 W a0 a1 a2 a3 a4 a5 h74
  have e2 := qb_v2 (after QA W) a0 a1 a2 a3 a4 a5 e0
  have e74 : after QB (after QA W) (Proc.devRef .tc main_v74) = ReadP.val_main_v74 (F := F) a0 a1 a2 a3 a4 a5 :=
    (qb_74 _).trans ((qa_74 W).trans h74)
  have e5 := qc_v5 (after QB (after QA W)) a0 a1 a2 a3 a4 a5 e74 e2
  have e7 := qd_v7 (after QC (after QB (after QA W))) a0 a1 a2 a3 a4 a5 e5
  have e5' : after QD (after QC (after QB (after QA W))) (Proc.devRef .tc main_call4_v5) = ReadP.val_main_call4_v5 (F := F) a0 a1 a2 a3 a4 a5 :=
    (qd_v5 _).trans e5
  exact qe_v75 _ a0 a1 a2 a3 a4 a5 e5' e7

theorem s3_v3 (W : Valuation τ sig (Elt F)) :
    after QE (after QD (after QC (after QB (after QA W)))) (Proc.devRef .tc main_v3) = W (Proc.devRef .tc main_v3) :=
  (qe_3 _).trans ((qd_3 _).trans ((qc_3 _).trans ((qb_3 _).trans (qa_3 W))))

/-! ## Stage 4 -/

/-- The weighted mean of the negated entries 0. -/
theorem s4_v84 (W : Valuation τ sig (Elt F))
    (a0 : (⟨S1024x64x128, .f32⟩ : BufTy).Contents (Elt F)) (a1 : (⟨S1024x64, .i32⟩ : BufTy).Contents (Elt F))
    (a2 : (⟨S100000x128, .f32⟩ : BufTy).Contents (Elt F)) (a3 : (⟨S100000, .f32⟩ : BufTy).Contents (Elt F))
    (a4 : (⟨S2048, .i32⟩ : BufTy).Contents (Elt F)) (a5 : (⟨S_, .f32⟩ : BufTy).Contents (Elt F))
    (h75 : W (Proc.devRef .tc main_v75) = ReadP.val_main_v75 (F := F) a0 a1 a2 a3 a4 a5)
    (h3 : W (Proc.devRef .tc main_v3) = ReadP.val_main_v3 (F := F) a1) :
    after P4 W (Proc.devRef .tc main_v84) = ReadP.val_main_v84 (F := F) a0 a1 a2 a3 a4 a5 := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', h75, h3]
  rfl

/-! ## The result and the run -/

/-- The result buffer after all 133 operations: the last stage of the six arguments. -/
theorem result_eq (V0 : Valuation τ sig (Elt F)) :
    after ops V0 (Proc.devRef .tc main_v84)
      = ReadP.val_main_v84 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  rw [ops_split, after_append, after_append, after_append, after_append, after_append, after_append, after_append, after_append]
  exact s4_v84 _ (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    (s3_v75 _ (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
      (sC_v74 _ (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
        (s2_v73 _ (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (s1_v38 V0) (s1_v43 V0) (s1_v33 V0) (s1_v10 V0))
        (s2_v72 _ (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (s1_v38 V0) (s1_v33 V0) (s1_v31 V0) (s1_v1 V0) (s1_v17 V0) (s1_arg4 V0))))
    ((s3_v3 _).trans ((sC_v3 _).trans ((s2_v3 _).trans (s1_v3 V0))))

set_option maxHeartbeats 8000000 in
/-- On every device, for any float values, from any memory with zero counters: every weakly fair execution of @main
    terminates with the result at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = ReadP.val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v84).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.PreDecode.lean ====
/-
  The precondition, decoded.  The printed predicate is a conjunction of six "all" tests; when it is all ones,
    * every entry of hidden, of embed_table and of sampling_probs is a real number (neither ⊤ nor ⊥), and
    * the probabilities gathered at the class ids, and those gathered at the sampled ids, each plus the f32 word of
      1e-10, are strictly positive — so the logarithms both programs take of them are real.
-/
import proofs.«120988_j34162169873007_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreDecode

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- The f32 word of +∞ is ⊤. -/
theorem ofBits_inf : Ideal.ofBits .f32 0x7F800000#32 = (⊤ : EReal) := by simp [Ideal.ofBits, Ideal.ieee]

/-- |x| < +∞, as the predicate tests it, says x is a real number. -/
theorem finite_of_test (x : EReal)
    (h : FloatOps.cmpf (F := Ideal) .olt (FloatOps.hostAbsf (F := Ideal) (φ := .f32) x) (Ideal.ofBits .f32 0x7F800000#32) = 1#1) :
    x ≠ ⊤ ∧ x ≠ ⊥ := by
  rw [ofBits_inf] at h
  have h' : max x (-x) < ⊤ := by
    by_contra hn
    have : FloatOps.cmpf (F := Ideal) .olt (FloatOps.hostAbsf (F := Ideal) (φ := .f32) x) (⊤ : EReal) = 0#1 := by
      show BitVec.ofBool (decide (max x (-x) < ⊤)) = 0#1
      rw [decide_eq_false hn]; rfl
    rw [this] at h; exact absurd h (by decide)
  constructor
  · rintro rfl; simp at h'
  · rintro rfl; simp at h'

/-- x + ε > 0, as the predicate tests it. -/
theorem pos_of_test (x e : EReal)
    (h : FloatOps.cmpf (F := Ideal) (φ := .f32) .ogt (x + e) (Ideal.ofBits .f32 0x00000000#32) = 1#1) : 0 < x + e := by
  rw [Ideal.ofBits_zero_f32] at h
  by_contra hn
  have : FloatOps.cmpf (F := Ideal) (φ := .f32) .ogt (x + e) (0 : EReal) = 0#1 := by
    show BitVec.ofBool (decide ((0 : EReal) < x + e)) = 0#1
    rw [decide_eq_false hn]; rfl
  rw [this] at h; exact absurd h (by decide)

/-- The class ids, flattened, with a negative id wrapped by the table's length: the start indices of the gathers. -/
def wrapIds65536 (a1 : IVec S1024x64 32) : IVec S65536x1 32 :=
  broadcastInDim S65536x1 ![0] bcast_S65536_S65536x1_0
    (select (cmpi .slt (shapeCast S65536 a1 shapeCasts_S1024x64_S65536) (broadcastInDim S65536 ![] bcast_S_S65536 (constantI S_ 32 0#32)))
      (addi (shapeCast S65536 a1 shapeCasts_S1024x64_S65536) (broadcastInDim S65536 ![] bcast_S_S65536 (constantI S_ 32 100000#32)))
      (shapeCast S65536 a1 shapeCasts_S1024x64_S65536))

/-- The sampled ids with a negative id wrapped likewise. -/
def wrapIds2048 (a4 : IVec S2048 32) : IVec S2048x1 32 :=
  broadcastInDim S2048x1 ![0] bcast_S2048_S2048x1_0
    (select (cmpi .slt a4 (broadcastInDim S2048 ![] bcast_S_S2048 (constantI S_ 32 0#32)))
      (addi a4 (broadcastInDim S2048 ![] bcast_S_S2048 (constantI S_ 32 100000#32))) a4)

/-- The precondition's six facts. -/
theorem decode (a0 : FVec Ideal S1024x64x128 .f32) (a1 : IVec S1024x64 32) (a2 : FVec Ideal S100000x128 .f32)
    (a3 : FVec Ideal S100000 .f32) (a4 : IVec S2048 32) (a5 : FVec Ideal S_ .f32)
    (h : fn (F := Ideal) a0 a1 a2 a3 a4 a5 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥)
    ∧ (∀ n, 0 < Host.gather gather_S100000_S65536x1_S65536_n_0_n_n_0_1_1 a3 (wrapIds65536 a1) n + Ideal.ofBits .f32 0x2EDBE6FF#32)
    ∧ (∀ j, 0 < Host.gather gather_S100000_S2048x1_S2048_n_0_n_n_0_1_1 a3 (wrapIds2048 a4) j + Ideal.ofBits .f32 0x2EDBE6FF#32) := by
  have h0 := congrFun h ix0
  dsimp only [fn, fn_part1, fn_part2] at h0
  obtain ⟨h31, h43⟩ := IntOp.andi_eq_one.mp h0
  obtain ⟨h17, h30⟩ := IntOp.andi_eq_one.mp h31
  obtain ⟨h13, h16⟩ := IntOp.andi_eq_one.mp h17
  obtain ⟨h8, h12⟩ := IntOp.andi_eq_one.mp h13
  obtain ⟨h3, h7⟩ := IntOp.andi_eq_one.mp h8
  refine ⟨fun i => finite_of_test _ (Host.reduce_andi_all _ _ _ _ ix0 h3 i),
    fun i => finite_of_test _ (Host.reduce_andi_all _ _ _ _ ix0 h7 i),
    fun i => finite_of_test _ (Host.reduce_andi_all _ _ _ _ ix0 h12 i),
    fun n => pos_of_test _ _ (Host.reduce_andi_all _ _ _ _ ix0 h30 n),
    fun j => pos_of_test _ _ (Host.reduce_andi_all _ _ _ _ ix0 h43 j)⟩

end Cert.PreDecode

end
-- ==== Proof.lean ====
/-
  The certificate of a sampled-softmax loss kernel against its jnp reference, over the extended reals.

  Both programs take hidden states [1024, 64, 128], class ids [1024, 64], an embedding table [100000, 128], a table of
  sampling probabilities [100000], 2048 sampled class ids and a log-temperature, and return one number: over the 65536
  rows n, the sum of w n · loss n divided by max(Σ w n, 1), where w n is 1 when row n's class id is not 0 and
      loss n = −log softmax_0 of the row [p n, N n 0, …, N n 2047],
  p n the scaled cosine of the hidden row with its class's embedding less the log of that class's probability plus
  1e-10, and N n j the scaled cosine with sampled class j's embedding (−1e9 where the ids coincide) less the log of that
  class's probability plus 1e-10.

  The kernel computes 64 blocks of 1024 rows in two sweeps of 32 steps, each sweep accumulating (Σ w · loss, Σ w) of its
  blocks in one [1, 1, 2] output block; the host adds the two sweeps and divides.  Its loss is log-sum-exp minus p with the
  maximum split as max p (max N) and the sum as exp(p − M) + Σ exp(N − M); the reference's is the negated entry 0 of the
  log-softmax of the joined row.  The two agree when p is real and no N is ⊤ (Proof/Algebra.lean, the row law), which the
  precondition gives: finite inputs, and the two logarithms' arguments positive.  The kernel multiplies the negative
  embeddings by the temperature before the product, the reference after: equal because the temperature lies in [0, ⊤).
  The block sums regroup into the reference's one sum because addition of extended reals is commutative and associative.

  The three frames: the two kernels' are the generated frame certificates; the reference's is its run with the result
  dropped.  The ideal pass rewrote nothing, so the idealization claim is trivial.
-/
import proofs.«120988_j34162169873007_2_alg».proof.Defs
import proofs.«120988_j34162169873007_2_alg».proof.Proof.Gen.Kernel
import proofs.«120988_j34162169873007_2_alg».proof.Proof.Gen.Kernel.Skeleton
import proofs.«120988_j34162169873007_2_alg».proof.Proof.Gen.Kernel.Launch
import proofs.«120988_j34162169873007_2_alg».proof.Proof.Gen.Kernel.Points
import proofs.«120988_j34162169873007_2_alg».proof.Proof.Gen.Kernel.Frame
import proofs.«120988_j34162169873007_2_alg».proof.Proof.Gen.KernelIdeal
import proofs.«120988_j34162169873007_2_alg».proof.Proof.Gen.KernelIdeal.Skeleton
import proofs.«120988_j34162169873007_2_alg».proof.Proof.Gen.KernelIdeal.Launch
import proofs.«120988_j34162169873007_2_alg».proof.Proof.Gen.KernelIdeal.Points
import proofs.«120988_j34162169873007_2_alg».proof.Proof.Gen.KernelIdeal.Frame
import proofs.«120988_j34162169873007_2_alg».proof.Proof.Gen.ReferenceIdeal
import proofs.«120988_j34162169873007_2_alg».proof.Proof.Gen.Pre_finite_inputs
import proofs.«120988_j34162169873007_2_alg».proof.Proof.Bridge
import proofs.«120988_j34162169873007_2_alg».proof.Proof.KernelRun
import proofs.«120988_j34162169873007_2_alg».proof.Proof.RefRun
import proofs.«120988_j34162169873007_2_alg».proof.Proof.PreDecode
import Idealize.ShloMosaic.Adequacy
import Idealize.ShloMosaic.Init

noncomputable section

namespace Cert.Proof

open Idealize.ShloMosaic Idealize.ShloMosaic.TcCoe Idealize.SL.Sem Cert.LossReal

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments, under the precondition, the two idealized programs end with the same number:
    the kernel's (the tail of its output array) is the reference's last stage of the arguments (Proof/Bridge.lean). -/
theorem algebraic : Cert.algebraic_KernelIdeal_ReferenceIdeal := by
  intro m ρ m' ρ' hpre hagree
  refine ⟨fun c => Cert.KernelIdeal.Final.tail (Cert.KernelIdeal.Final.outArr m c), Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  obtain ⟨g0, g1, g2, g3, g4, g5⟩ := hagree c
  rw [g0, g1, g2, g3, g4, g5]
  obtain ⟨r0, r2, r3, p1, p2⟩ := Cert.PreDecode.decode _ _ _ _ _ _ (hpre c)
  exact (Cert.Bridge.result_bridge m c (fun i => isReal_of_ne (r0 i).1 (r0 i).2) (fun i => isReal_of_ne (r2 i).1 (r2 i).2)
    (fun i => isReal_of_ne (r3 i).1 (r3 i).2) (fun n => p1 n) (fun j => p2 j)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
